-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x128 : Shape := ⟨2, ![65536, 128]⟩
abbrev S65536x3 : Shape := ⟨2, ![65536, 3]⟩
abbrev S32768x3 : Shape := ⟨2, ![32768, 3]⟩
abbrev S2x524288 : Shape := ⟨2, ![2, 524288]⟩
abbrev S6x128 : Shape := ⟨2, ![6, 128]⟩
abbrev S128 : Shape := ⟨1, ![128]⟩
abbrev S128x128 : Shape := ⟨2, ![128, 128]⟩
abbrev S256x128 : Shape := ⟨2, ![256, 128]⟩
abbrev S_ : Shape := ⟨0, ![]⟩
abbrev S32768 : Shape := ⟨1, ![32768]⟩
abbrev S1x524288 : Shape := ⟨2, ![1, 524288]⟩
abbrev S524288 : Shape := ⟨1, ![524288]⟩
abbrev S524288x1 : Shape := ⟨2, ![524288, 1]⟩

class Facts : Prop where
  bcast_S_S65536x128 : S_.BroadcastsInDim S65536x128 (![] : Fin 0 → Fin S65536x128.rank)
  reducesTo_S65536x128_S_d0_1 : S65536x128.ReducesTo [0, 1] S_
  h_S_ : 0 < S_.numel
  bcast_S_S65536x3 : S_.BroadcastsInDim S65536x3 (![] : Fin 0 → Fin S65536x3.rank)
  reducesTo_S65536x3_S_d0_1 : S65536x3.ReducesTo [0, 1] S_
  bcast_S_S32768x3 : S_.BroadcastsInDim S32768x3 (![] : Fin 0 → Fin S32768x3.rank)
  reducesTo_S32768x3_S_d0_1 : S32768x3.ReducesTo [0, 1] S_
  bcast_S_S6x128 : S_.BroadcastsInDim S6x128 (![] : Fin 0 → Fin S6x128.rank)
  reducesTo_S6x128_S_d0_1 : S6x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S32768 : S_.BroadcastsInDim S32768 (![] : Fin 0 → Fin S32768.rank)
  slices_S2x524288_S1x524288_1_0 : S2x524288.Slices ![1, 0] S1x524288
  shapeCasts_S1x524288_S524288 : S1x524288.ShapeCasts S524288
  bcast_S524288_S524288x1_0 : S524288.BroadcastsInDim S524288x1 (![0] : Fin 1 → Fin S524288x1.rank)
  bcast_S_S524288 : S_.BroadcastsInDim S524288 (![] : Fin 0 → Fin S524288.rank)
  reducesTo_S32768_S_d0 : S32768.ReducesTo [0] S_
  scatter_S32768_S524288x1_S524288_n_0_0_1_wf : ScatterDims.WF S32768 S524288x1 S524288 [] [0] [0] 1

variable [Facts]

def scatter_S32768_S524288x1_S524288_n_0_0_1 : ScatterDims S32768 S524288x1 S524288 where
  updateWindowDims := []
  insertedWindowDims := [0]
  scatterDimsToOperandDims := [0]
  indexVectorDim := 1
  wf := scatter_S32768_S524288x1_S524288_n_0_0_1_wf
def fn_part4 {F : FTy → Type} [FloatOps F] (main_arg3 : IVec S2x524288 32) (main_arg15 : FVec F S128 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_cst_28 : FVec F S_ .f32 := constant S_ .f32 0x00000000#32
  let main_v74 : FVec F S32768 .f32 := broadcastInDim S32768 ![] bcast_S_S32768 main_cst_28
  let main_v75 : IVec S1x524288 32 := (extractStridedSlice S1x524288 ![1, 0] · slices_S2x524288_S1x524288_1_0) main_arg3
  let main_v76 : IVec S524288 32 := shapeCast S524288 main_v75 shapeCasts_S1x524288_S524288
  let main_v77 : IVec S524288x1 32 := broadcastInDim S524288x1 ![0] bcast_S524288_S524288x1_0 main_v76
  let main_cst_29 : FVec F S_ .f32 := constant S_ .f32 0x3F800000#32
  let main_v78 : FVec F S524288 .f32 := broadcastInDim S524288 ![] bcast_S_S524288 main_cst_29
  let main_v79 : FVec F S32768 .f32 := (fun x i u => Host.scatterAdd scatter_S32768_S524288x1_S524288_n_0_0_1 x i u) main_v74 main_v77 main_v78
  let main_cst_30 : FVec F S_ .f32 := constant S_ .f32 0x3F800000#32
  let main_v80 : FVec F S32768 .f32 := broadcastInDim S32768 ![] bcast_S_S32768 main_cst_30
  let main_v81 : IVec S32768 1 := cmpf .oge main_v79 main_v80
  let main_c_31 : IVec S_ 1 := constantI S_ 1 1#1
  let main_v82 : IVec S_ 1 := (fun x v => Host.reduce IntOp.andi x v reducesTo_S32768_S_d0 h_S_) main_v81 main_c_31
  let main_v83 : IVec S_ 1 := andi main_v73 main_v82
  main_v83

def fn_part3 {F : FTy → Type} [FloatOps F] (main_arg3 : IVec S2x524288 32) (main_arg12 : FVec F S128x128 .f32) (main_arg13 : FVec F S128 .f32) (main_arg14 : FVec F S128x128 .f32) (main_arg15 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg12
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg14
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg3 main_arg15 main_v63 main_v67

def fn_part2 {F : FTy → Type} [FloatOps F] (main_arg3 : IVec S2x524288 32) (main_arg8 : FVec F S256x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_v33 : IVec S_ 1) : IVec S_ 1 :=
  let main_v34 : FVec F S256x128 .f32 := Host.absf main_arg8
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg3 main_arg12 main_arg13 main_arg14 main_arg15 main_v48 main_v49 main_v50

def fn_part1 {F : FTy → Type} [FloatOps F] (main_arg3 : IVec S2x524288 32) (main_arg5 : FVec F S128 .f32) (main_arg6 : FVec F S128x128 .f32) (main_arg7 : FVec F S128 .f32) (main_arg8 : FVec F S256x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_v13 : IVec S_ 1) (main_v16 : IVec S6x128 1) : IVec S_ 1 :=
  let main_c_5 : IVec S_ 1 := constantI S_ 1 1#1
  let main_v17 : IVec S_ 1 := (fun x v => Host.reduce IntOp.andi x v reducesTo_S6x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg3 main_arg8 main_arg9 main_arg10 main_arg11 main_arg12 main_arg13 main_arg14 main_arg15 main_v33

def fn {F : FTy → Type} [FloatOps F] (main_arg0 : FVec F S65536x128 .f32) (main_arg1 : FVec F S65536x3 .f32) (main_arg2 : FVec F S32768x3 .f32) (main_arg3 : IVec S2x524288 32) (main_arg4 : FVec F S6x128 .f32) (main_arg5 : FVec F S128 .f32) (main_arg6 : FVec F S128x128 .f32) (main_arg7 : FVec F S128 .f32) (main_arg8 : FVec F S256x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) : IVec S_ 1 :=
  let main_v0 : FVec F S65536x128 .f32 := Host.absf main_arg0
  let main_cst : FVec F S_ .f32 := constant S_ .f32 0x7F800000#32
  let main_v1 : FVec F S65536x128 .f32 := broadcastInDim S65536x128 ![] bcast_S_S65536x128 main_cst
  let main_v2 : IVec S65536x128 1 := cmpf .olt main_v0 main_v1
  let main_c : IVec S_ 1 := constantI S_ 1 1#1
  let main_v3 : IVec S_ 1 := (fun x v => Host.reduce IntOp.andi x v reducesTo_S65536x128_S_d0_1 h_S_) main_v2 main_c
  let main_v4 : FVec F S65536x3 .f32 := Host.absf main_arg1
  let main_cst_0 : FVec F S_ .f32 := constant S_ .f32 0x7F800000#32
  let main_v5 : FVec F S65536x3 .f32 := broadcastInDim S65536x3 ![] bcast_S_S65536x3 main_cst_0
  let main_v6 : IVec S65536x3 1 := cmpf .olt main_v4 main_v5
  let main_c_1 : IVec S_ 1 := constantI S_ 1 1#1
  let main_v7 : IVec S_ 1 := (fun x v => Host.reduce IntOp.andi x v reducesTo_S65536x3_S_d0_1 h_S_) main_v6 main_c_1
  let main_v8 : IVec S_ 1 := andi main_v3 main_v7
  let main_v9 : FVec F S32768x3 .f32 := Host.absf main_arg2
  let main_cst_2 : FVec F S_ .f32 := constant S_ .f32 0x7F800000#32
  let main_v10 : FVec F S32768x3 .f32 := broadcastInDim S32768x3 ![] bcast_S_S32768x3 main_cst_2
  let main_v11 : IVec S32768x3 1 := cmpf .olt main_v9 main_v10
  let main_c_3 : IVec S_ 1 := constantI S_ 1 1#1
  let main_v12 : IVec S_ 1 := (fun x v => Host.reduce IntOp.andi x v reducesTo_S32768x3_S_d0_1 h_S_) main_v11 main_c_3
  let main_v13 : IVec S_ 1 := andi main_v8 main_v12
  let main_v14 : FVec F S6x128 .f32 := Host.absf main_arg4
  let main_cst_4 : FVec F S_ .f32 := constant S_ .f32 0x7F800000#32
  let main_v15 : FVec F S6x128 .f32 := broadcastInDim S6x128 ![] bcast_S_S6x128 main_cst_4
  let main_v16 : IVec S6x128 1 := cmpf .olt main_v14 main_v15
  fn_part1 (F := F) main_arg3 main_arg5 main_arg6 main_arg7 main_arg8 main_arg9 main_arg10 main_arg11 main_arg12 main_arg13 main_arg14 main_arg15 main_v13 main_v16
-- ==== Kernel.lean ====
abbrev S65536x128 : Shape := ⟨2, ![65536, 128]⟩
abbrev S65536x3 : Shape := ⟨2, ![65536, 3]⟩
abbrev S32768x3 : Shape := ⟨2, ![32768, 3]⟩
abbrev S2x524288 : Shape := ⟨2, ![2, 524288]⟩
abbrev S6x128 : Shape := ⟨2, ![6, 128]⟩
abbrev S128 : Shape := ⟨1, ![128]⟩
abbrev S128x128 : Shape := ⟨2, ![128, 128]⟩
abbrev S256x128 : Shape := ⟨2, ![256, 128]⟩
abbrev S1x524288 : Shape := ⟨2, ![1, 524288]⟩
abbrev S524288 : Shape := ⟨1, ![524288]⟩
abbrev S_ : Shape := ⟨0, ![]⟩
abbrev S524288x1 : Shape := ⟨2, ![524288, 1]⟩
abbrev S524288x3 : Shape := ⟨2, ![524288, 3]⟩
abbrev S524288x128 : Shape := ⟨2, ![524288, 128]⟩
abbrev S524288x6 : Shape := ⟨2, ![524288, 6]⟩
abbrev S1x128 : Shape := ⟨2, ![1, 128]⟩
abbrev S4096x6 : Shape := ⟨2, ![4096, 6]⟩
abbrev S4096x128 : Shape := ⟨2, ![4096, 128]⟩
abbrev S32768x128 : Shape := ⟨2, ![32768, 128]⟩
abbrev S32768 : Shape := ⟨1, ![32768]⟩
abbrev S32768x1 : Shape := ⟨2, ![32768, 1]⟩
abbrev S4096x1 : Shape := ⟨2, ![4096, 1]⟩

abbrev nBuf : Space → Nat
  | .hbm => 77
  | .vmem => 25
  | .smem => 0
  | _ => 0

abbrev bufTy : (tb : Table) → Fin (tcTables nBuf tb) → BufTy
  | .hbm, ⟨0, _⟩ => ⟨S65536x128, .f32⟩
  | .hbm, ⟨1, _⟩ => ⟨S65536x3, .f32⟩
  | .hbm, ⟨2, _⟩ => ⟨S32768x3, .f32⟩
  | .hbm, ⟨3, _⟩ => ⟨S2x524288, .i32⟩
  | .hbm, ⟨4, _⟩ => ⟨S6x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S256x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S1x524288, .i32⟩
  | .hbm, ⟨17, _⟩ => ⟨S524288, .i32⟩
  | .hbm, ⟨18, _⟩ => ⟨S1x524288, .i32⟩
  | .hbm, ⟨19, _⟩ => ⟨S524288, .i32⟩
  | .hbm, ⟨20, _⟩ => ⟨S_, .i32⟩
  | .hbm, ⟨21, _⟩ => ⟨S524288, .i32⟩
  | .hbm, ⟨22, _⟩ => ⟨S524288, .i1⟩
  | .hbm, ⟨23, _⟩ => ⟨S_, .i32⟩
  | .hbm, ⟨24, _⟩ => ⟨S524288, .i32⟩
  | .hbm, ⟨25, _⟩ => ⟨S524288, .i32⟩
  | .hbm, ⟨26, _⟩ => ⟨S524288, .i32⟩
  | .hbm, ⟨27, _⟩ => ⟨S524288x1, .i32⟩
  | .hbm, ⟨28, _⟩ => ⟨S524288x3, .f32⟩
  | .hbm, ⟨29, _⟩ => ⟨S_, .i32⟩
  | .hbm, ⟨30, _⟩ => ⟨S524288, .i32⟩
  | .hbm, ⟨31, _⟩ => ⟨S524288, .i1⟩
  | .hbm, ⟨32, _⟩ => ⟨S_, .i32⟩
  | .hbm, ⟨33, _⟩ => ⟨S524288, .i32⟩
  | .hbm, ⟨34, _⟩ => ⟨S524288, .i32⟩
  | .hbm, ⟨35, _⟩ => ⟨S524288, .i32⟩
  | .hbm, ⟨36, _⟩ => ⟨S524288x1, .i32⟩
  | .hbm, ⟨37, _⟩ => ⟨S524288x3, .f32⟩
  | .hbm, ⟨38, _⟩ => ⟨S65536x128, .bf16⟩
  | .hbm, ⟨39, _⟩ => ⟨S_, .i32⟩
  | .hbm, ⟨40, _⟩ => ⟨S524288, .i32⟩
  | .hbm, ⟨41, _⟩ => ⟨S524288, .i1⟩
  | .hbm, ⟨42, _⟩ => ⟨S_, .i32⟩
  | .hbm, ⟨43, _⟩ => ⟨S524288, .i32⟩
  | .hbm, ⟨44, _⟩ => ⟨S524288, .i32⟩
  | .hbm, ⟨45, _⟩ => ⟨S524288, .i32⟩
  | .hbm, ⟨46, _⟩ => ⟨S524288x1, .i32⟩
  | .hbm, ⟨47, _⟩ => ⟨S524288x128, .bf16⟩
  | .hbm, ⟨48, _⟩ => ⟨S524288x6, .f32⟩
  | .hbm, ⟨49, _⟩ => ⟨S1x128, .f32⟩
  | .hbm, ⟨50, _⟩ => ⟨S1x128, .f32⟩
  | .hbm, ⟨51, _⟩ => ⟨S1x128, .f32⟩
  | .hbm, ⟨52, _⟩ => ⟨S1x128, .f32⟩
  | .hbm, ⟨53, _⟩ => ⟨S128x128, .f32⟩
  | .hbm, ⟨54, _⟩ => ⟨S128x128, .f32⟩
  | .hbm, ⟨55, _⟩ => ⟨S524288x128, .bf16⟩
  | .hbm, ⟨56, _⟩ => ⟨S524288x128, .f32⟩
  | .hbm, ⟨57, _⟩ => ⟨S_, .f32⟩
  | .hbm, ⟨58, _⟩ => ⟨S32768x128, .f32⟩
  | .hbm, ⟨59, _⟩ => ⟨S524288x1, .i32⟩
  | .hbm, ⟨60, _⟩ => ⟨S32768x128, .f32⟩
  | .hbm, ⟨61, _⟩ => ⟨S_, .f32⟩
  | .hbm, ⟨62, _⟩ => ⟨S524288, .f32⟩
  | .hbm, ⟨63, _⟩ => ⟨S_, .f32⟩
  | .hbm, ⟨64, _⟩ => ⟨S32768, .f32⟩
  | .hbm, ⟨65, _⟩ => ⟨S524288x1, .i32⟩
  | .hbm, ⟨66, _⟩ => ⟨S32768, .f32⟩
  | .hbm, ⟨67, _⟩ => ⟨S_, .f32⟩
  | .hbm, ⟨68, _⟩ => ⟨S32768, .f32⟩
  | .hbm, ⟨69, _⟩ => ⟨S32768, .f32⟩
  | .hbm, ⟨70, _⟩ => ⟨S_, .f32⟩
  | .hbm, ⟨71, _⟩ => ⟨S32768, .f32⟩
  | .hbm, ⟨72, _⟩ => ⟨S32768, .f32⟩
  | .hbm, ⟨73, _⟩ => ⟨S32768x1, .f32⟩
  | .hbm, ⟨74, _⟩ => ⟨S1x128, .f32⟩
  | .hbm, ⟨75, _⟩ => ⟨S1x128, .f32⟩
  | .hbm, ⟨76, _⟩ => ⟨S32768x128, .f32⟩
  | .local _ .vmem, ⟨0, _⟩ => ⟨S4096x6, .f32⟩
  | .local _ .vmem, ⟨1, _⟩ => ⟨S4096x6, .f32⟩
  | .local _ .vmem, ⟨2, _⟩ => ⟨S4096x128, .bf16⟩
  | .local _ .vmem, ⟨3, _⟩ => ⟨S4096x128, .bf16⟩
  | .local _ .vmem, ⟨4, _⟩ => ⟨S6x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S128x128, .f32⟩
  | .local _ .vmem, ⟨10, _⟩ => ⟨S1x128, .f32⟩
  | .local _ .vmem, ⟨11, _⟩ => ⟨S128x128, .f32⟩
  | .local _ .vmem, ⟨12, _⟩ => ⟨S1x128, .f32⟩
  | .local _ .vmem, ⟨13, _⟩ => ⟨S4096x128, .bf16⟩
  | .local _ .vmem, ⟨14, _⟩ => ⟨S4096x128, .bf16⟩
  | .local _ .vmem, ⟨15, _⟩ => ⟨S4096x128, .f32⟩
  | .local _ .vmem, ⟨16, _⟩ => ⟨S4096x128, .f32⟩
  | .local _ .vmem, ⟨17, _⟩ => ⟨S4096x1, .f32⟩
  | .local _ .vmem, ⟨18, _⟩ => ⟨S4096x1, .f32⟩
  | .local _ .vmem, ⟨19, _⟩ => ⟨S128x128, .f32⟩
  | .local _ .vmem, ⟨20, _⟩ => ⟨S1x128, .f32⟩
  | .local _ .vmem, ⟨21, _⟩ => ⟨S128x128, .f32⟩
  | .local _ .vmem, ⟨22, _⟩ => ⟨S1x128, .f32⟩
  | .local _ .vmem, ⟨23, _⟩ => ⟨S4096x128, .f32⟩
  | .local _ .vmem, ⟨24, _⟩ => ⟨S4096x128, .f32⟩
  | _, _ => ⟨S65536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c_1 : Ref sig .tc := ⟨.hbm, 29, rfl⟩
abbrev main_v11 : Ref sig .tc := ⟨.hbm, 30, rfl⟩
abbrev main_v12 : Ref sig .tc := ⟨.hbm, 31, rfl⟩
abbrev main_c_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_c_3 : Ref sig .tc := ⟨.hbm, 39, rfl⟩
abbrev main_v19 : Ref sig .tc := ⟨.hbm, 40, rfl⟩
abbrev main_v20 : Ref sig .tc := ⟨.hbm, 41, rfl⟩
abbrev main_c_4 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_5 : Ref sig .tc := ⟨.hbm, 61, rfl⟩
abbrev main_v38 : Ref sig .tc := ⟨.hbm, 62, rfl⟩
abbrev main_cst_6 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_7 : Ref sig .tc := ⟨.hbm, 67, rfl⟩
abbrev main_v42 : Ref sig .tc := ⟨.hbm, 68, rfl⟩
abbrev main_v43 : Ref sig .tc := ⟨.hbm, 69, rfl⟩
abbrev main_cst_8 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg6_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem6_1 : DmaSem sig := 24

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S4096x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4096x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x524288_S1x524288_0_0 : S2x524288.Slices ![0, 0] S1x524288
  shapeCasts_S1x524288_S524288 : S1x524288.ShapeCasts S524288
  slices_S2x524288_S1x524288_1_0 : S2x524288.Slices ![1, 0] S1x524288
  bcast_S_S524288 : S_.BroadcastsInDim S524288 (![] : Fin 0 → Fin S524288.rank)
  bcast_S524288_S524288x1_0 : S524288.BroadcastsInDim S524288x1 (![0] : Fin 1 → Fin S524288x1.rank)
  bitsLt_bf16_f32 : FTy.bits .bf16 < FTy.bits .f32
  concatenates_S524288x3_S524288x3_S524288x6_d1 : Shape.Concatenates [S524288x3, S524288x3] S524288x6 1
  shapeCasts_S128_S1x128 : S128.ShapeCasts S1x128
  slices_S256x128_S128x128_0_0 : S256x128.Slices ![0, 0] S128x128
  slices_S256x128_S128x128_128_0 : S256x128.Slices ![128, 0] S128x128
  inb_S4096x6_S4096x6_0_0 : ∀ a, (![0, 0] : Fin 2 → Nat) a + S4096x6.size a ≤ S4096x6.size a
  h_S4096x6 : 0 < S4096x6.numel
  shapeCasts_S4096x6_S4096x6 : S4096x6.ShapeCasts S4096x6
  inb_S6x128_S6x128_0_0 : ∀ a, (![0, 0] : Fin 2 → Nat) a + S6x128.size a ≤ S6x128.size a
  h_S6x128 : 0 < S6x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S128x128_S128x128_0_0 : ∀ a, (![0, 0] : Fin 2 → Nat) a + S128x128.size a ≤ S128x128.size a
  h_S128x128 : 0 < S128x128.numel
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  shapeCasts_S128x128_S128x128 : S128x128.ShapeCasts S128x128
  packedbf16_S4096x128_S4096x128_0_0 : (Rect.unit (s := S4096x128) ![0, 0] S4096x128.size inb_S4096x128_S4096x128_0_0).PackedRows (EltTy.packing .bf16)
  bcast_S_S32768x128 : S_.BroadcastsInDim S32768x128 (![] : Fin 0 → Fin S32768x128.rank)
  bcast_S_S32768 : S_.BroadcastsInDim S32768 (![] : Fin 0 → Fin S32768.rank)
  shapeCasts_S32768_S32768x1 : S32768.ShapeCasts S32768x1
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  broadcasts_S4096x1_S4096x128 : S4096x1.Broadcasts S4096x128
  gather_S65536x3_S524288x1_S524288x3_1_0_n_n_0_1_13_wf : GatherDims.WF S65536x3 S524288x1 S524288x3 [1] [0] [] [0] [] 1 ![1, 3]
  gather_S32768x3_S524288x1_S524288x3_1_0_n_n_0_1_13_wf : GatherDims.WF S32768x3 S524288x1 S524288x3 [1] [0] [] [0] [] 1 ![1, 3]
  gather_S65536x128_S524288x1_S524288x128_1_0_n_n_0_1_1128_wf : GatherDims.WF S65536x128 S524288x1 S524288x128 [1] [0] [] [0] [] 1 ![1, 128]
  dot_S4096x6_S6x128_S4096x128_1_0_0_1_n_n_wf : DotDims.WF S4096x6 S6x128 S4096x128 [1] [0] [0] [1] [] []
  dot_S4096x128_S128x128_S4096x128_1_0_0_1_n_n_wf : DotDims.WF S4096x128 S128x128 S4096x128 [1] [0] [0] [1] [] []
  scatter_S32768x128_S524288x1_S524288x128_1_0_0_1_wf : ScatterDims.WF S32768x128 S524288x1 S524288x128 [1] [0] [0] 1
  scatter_S32768_S524288x1_S524288_n_0_0_1_wf : ScatterDims.WF S32768 S524288x1 S524288 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x6.size a ≤ S524288x6.size a
  hwx0_0 : ∀ i : grid0.Coords, EltTy.bits .f32 = 32 ∨ (Rect.block (s := S524288x6) S4096x6.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S524288x128.size a
  hwx0_1 : ∀ i : grid0.Coords, EltTy.bits .bf16 = 32 ∨ (Rect.block (s := S524288x128) S4096x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S6x128.size a ≤ S6x128.size a
  hwx0_2 : ∀ i : grid0.Coords, EltTy.bits .f32 = 32 ∨ (Rect.block (s := S6x128) S6x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4096x128.size a ≤ S524288x128.size a
  hwx0_11 : ∀ i : grid0.Coords, EltTy.bits .bf16 = 32 ∨ (Rect.block (s := S524288x128) S4096x128.size (cc0_transform_11 i) (hinb0_11 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S32768x128.size a
  hwx1_0 : ∀ i : grid1.Coords, EltTy.bits .f32 = 32 ∨ (Rect.block (s := S32768x128) S4096x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x1.size a ≤ S32768x1.size a
  hwx1_1 : ∀ i : grid1.Coords, EltTy.bits .f32 = 32 ∨ (Rect.block (s := S32768x1) S4096x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4096x128.size a ≤ S32768x128.size a
  hwx1_6 : ∀ i : grid1.Coords, EltTy.bits .f32 = 32 ∨ (Rect.block (s := S32768x128) S4096x128.size (cc1_transform_6 i) (hinb1_6 i)).WholeWords (EltTy.packing .f32)

variable [Facts₀]

def gather_S65536x3_S524288x1_S524288x3_1_0_n_n_0_1_13 : GatherDims S65536x3 S524288x1 S524288x3 where
  offsetDims := [1]
  collapsedSliceDims := [0]
  operandBatchingDims := []
  startIndicesBatchingDims := []
  startIndexMap := [0]
  indexVectorDim := 1
  sliceSizes := ![1, 3]
  wf := gather_S65536x3_S524288x1_S524288x3_1_0_n_n_0_1_13_wf
def gather_S32768x3_S524288x1_S524288x3_1_0_n_n_0_1_13 : GatherDims S32768x3 S524288x1 S524288x3 where
  offsetDims := [1]
  collapsedSliceDims := [0]
  operandBatchingDims := []
  startIndicesBatchingDims := []
  startIndexMap := [0]
  indexVectorDim := 1
  sliceSizes := ![1, 3]
  wf := gather_S32768x3_S524288x1_S524288x3_1_0_n_n_0_1_13_wf
def gather_S65536x128_S524288x1_S524288x128_1_0_n_n_0_1_1128 : GatherDims S65536x128 S524288x1 S524288x128 where
  offsetDims := [1]
  collapsedSliceDims := [0]
  operandBatchingDims := []
  startIndicesBatchingDims := []
  startIndexMap := [0]
  indexVectorDim := 1
  sliceSizes := ![1, 128]
  wf := gather_S65536x128_S524288x1_S524288x128_1_0_n_n_0_1_1128_wf
def dot_S4096x6_S6x128_S4096x128_1_0_0_1_n_n : DotDims S4096x6 S6x128 S4096x128 where
  lhsContracting := [1]
  rhsContracting := [0]
  lhsNonContracting := [0]
  rhsNonContracting := [1]
  lhsBatch := []
  rhsBatch := []
  wf := dot_S4096x6_S6x128_S4096x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def scatter_S32768x128_S524288x1_S524288x128_1_0_0_1 : ScatterDims S32768x128 S524288x1 S524288x128 where
  updateWindowDims := [1]
  insertedWindowDims := [0]
  scatterDimsToOperandDims := [0]
  indexVectorDim := 1
  wf := scatter_S32768x128_S524288x1_S524288x128_1_0_0_1_wf
def scatter_S32768_S524288x1_S524288_n_0_0_1 : ScatterDims S32768 S524288x1 S524288 where
  updateWindowDims := []
  insertedWindowDims := [0]
  scatterDimsToOperandDims := [0]
  indexVectorDim := 1
  wf := scatter_S32768_S524288x1_S524288_n_0_0_1_wf

abbrev win0_0 : Pipeline.Window sig grid0 :=
  Pipeline.Window.ofSpec (Memref.whole main_v26) S4096x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S6x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v31) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v32) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v29) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v30) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v33) S4096x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v37) S4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S4096x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg12) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg14) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v48) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v49) S4096x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S65536x128 : Shape := ⟨2, ![65536, 128]⟩
abbrev S65536x3 : Shape := ⟨2, ![65536, 3]⟩
abbrev S32768x3 : Shape := ⟨2, ![32768, 3]⟩
abbrev S2x524288 : Shape := ⟨2, ![2, 524288]⟩
abbrev S6x128 : Shape := ⟨2, ![6, 128]⟩
abbrev S128 : Shape := ⟨1, ![128]⟩
abbrev S128x128 : Shape := ⟨2, ![128, 128]⟩
abbrev S256x128 : Shape := ⟨2, ![256, 128]⟩
abbrev S1x524288 : Shape := ⟨2, ![1, 524288]⟩
abbrev S524288 : Shape := ⟨1, ![524288]⟩
abbrev S_ : Shape := ⟨0, ![]⟩
abbrev S524288x1 : Shape := ⟨2, ![524288, 1]⟩
abbrev S524288x3 : Shape := ⟨2, ![524288, 3]⟩
abbrev S524288x6 : Shape := ⟨2, ![524288, 6]⟩
abbrev S524288x128 : Shape := ⟨2, ![524288, 128]⟩
abbrev S1x128 : Shape := ⟨2, ![1, 128]⟩
abbrev S524288x256 : Shape := ⟨2, ![524288, 256]⟩
abbrev S32768x128 : Shape := ⟨2, ![32768, 128]⟩
abbrev S32768 : Shape := ⟨1, ![32768]⟩
abbrev S32768x1 : Shape := ⟨2, ![32768, 1]⟩

abbrev nBuf : Space → Nat
  | .hbm => 113
  | .vmem => 0
  | .smem => 0
  | _ => 0

abbrev bufTy : (tb : Table) → Fin (tcTables nBuf tb) → BufTy
  | .hbm, ⟨0, _⟩ => ⟨S65536x128, .f32⟩
  | .hbm, ⟨1, _⟩ => ⟨S65536x3, .f32⟩
  | .hbm, ⟨2, _⟩ => ⟨S32768x3, .f32⟩
  | .hbm, ⟨3, _⟩ => ⟨S2x524288, .i32⟩
  | .hbm, ⟨4, _⟩ => ⟨S6x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S256x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S1x524288, .i32⟩
  | .hbm, ⟨17, _⟩ => ⟨S524288, .i32⟩
  | .hbm, ⟨18, _⟩ => ⟨S1x524288, .i32⟩
  | .hbm, ⟨19, _⟩ => ⟨S524288, .i32⟩
  | .hbm, ⟨20, _⟩ => ⟨S_, .i32⟩
  | .hbm, ⟨21, _⟩ => ⟨S524288, .i32⟩
  | .hbm, ⟨22, _⟩ => ⟨S524288, .i1⟩
  | .hbm, ⟨23, _⟩ => ⟨S_, .i32⟩
  | .hbm, ⟨24, _⟩ => ⟨S524288, .i32⟩
  | .hbm, ⟨25, _⟩ => ⟨S524288, .i32⟩
  | .hbm, ⟨26, _⟩ => ⟨S524288, .i32⟩
  | .hbm, ⟨27, _⟩ => ⟨S524288x1, .i32⟩
  | .hbm, ⟨28, _⟩ => ⟨S524288x3, .f32⟩
  | .hbm, ⟨29, _⟩ => ⟨S_, .i32⟩
  | .hbm, ⟨30, _⟩ => ⟨S524288, .i32⟩
  | .hbm, ⟨31, _⟩ => ⟨S524288, .i1⟩
  | .hbm, ⟨32, _⟩ => ⟨S_, .i32⟩
  | .hbm, ⟨33, _⟩ => ⟨S524288, .i32⟩
  | .hbm, ⟨34, _⟩ => ⟨S524288, .i32⟩
  | .hbm, ⟨35, _⟩ => ⟨S524288, .i32⟩
  | .hbm, ⟨36, _⟩ => ⟨S524288x1, .i32⟩
  | .hbm, ⟨37, _⟩ => ⟨S524288x3, .f32⟩
  | .hbm, ⟨38, _⟩ => ⟨S524288x6, .f32⟩
  | .hbm, ⟨39, _⟩ => ⟨S524288x128, .f32⟩
  | .hbm, ⟨40, _⟩ => ⟨S1x128, .f32⟩
  | .hbm, ⟨41, _⟩ => ⟨S524288x128, .f32⟩
  | .hbm, ⟨42, _⟩ => ⟨S524288x128, .f32⟩
  | .hbm, ⟨43, _⟩ => ⟨S524288x128, .f32⟩
  | .hbm, ⟨44, _⟩ => ⟨S524288x128, .f32⟩
  | .hbm, ⟨45, _⟩ => ⟨S_, .f32⟩
  | .hbm, ⟨46, _⟩ => ⟨S524288x128, .f32⟩
  | .hbm, ⟨47, _⟩ => ⟨S524288x128, .f32⟩
  | .hbm, ⟨48, _⟩ => ⟨S_, .f32⟩
  | .hbm, ⟨49, _⟩ => ⟨S524288x128, .f32⟩
  | .hbm, ⟨50, _⟩ => ⟨S524288x128, .f32⟩
  | .hbm, ⟨51, _⟩ => ⟨S524288x128, .f32⟩
  | .hbm, ⟨52, _⟩ => ⟨S524288x128, .f32⟩
  | .hbm, ⟨53, _⟩ => ⟨S1x128, .f32⟩
  | .hbm, ⟨54, _⟩ => ⟨S524288x128, .f32⟩
  | .hbm, ⟨55, _⟩ => ⟨S524288x128, .f32⟩
  | .hbm, ⟨56, _⟩ => ⟨S_, .i32⟩
  | .hbm, ⟨57, _⟩ => ⟨S524288, .i32⟩
  | .hbm, ⟨58, _⟩ => ⟨S524288, .i1⟩
  | .hbm, ⟨59, _⟩ => ⟨S_, .i32⟩
  | .hbm, ⟨60, _⟩ => ⟨S524288, .i32⟩
  | .hbm, ⟨61, _⟩ => ⟨S524288, .i32⟩
  | .hbm, ⟨62, _⟩ => ⟨S524288, .i32⟩
  | .hbm, ⟨63, _⟩ => ⟨S524288x1, .i32⟩
  | .hbm, ⟨64, _⟩ => ⟨S524288x128, .f32⟩
  | .hbm, ⟨65, _⟩ => ⟨S524288x256, .f32⟩
  | .hbm, ⟨66, _⟩ => ⟨S524288x128, .f32⟩
  | .hbm, ⟨67, _⟩ => ⟨S1x128, .f32⟩
  | .hbm, ⟨68, _⟩ => ⟨S524288x128, .f32⟩
  | .hbm, ⟨69, _⟩ => ⟨S524288x128, .f32⟩
  | .hbm, ⟨70, _⟩ => ⟨S524288x128, .f32⟩
  | .hbm, ⟨71, _⟩ => ⟨S524288x128, .f32⟩
  | .hbm, ⟨72, _⟩ => ⟨S_, .f32⟩
  | .hbm, ⟨73, _⟩ => ⟨S524288x128, .f32⟩
  | .hbm, ⟨74, _⟩ => ⟨S524288x128, .f32⟩
  | .hbm, ⟨75, _⟩ => ⟨S_, .f32⟩
  | .hbm, ⟨76, _⟩ => ⟨S524288x128, .f32⟩
  | .hbm, ⟨77, _⟩ => ⟨S524288x128, .f32⟩
  | .hbm, ⟨78, _⟩ => ⟨S524288x128, .f32⟩
  | .hbm, ⟨79, _⟩ => ⟨S524288x128, .f32⟩
  | .hbm, ⟨80, _⟩ => ⟨S1x128, .f32⟩
  | .hbm, ⟨81, _⟩ => ⟨S524288x128, .f32⟩
  | .hbm, ⟨82, _⟩ => ⟨S524288x128, .f32⟩
  | .hbm, ⟨83, _⟩ => ⟨S_, .f32⟩
  | .hbm, ⟨84, _⟩ => ⟨S32768x128, .f32⟩
  | .hbm, ⟨85, _⟩ => ⟨S524288x1, .i32⟩
  | .hbm, ⟨86, _⟩ => ⟨S32768x128, .f32⟩
  | .hbm, ⟨87, _⟩ => ⟨S_, .f32⟩
  | .hbm, ⟨88, _⟩ => ⟨S524288, .f32⟩
  | .hbm, ⟨89, _⟩ => ⟨S_, .f32⟩
  | .hbm, ⟨90, _⟩ => ⟨S32768, .f32⟩
  | .hbm, ⟨91, _⟩ => ⟨S524288x1, .i32⟩
  | .hbm, ⟨92, _⟩ => ⟨S32768, .f32⟩
  | .hbm, ⟨93, _⟩ => ⟨S32768x1, .f32⟩
  | .hbm, ⟨94, _⟩ => ⟨S32768x128, .f32⟩
  | .hbm, ⟨95, _⟩ => ⟨S32768x128, .f32⟩
  | .hbm, ⟨96, _⟩ => ⟨S32768x128, .f32⟩
  | .hbm, ⟨97, _⟩ => ⟨S1x128, .f32⟩
  | .hbm, ⟨98, _⟩ => ⟨S32768x128, .f32⟩
  | .hbm, ⟨99, _⟩ => ⟨S32768x128, .f32⟩
  | .hbm, ⟨100, _⟩ => ⟨S32768x128, .f32⟩
  | .hbm, ⟨101, _⟩ => ⟨S32768x128, .f32⟩
  | .hbm, ⟨102, _⟩ => ⟨S_, .f32⟩
  | .hbm, ⟨103, _⟩ => ⟨S32768x128, .f32⟩
  | .hbm, ⟨104, _⟩ => ⟨S32768x128, .f32⟩
  | .hbm, ⟨105, _⟩ => ⟨S_, .f32⟩
  | .hbm, ⟨106, _⟩ => ⟨S32768x128, .f32⟩
  | .hbm, ⟨107, _⟩ => ⟨S32768x128, .f32⟩
  | .hbm, ⟨108, _⟩ => ⟨S32768x128, .f32⟩
  | .hbm, ⟨109, _⟩ => ⟨S32768x128, .f32⟩
  | .hbm, ⟨110, _⟩ => ⟨S1x128, .f32⟩
  | .hbm, ⟨111, _⟩ => ⟨S32768x128, .f32⟩
  | .hbm, ⟨112, _⟩ => ⟨S32768x128, .f32⟩
  | _, _ => ⟨S65536x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c_1 : Ref sig .tc := ⟨.hbm, 29, rfl⟩
abbrev main_v11 : Ref sig .tc := ⟨.hbm, 30, rfl⟩
abbrev main_v12 : Ref sig .tc := ⟨.hbm, 31, rfl⟩
abbrev main_c_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_c_3 : Ref sig .tc := ⟨.hbm, 56, rfl⟩
abbrev main_v28 : Ref sig .tc := ⟨.hbm, 57, rfl⟩
abbrev main_v29 : Ref sig .tc := ⟨.hbm, 58, rfl⟩
abbrev main_c_4 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_call1_v0 : Ref sig .tc := ⟨.hbm, 70, rfl⟩
abbrev main_call1_v1 : Ref sig .tc := ⟨.hbm, 71, rfl⟩
abbrev main_call1_cst : Ref sig .tc := ⟨.hbm, 72, rfl⟩
abbrev main_call1_v2 : Ref sig .tc := ⟨.hbm, 73, rfl⟩
abbrev main_call1_v3 : Ref sig .tc := ⟨.hbm, 74, rfl⟩
abbrev main_call1_cst_0 : Ref sig .tc := ⟨.hbm, 75, rfl⟩
abbrev main_call1_v4 : Ref sig .tc := ⟨.hbm, 76, rfl⟩
abbrev main_call1_v5 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_cst : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_cst_5 : Ref sig .tc := ⟨.hbm, 87, rfl⟩
abbrev main_v48 : Ref sig .tc := ⟨.hbm, 88, rfl⟩
abbrev main_cst_6 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_call2_v0 : Ref sig .tc := ⟨.hbm, 100, rfl⟩
abbrev main_call2_v1 : Ref sig .tc := ⟨.hbm, 101, rfl⟩
abbrev main_call2_cst : Ref sig .tc := ⟨.hbm, 102, rfl⟩
abbrev main_call2_v2 : Ref sig .tc := ⟨.hbm, 103, rfl⟩
abbrev main_call2_v3 : Ref sig .tc := ⟨.hbm, 104, rfl⟩
abbrev main_call2_cst_0 : Ref sig .tc := ⟨.hbm, 105, rfl⟩
abbrev main_call2_v4 : Ref sig .tc := ⟨.hbm, 106, rfl⟩
abbrev main_call2_v5 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩

abbrev nD : Nat := 1
abbrev τ : Topo := Topo.v7x

variable {F : FTy → Type} [FloatOps F]

class Facts₀ : Prop where
  slices_S2x524288_S1x524288_0_0 : S2x524288.Slices ![0, 0] S1x524288
  shapeCasts_S1x524288_S524288 : S1x524288.ShapeCasts S524288
  slices_S2x524288_S1x524288_1_0 : S2x524288.Slices ![1, 0] S1x524288
  bcast_S_S524288 : S_.BroadcastsInDim S524288 (![] : Fin 0 → Fin S524288.rank)
  bcast_S524288_S524288x1_0 : S524288.BroadcastsInDim S524288x1 (![0] : Fin 1 → Fin S524288x1.rank)
  concatenates_S524288x3_S524288x3_S524288x6_d1 : Shape.Concatenates [S524288x3, S524288x3] S524288x6 1
  bcast_S128_S1x128_1 : S128.BroadcastsInDim S1x128 (![1] : Fin 1 → Fin S1x128.rank)
  bcast_S1x128_S524288x128_0_1 : S1x128.BroadcastsInDim S524288x128 (![0, 1] : Fin 2 → Fin S524288x128.rank)
  bcast_S_S524288x128 : S_.BroadcastsInDim S524288x128 (![] : Fin 0 → Fin S524288x128.rank)
  concatenates_S524288x128_S524288x128_S524288x256_d1 : Shape.Concatenates [S524288x128, S524288x128] S524288x256 1
  bcast_S_S32768x128 : S_.BroadcastsInDim S32768x128 (![] : Fin 0 → Fin S32768x128.rank)
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x128_0_1 : S32768x1.BroadcastsInDim S32768x128 (![0, 1] : Fin 2 → Fin S32768x128.rank)
  bcast_S1x128_S32768x128_0_1 : S1x128.BroadcastsInDim S32768x128 (![0, 1] : Fin 2 → Fin S32768x128.rank)
  gather_S65536x3_S524288x1_S524288x3_1_0_n_n_0_1_13_wf : GatherDims.WF S65536x3 S524288x1 S524288x3 [1] [0] [] [0] [] 1 ![1, 3]
  gather_S32768x3_S524288x1_S524288x3_1_0_n_n_0_1_13_wf : GatherDims.WF S32768x3 S524288x1 S524288x3 [1] [0] [] [0] [] 1 ![1, 3]
  dot_S524288x6_S6x128_S524288x128_1_0_0_1_n_n_wf : DotDims.WF S524288x6 S6x128 S524288x128 [1] [0] [0] [1] [] []
  dot_S524288x128_S128x128_S524288x128_1_0_0_1_n_n_wf : DotDims.WF S524288x128 S128x128 S524288x128 [1] [0] [0] [1] [] []
  gather_S65536x128_S524288x1_S524288x128_1_0_n_n_0_1_1128_wf : GatherDims.WF S65536x128 S524288x1 S524288x128 [1] [0] [] [0] [] 1 ![1, 128]
  dot_S524288x256_S256x128_S524288x128_1_0_0_1_n_n_wf : DotDims.WF S524288x256 S256x128 S524288x128 [1] [0] [0] [1] [] []
  scatter_S32768x128_S524288x1_S524288x128_1_0_0_1_wf : ScatterDims.WF S32768x128 S524288x1 S524288x128 [1] [0] [0] 1
  scatter_S32768_S524288x1_S524288_n_0_0_1_wf : ScatterDims.WF S32768 S524288x1 S524288 [] [0] [0] 1
  dot_S32768x128_S128x128_S32768x128_1_0_0_1_n_n_wf : DotDims.WF S32768x128 S128x128 S32768x128 [1] [0] [0] [1] [] []

variable [Facts₀]

def gather_S65536x3_S524288x1_S524288x3_1_0_n_n_0_1_13 : GatherDims S65536x3 S524288x1 S524288x3 where
  offsetDims := [1]
  collapsedSliceDims := [0]
  operandBatchingDims := []
  startIndicesBatchingDims := []
  startIndexMap := [0]
  indexVectorDim := 1
  sliceSizes := ![1, 3]
  wf := gather_S65536x3_S524288x1_S524288x3_1_0_n_n_0_1_13_wf
def gather_S32768x3_S524288x1_S524288x3_1_0_n_n_0_1_13 : GatherDims S32768x3 S524288x1 S524288x3 where
  offsetDims := [1]
  collapsedSliceDims := [0]
  operandBatchingDims := []
  startIndicesBatchingDims := []
  startIndexMap := [0]
  indexVectorDim := 1
  sliceSizes := ![1, 3]
  wf := gather_S32768x3_S524288x1_S524288x3_1_0_n_n_0_1_13_wf
def dot_S524288x6_S6x128_S524288x128_1_0_0_1_n_n : DotDims S524288x6 S6x128 S524288x128 where
  lhsContracting := [1]
  rhsContracting := [0]
  lhsNonContracting := [0]
  rhsNonContracting := [1]
  lhsBatch := []
  rhsBatch := []
  wf := dot_S524288x6_S6x128_S524288x128_1_0_0_1_n_n_wf
def dot_S524288x128_S128x128_S524288x128_1_0_0_1_n_n : DotDims S524288x128 S128x128 S524288x128 where
  lhsContracting := [1]
  rhsContracting := [0]
  lhsNonContracting := [0]
  rhsNonContracting := [1]
  lhsBatch := []
  rhsBatch := []
  wf := dot_S524288x128_S128x128_S524288x128_1_0_0_1_n_n_wf
def gather_S65536x128_S524288x1_S524288x128_1_0_n_n_0_1_1128 : GatherDims S65536x128 S524288x1 S524288x128 where
  offsetDims := [1]
  collapsedSliceDims := [0]
  operandBatchingDims := []
  startIndicesBatchingDims := []
  startIndexMap := [0]
  indexVectorDim := 1
  sliceSizes := ![1, 128]
  wf := gather_S65536x128_S524288x1_S524288x128_1_0_n_n_0_1_1128_wf
def dot_S524288x256_S256x128_S524288x128_1_0_0_1_n_n : DotDims S524288x256 S256x128 S524288x128 where
  lhsContracting := [1]
  rhsContracting := [0]
  lhsNonContracting := [0]
  rhsNonContracting := [1]
  lhsBatch := []
  rhsBatch := []
  wf := dot_S524288x256_S256x128_S524288x128_1_0_0_1_n_n_wf
def scatter_S32768x128_S524288x1_S524288x128_1_0_0_1 : ScatterDims S32768x128 S524288x1 S524288x128 where
  updateWindowDims := [1]
  insertedWindowDims := [0]
  scatterDimsToOperandDims := [0]
  indexVectorDim := 1
  wf := scatter_S32768x128_S524288x1_S524288x128_1_0_0_1_wf
def scatter_S32768_S524288x1_S524288_n_0_0_1 : ScatterDims S32768 S524288x1 S524288 where
  updateWindowDims := []
  insertedWindowDims := [0]
  scatterDimsToOperandDims := [0]
  indexVectorDim := 1
  wf := scatter_S32768_S524288x1_S524288_n_0_0_1_wf
def dot_S32768x128_S128x128_S32768x128_1_0_0_1_n_n : DotDims S32768x128 S128x128 S32768x128 where
  lhsContracting := [1]
  rhsContracting := [0]
  lhsNonContracting := [0]
  rhsNonContracting := [1]
  lhsBatch := []
  rhsBatch := []
  wf := dot_S32768x128_S128x128_S32768x128_1_0_0_1_n_n_wf

class Facts : Prop extends Facts₀ where

variable [Facts]
-- ==== Proof.KernelRun.lean ====
/-
  The idealized kernel's run with its result NAMED.

  The program is four stretches in order: host operations, the edge-message region, host operations,
  the update region. The buffer contents at each boundary are a fold through them: a stretch of host
  operations applies its operations' functions, a region leaves each of its arrays at what its grid
  points wrote back and every other buffer as it found it. Every weakly fair execution terminates
  without a fault in a state whose unscoped buffers hold the last fold; the result buffer is one of
  them, so it holds the fold's value there, and the sixteen argument arrays hold what they were
  launched with because no stretch writes them.
-/
import proofs.«138658_j66108136620503_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at
    the last boundary's contents and the arguments as launched. -/
theorem run_named : θ_run defs (onTc (τ := τ) (main (F := F))) ⟨m, fun _ => 0, ρ⟩ (fun r => ∀ c : Dev nD,
      r.2.mem ((c.tc : Thread nD τ).loc main_v49) = W4 m ρ c (Proc.devRef .tc main_v49)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v49 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c),
       (h c _ (mem_uc main_arg15 (by decide))).trans (W4_main_arg15 m ρ c)⟩)

end Cert.KernelIdeal.Named

end
-- ==== Proof.PreDecode.lean ====
/-
  What the precondition says about the graph.

  Beside the finiteness of every float input, the precondition asks that every destination cell
  receive at least one edge: the per-cell edge count, a scatter-add of ones over the destination row
  of the edge list, is compared with 1 entry by entry and the 32768 bits are reduced by AND. Here that
  last conjunct is read back: at every cell g, 1 ≤ count g.
-/
import proofs.«138658_j66108136620503_2_alg».proof.Pre_finite_inputs
import Idealize.ShloMosaic.PureOps.Ideal
import Idealize.ShloMosaic.Lib.ReduceAll
import Idealize.ShloMosaic.Lib.ValueIdx
import Idealize.ShloMosaic.Lib.IdealHost
import Idealize.ShloMosaic.Lib.Affine
import Idealize.ShloMosaic.Lib.Pipeline.Value

noncomputable section

namespace Cert.PreDecode

open Idealize.ShloMosaic Cert.Pre_finite_inputs

variable [hP : Cert.Pre_finite_inputs.Facts]
open Cert.Pre_finite_inputs.Facts

instance : Subsingleton S_.Idx := ⟨fun a b => funext fun d => d.elim0⟩

/-- The number of edges arriving at each cell, as the precondition spells it: ones scattered and added
    along the destination row of the edge list, into zeros. -/
def counts (x3 : IVec S2x524288 32) : FVec Ideal S32768 .f32 :=
  Host.scatterAdd scatter_S32768_S524288x1_S524288_n_0_0_1
    (broadcastInDim S32768 ![] bcast_S_S32768 (constant S_ .f32 0x00000000#32))
    (broadcastInDim S524288x1 ![0] bcast_S524288_S524288x1_0
      (shapeCast S524288 (extractStridedSlice S1x524288 ![1, 0] x3 slices_S2x524288_S1x524288_1_0) shapeCasts_S1x524288_S524288))
    (broadcastInDim S524288 ![] bcast_S_S524288 (constant S_ .f32 0x3F800000#32))

/-- An entrywise "≥" that came out true says the right entry is at most the left one. -/
theorem le_of_cmpf_oge {s : Shape} (a b : FVec Ideal s .f32) (g : s.Idx) (h : cmpf .oge a b g = 1#1) : b g ≤ a g := by
  have h' : BitVec.ofBool (decide (b g ≤ a g)) = 1#1 := h
  by_contra hn
  rw [decide_eq_false hn] at h'
  exact absurd h' (by decide)

/-- Under the precondition every cell's count is at least one. -/
theorem one_le_counts (x0 : FVec Ideal S65536x128 .f32) (x1 : FVec Ideal S65536x3 .f32) (x2 : FVec Ideal S32768x3 .f32)
    (x3 : IVec S2x524288 32) (x4 : FVec Ideal S6x128 .f32) (x5 : FVec Ideal S128 .f32) (x6 : FVec Ideal S128x128 .f32)
    (x7 : FVec Ideal S128 .f32) (x8 : FVec Ideal S256x128 .f32) (x9 : FVec Ideal S128 .f32) (x10 : FVec Ideal S128x128 .f32)
    (x11 : FVec Ideal S128 .f32) (x12 : FVec Ideal S128x128 .f32) (x13 : FVec Ideal S128 .f32) (x14 : FVec Ideal S128x128 .f32)
    (x15 : FVec Ideal S128 .f32)
    (h : fn (F := Ideal) x0 x1 x2 x3 x4 x5 x6 x7 x8 x9 x10 x11 x12 x13 x14 x15 = (fun _ => 1#1)) (g : S32768.Idx) :
    1 ≤ counts x3 g := by
  have h0 := congrFun h ValueIdx.ix0
  dsimp only [fn, fn_part1, fn_part2, fn_part3, fn_part4] at h0
  have h1 := (IntOp.andi_eq_one.mp h0).2
  have h2 := Host.reduce_andi_all _ _ _ _ ValueIdx.ix0 h1 g
  have h4 := le_of_cmpf_oge _ _ g h2
  have hone : ∀ y : FVec Ideal S_ .f32, broadcastInDim S32768 ![] bcast_S_S32768 y g = y ValueIdx.ix0 :=
    fun y => broadcastInDim_apply _ bcast_S_S32768 y g ValueIdx.ix0 (fun a => a.elim0)
  rw [hone, ValueIdx.constant_apply, Ideal.ofBits_one_f32] at h4
  unfold counts
  exact h4

end Cert.PreDecode

end
-- ==== Proof.HostGlue.lean ====
/-
  What the host operations leave in the buffers the two regions read.

  Before the message region the host gathers node positions, cell positions and node embeddings along
  the edge list and lays the position attributes side by side, reshapes each bias to a 1×128 row and
  cuts the first message weight into its upper and lower 128 rows. Between the regions it widens the
  messages, adds them up per destination cell, counts the edges per cell and takes the reciprocal of
  max(count, 1). The gathers, the attribute array, the destination indices and the counts are, term
  for term, the reference's own; a narrowing or widening of the float format is the identity here.
-/
import proofs.«138658_j66108136620503_2_alg».proof.Proof.Gen.KernelIdeal.Frame
import proofs.«138658_j66108136620503_2_alg».proof.Proof.ReadP
import Idealize.ShloMosaic.Lib.StableHlo.Run
import Idealize.ShloMosaic.PureOps.Ideal

set_option maxRecDepth 16384

noncomputable section

namespace Cert.KernelIdeal.HostGlue

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-- An argument array as launched. -/
abbrev arg (b : Ref sig .tc) : Buf (Elt Ideal) ((c : Thread nD τ).loc b) := m ((c : Thread nD τ).loc b)

/-! ## At the message region's entry -/

/-- The attribute array is the reference's. -/
theorem attr : W1 m ρ c (Proc.devRef .tc main_v26)
    = Cert.ReferenceIdeal.ReadP.val_main_v18 (F := Ideal) (arg m c main_arg1) (arg m c main_arg2) (arg m c main_arg3) := by
  show StableHlo.after hostOps0 (W0 m ρ c) (Proc.devRef .tc main_v26) = _
  after_results_simp <;> rfl

/-- The gathered embeddings are the reference's (the narrowing before the gather is the identity). -/
theorem emb : W1 m ρ c (Proc.devRef .tc main_v25)
    = Cert.ReferenceIdeal.ReadP.val_main_v34 (F := Ideal) (arg m c main_arg0) (arg m c main_arg3) := by
  show StableHlo.after hostOps0 (W0 m ρ c) (Proc.devRef .tc main_v25) = _
  after_results_simp <;> rfl

/-- The destination indices are the reference's. -/
theorem dst : W1 m ρ c (Proc.devRef .tc main_v3) = Cert.ReferenceIdeal.ReadP.val_main_v3 (F := Ideal) (arg m c main_arg3) := by
  show StableHlo.after hostOps0 (W0 m ρ c) (Proc.devRef .tc main_v3) = _
  after_results_simp <;> rfl

theorem eb1 : W1 m ρ c (Proc.devRef .tc main_v27) = shapeCast S1x128 (arg m c main_arg5) shapeCasts_S128_S1x128 := by
  show StableHlo.after hostOps0 (W0 m ρ c) (Proc.devRef .tc main_v27) = _
  after_results_simp <;> rfl
theorem eb2 : W1 m ρ c (Proc.devRef .tc main_v28) = shapeCast S1x128 (arg m c main_arg7) shapeCasts_S128_S1x128 := by
  show StableHlo.after hostOps0 (W0 m ρ c) (Proc.devRef .tc main_v28) = _
  after_results_simp <;> rfl
theorem mb1 : W1 m ρ c (Proc.devRef .tc main_v29) = shapeCast S1x128 (arg m c main_arg9) shapeCasts_S128_S1x128 := by
  show StableHlo.after hostOps0 (W0 m ρ c) (Proc.devRef .tc main_v29) = _
  after_results_simp <;> rfl
theorem mb2 : W1 m ρ c (Proc.devRef .tc main_v30) = shapeCast S1x128 (arg m c main_arg11) shapeCasts_S128_S1x128 := by
  show StableHlo.after hostOps0 (W0 m ρ c) (Proc.devRef .tc main_v30) = _
  after_results_simp <;> rfl
theorem mwUpper : W1 m ρ c (Proc.devRef .tc main_v31)
    = extractStridedSlice S128x128 ![0, 0] (arg m c main_arg8) slices_S256x128_S128x128_0_0 := by
  show StableHlo.after hostOps0 (W0 m ρ c) (Proc.devRef .tc main_v31) = _
  after_results_simp <;> rfl
theorem mwLower : W1 m ρ c (Proc.devRef .tc main_v32)
    = extractStridedSlice S128x128 ![128, 0] (arg m c main_arg8) slices_S256x128_S128x128_128_0 := by
  show StableHlo.after hostOps0 (W0 m ρ c) (Proc.devRef .tc main_v32) = _
  after_results_simp <;> rfl
theorem ew1 : W1 m ρ c (Proc.devRef .tc main_arg4) = arg m c main_arg4 := by
  show StableHlo.after hostOps0 (W0 m ρ c) (Proc.devRef .tc main_arg4) = _
  after_results_simp <;> rfl
theorem ew2 : W1 m ρ c (Proc.devRef .tc main_arg6) = arg m c main_arg6 := by
  show StableHlo.after hostOps0 (W0 m ρ c) (Proc.devRef .tc main_arg6) = _
  after_results_simp <;> rfl
theorem mw2 : W1 m ρ c (Proc.devRef .tc main_arg10) = arg m c main_arg10 := by
  show StableHlo.after hostOps0 (W0 m ρ c) (Proc.devRef .tc main_arg10) = _
  after_results_simp <;> rfl
theorem w1_arg12 : W1 m ρ c (Proc.devRef .tc main_arg12) = arg m c main_arg12 := by
  show StableHlo.after hostOps0 (W0 m ρ c) (Proc.devRef .tc main_arg12) = _
  after_results_simp <;> rfl
theorem w1_arg13 : W1 m ρ c (Proc.devRef .tc main_arg13) = arg m c main_arg13 := by
  show StableHlo.after hostOps0 (W0 m ρ c) (Proc.devRef .tc main_arg13) = _
  after_results_simp <;> rfl
theorem w1_arg14 : W1 m ρ c (Proc.devRef .tc main_arg14) = arg m c main_arg14 := by
  show StableHlo.after hostOps0 (W0 m ρ c) (Proc.devRef .tc main_arg14) = _
  after_results_simp <;> rfl
theorem w1_arg15 : W1 m ρ c (Proc.devRef .tc main_arg15) = arg m c main_arg15 := by
  show StableHlo.after hostOps0 (W0 m ρ c) (Proc.devRef .tc main_arg15) = _
  after_results_simp <;> rfl

/-! ## At the update region's entry -/

/-- The per-cell sums: the widened messages scattered and added along the destination indices. -/
theorem sums : (W3 m ρ c (Proc.devRef .tc main_v37) : FVec Ideal S32768x128 .f32)
    = Host.scatterAdd (F := Ideal) scatter_S32768x128_S524288x1_S524288x128_1_0_0_1
        (broadcastInDim S32768x128 ![] bcast_S_S32768x128 (constant (F := Ideal) S_ .f32 0x00000000#32))
        (broadcastInDim S524288x1 ![0] bcast_S524288_S524288x1_0 (W2 m ρ c (Proc.devRef .tc main_v3) : IVec S524288 32))
        (extf .f32 (W2 m ρ c (Proc.devRef .tc main_v33) : FVec Ideal S524288x128 .bf16) bitsLt_bf16_f32) := by
  show StableHlo.after hostOps1 (W2 m ρ c) (Proc.devRef .tc main_v37) = _
  after_results_simp <;> rfl

/-- The per-cell counts as the kernel's host side spells them. -/
abbrev countsOf (d : IVec S524288 32) : FVec Ideal S32768 .f32 :=
  Host.scatterAdd (F := Ideal) scatter_S32768_S524288x1_S524288_n_0_0_1
    (broadcastInDim S32768 ![] bcast_S_S32768 (constant (F := Ideal) S_ .f32 0x00000000#32))
    (broadcastInDim S524288x1 ![0] bcast_S524288_S524288x1_0 d)
    (broadcastInDim S524288 ![] bcast_S_S524288 (constant (F := Ideal) S_ .f32 0x3F800000#32))

/-- The column of reciprocal counts: 1 / max(count, 1), reshaped to 32768×1. -/
theorem recip : (W3 m ρ c (Proc.devRef .tc main_v46) : FVec Ideal S32768x1 .f32)
    = shapeCast S32768x1
        (Host.divf (F := Ideal) (broadcastInDim S32768 ![] bcast_S_S32768 (constant (F := Ideal) S_ .f32 0x3F800000#32))
          (maximumf (countsOf (W2 m ρ c (Proc.devRef .tc main_v3) : IVec S524288 32))
            (broadcastInDim S32768 ![] bcast_S_S32768 (constant (F := Ideal) S_ .f32 0x3F800000#32))))
        shapeCasts_S32768_S32768x1 := by
  show StableHlo.after hostOps1 (W2 m ρ c) (Proc.devRef .tc main_v46) = _
  after_results_simp <;> rfl

theorem ub1 : W3 m ρ c (Proc.devRef .tc main_v47) = shapeCast S1x128 (W2 m ρ c (Proc.devRef .tc main_arg13)) shapeCasts_S128_S1x128 := by
  show StableHlo.after hostOps1 (W2 m ρ c) (Proc.devRef .tc main_v47) = _
  after_results_simp <;> rfl
theorem ub2 : W3 m ρ c (Proc.devRef .tc main_v48) = shapeCast S1x128 (W2 m ρ c (Proc.devRef .tc main_arg15)) shapeCasts_S128_S1x128 := by
  show StableHlo.after hostOps1 (W2 m ρ c) (Proc.devRef .tc main_v48) = _
  after_results_simp <;> rfl
theorem uw1 : W3 m ρ c (Proc.devRef .tc main_arg12) = W2 m ρ c (Proc.devRef .tc main_arg12) := by
  show StableHlo.after hostOps1 (W2 m ρ c) (Proc.devRef .tc main_arg12) = _
  after_results_simp <;> rfl
theorem uw2 : W3 m ρ c (Proc.devRef .tc main_arg14) = W2 m ρ c (Proc.devRef .tc main_arg14) := by
  show StableHlo.after hostOps1 (W2 m ρ c) (Proc.devRef .tc main_arg14) = _
  after_results_simp <;> rfl

end Cert.KernelIdeal.HostGlue

end
-- ==== Proof.RowSpec.lean ====
/-
  The mathematics of the certificate, free of both programs.

  Both programs are a message-passing layer of a graph network. Every edge carries six position
  attributes and the 128 embedding entries of its source node; a first two-layer perceptron turns the
  attributes into a position code, a second one turns embedding and position code (256 entries side by
  side) into the edge's message. Messages are added up per destination cell, divided by the number of
  edges that arrive there, and a third perceptron maps each cell's mean to the result.

  Everything after the gathers and before the sums acts on ONE row at a time, and so does everything
  after the sums. This file states those two row functions over the extended reals, each in the two
  arrangements the programs use, and proves the two laws that join them:

  * a contraction over 256 side-by-side entries is the sum of the contractions over each half
    (associativity and commutativity of + alone, so it holds at the infinities too);
  * multiplying by the reciprocal of max c 1 is dividing by c whenever 1 ≤ c
    (then max c 1 = c and c ≠ 0, and x · (1 · c⁻¹) = x · c⁻¹ on every extended real).
-/
import Idealize.ShloMosaic.PureOps.Ideal
import Idealize.ShloMosaic.Lib.IdealHost

noncomputable section

namespace Cert.RowSpec

open Idealize.ShloMosaic

/-- x · σ(x), with σ the logistic function 1 / (1 + e^(-x)). -/
def silu (x : EReal) : EReal := x * Ideal.logistic x

/-- One affine layer on a row: entry j of x·W + b. -/
def dense {K N : Nat} (x : Fin K → EReal) (W : Fin K → Fin N → EReal) (b : Fin N → EReal) : Fin N → EReal :=
  fun j => (∑ k : Fin K, x k * W k j) + b j

/-- The position code of an edge: affine, silu, affine, of its six attributes. -/
def posCode (ea : Fin 6 → EReal) (ew1 : Fin 6 → Fin 128 → EReal) (eb1 : Fin 128 → EReal)
    (ew2 : Fin 128 → Fin 128 → EReal) (eb2 : Fin 128 → EReal) : Fin 128 → EReal :=
  dense (fun k => silu (dense ea ew1 eb1 k)) ew2 eb2

/-- An edge's message with the first message layer applied HALF BY HALF: the embedding against the
    upper 128 rows of the weight, the position code against the lower 128, the two products added. -/
def msgSplit (ea : Fin 6 → EReal) (emb : Fin 128 → EReal)
    (ew1 : Fin 6 → Fin 128 → EReal) (eb1 : Fin 128 → EReal) (ew2 : Fin 128 → Fin 128 → EReal) (eb2 : Fin 128 → EReal)
    (mwa mwb : Fin 128 → Fin 128 → EReal) (mb1 : Fin 128 → EReal) (mw2 : Fin 128 → Fin 128 → EReal) (mb2 : Fin 128 → EReal) :
    Fin 128 → EReal :=
  dense (fun k => silu (((∑ i : Fin 128, emb i * mwa i k) + (∑ i : Fin 128, posCode ea ew1 eb1 ew2 eb2 i * mwb i k)) + mb1 k)) mw2 mb2

/-- Embedding and position code side by side: 256 entries. -/
def sideBySide (u v : Fin 128 → EReal) : Fin 256 → EReal :=
  fun k => if h : k.val < 128 then u ⟨k.val, h⟩ else v ⟨k.val - 128, by have := k.isLt; omega⟩

/-- An edge's message with the first message layer applied to the 256 entries AT ONCE. -/
def msgCat (ea : Fin 6 → EReal) (emb : Fin 128 → EReal)
    (ew1 : Fin 6 → Fin 128 → EReal) (eb1 : Fin 128 → EReal) (ew2 : Fin 128 → Fin 128 → EReal) (eb2 : Fin 128 → EReal)
    (mw1 : Fin 256 → Fin 128 → EReal) (mb1 : Fin 128 → EReal) (mw2 : Fin 128 → Fin 128 → EReal) (mb2 : Fin 128 → EReal) :
    Fin 128 → EReal :=
  dense (fun k => silu (dense (sideBySide emb (posCode ea ew1 eb1 ew2 eb2)) mw1 mb1 k)) mw2 mb2

/-- The upper and the lower 128 rows of a 256-row weight. -/
def upperRows (W : Fin 256 → Fin 128 → EReal) : Fin 128 → Fin 128 → EReal := fun i k => W ⟨i.val, by have := i.isLt; omega⟩ k
def lowerRows (W : Fin 256 → Fin 128 → EReal) : Fin 128 → Fin 128 → EReal := fun i k => W ⟨128 + i.val, by have := i.isLt; omega⟩ k

/-- A sum over 256 side-by-side entries is the sum over the first 128 plus the sum over the last 128. -/
theorem sum_sideBySide (u v : Fin 128 → EReal) (W : Fin 256 → Fin 128 → EReal) (k : Fin 128) :
    (∑ i : Fin 256, sideBySide u v i * W i k)
      = (∑ i : Fin 128, u i * upperRows W i k) + (∑ i : Fin 128, v i * lowerRows W i k) := by
  have h := Fin.sum_univ_add (M := EReal) (a := 128) (b := 128) (fun i : Fin (128 + 128) => sideBySide u v i * W i k)
  refine h.trans ?_
  congr 1

/-- THE FIRST LAW: the message computed at once is the message computed half by half. -/
theorem msgCat_eq_msgSplit (ea : Fin 6 → EReal) (emb : Fin 128 → EReal)
    (ew1 : Fin 6 → Fin 128 → EReal) (eb1 : Fin 128 → EReal) (ew2 : Fin 128 → Fin 128 → EReal) (eb2 : Fin 128 → EReal)
    (mw1 : Fin 256 → Fin 128 → EReal) (mb1 : Fin 128 → EReal) (mw2 : Fin 128 → Fin 128 → EReal) (mb2 : Fin 128 → EReal) :
    msgCat ea emb ew1 eb1 ew2 eb2 mw1 mb1 mw2 mb2
      = msgSplit ea emb ew1 eb1 ew2 eb2 (upperRows mw1) (lowerRows mw1) mb1 mw2 mb2 := by
  unfold msgCat msgSplit
  congr 1
  funext k
  show silu ((∑ i : Fin 256, sideBySide emb (posCode ea ew1 eb1 ew2 eb2) i * mw1 i k) + mb1 k) = _
  rw [sum_sideBySide]

/-- A cell's result when its sums are MULTIPLIED by a reciprocal count. -/
def updMul (s : Fin 128 → EReal) (r : EReal) (uw1 : Fin 128 → Fin 128 → EReal) (ub1 : Fin 128 → EReal)
    (uw2 : Fin 128 → Fin 128 → EReal) (ub2 : Fin 128 → EReal) : Fin 128 → EReal :=
  dense (fun k => silu (dense (fun i => s i * r) uw1 ub1 k)) uw2 ub2

/-- A cell's result when its sums are DIVIDED by the count. -/
def updDiv (s : Fin 128 → EReal) (c : EReal) (uw1 : Fin 128 → Fin 128 → EReal) (ub1 : Fin 128 → EReal)
    (uw2 : Fin 128 → Fin 128 → EReal) (ub2 : Fin 128 → EReal) : Fin 128 → EReal :=
  dense (fun k => silu (dense (fun i => Ideal.div (s i) c) uw1 ub1 k)) uw2 ub2

/-- For a count of at least one, multiplying by 1 / max c 1 is dividing by c, on every extended real. -/
theorem mul_recip_max (x c : EReal) (hc : 1 ≤ c) : x * Ideal.div 1 (max c 1) = Ideal.div x c := by
  have hne : c ≠ 0 := fun h => by rw [h] at hc; exact absurd hc (by norm_num)
  rw [max_eq_left hc]
  unfold Ideal.div
  rw [if_neg hne, if_neg hne, one_mul]

/-- THE SECOND LAW. -/
theorem updMul_eq_updDiv (s : Fin 128 → EReal) (c : EReal) (hc : 1 ≤ c) (uw1 : Fin 128 → Fin 128 → EReal) (ub1 : Fin 128 → EReal)
    (uw2 : Fin 128 → Fin 128 → EReal) (ub2 : Fin 128 → EReal) :
    updMul s (Ideal.div 1 (max c 1)) uw1 ub1 uw2 ub2 = updDiv s c uw1 ub1 uw2 ub2 := by
  unfold updMul updDiv
  simp only [mul_recip_max _ c hc]

end Cert.RowSpec

end
-- ==== Proof.KernelLayers.lean ====
/-
  What each region's body computes, entry by entry.

  A block of 4096 rows passes through affine layers and silu. At the extended reals a change of float
  format is the identity and a matrix product into a zero accumulator is the plain sum over the
  contracted axis, so entry (p, q) of an affine layer's result is the row function `dense` of row p of
  its input, and the whole body is the row function of the specification: `updMul` for the update
  region, `msgSplit` for the message region. Nothing here needs finiteness: only the definitions of
  the operations are unfolded.
-/
import proofs.«138658_j66108136620503_2_alg».proof.Proof.Gen.KernelIdeal.Skeleton
import proofs.«138658_j66108136620503_2_alg».proof.Proof.RowSpec
import Idealize.ShloMosaic.Lib.ValueIdx
import Idealize.ShloMosaic.Lib.Pipeline.Value
import Idealize.ShloMosaic.PureOps.Ideal.Laws

noncomputable section

namespace Cert.KernelIdeal.Layers

open Cert.KernelIdeal Cert.KernelIdeal.Gen Idealize.ShloMosaic Idealize.ShloMosaic.ValueIdx Idealize.ShloMosaic.Pipeline Cert.RowSpec

/-- The product of a 4096×128 block with a 128×128 weight. -/
abbrev dA : DotDims S4096x128 S128x128 S4096x128 := dot_S4096x128_S128x128_S4096x128_1_0_0_1_n_n
/-- The product of a 4096×6 block with the 6×128 weight. -/
abbrev dB : DotDims S4096x6 S6x128 S4096x128 := dot_S4096x6_S6x128_S4096x128_1_0_0_1_n_n

/-! ## The operand indices of the two products: (row, k) on the left, (k, column) on the right -/

theorem dA_lhs0 (i : S4096x128.Idx) (q : dA.contr.Idx) : (dA.lhsIdx i q 0).val = (i 0).val := by
  unfold DotDims.lhsIdx
  rw [dif_neg (show ¬(0 : Fin S4096x128.rank) ∈ dA.lhsBatch by decide), dif_pos (show (0 : Fin S4096x128.rank) ∈ dA.lhsNonContracting by decide)]
  rfl
theorem dA_lhs1 (i : S4096x128.Idx) (q : dA.contr.Idx) : (dA.lhsIdx i q 1).val = (q ⟨0, by decide⟩).val :=
  dA.lhsIdx_val_of_single rfl i q
theorem dA_rhs0 (i : S4096x128.Idx) (q : dA.contr.Idx) : (dA.rhsIdx i q 0).val = (q ⟨0, by decide⟩).val :=
  dA.rhsIdx_val_of_single rfl i q
theorem dA_rhs1 (i : S4096x128.Idx) (q : dA.contr.Idx) : (dA.rhsIdx i q 1).val = (i 1).val := by
  unfold DotDims.rhsIdx
  rw [dif_neg (show ¬(1 : Fin S128x128.rank) ∈ dA.rhsBatch by decide), dif_pos (show (1 : Fin S128x128.rank) ∈ dA.rhsNonContracting by decide)]
  rfl

theorem dB_lhs0 (i : S4096x128.Idx) (q : dB.contr.Idx) : (dB.lhsIdx i q 0).val = (i 0).val := by
  unfold DotDims.lhsIdx
  rw [dif_neg (show ¬(0 : Fin S4096x6.rank) ∈ dB.lhsBatch by decide), dif_pos (show (0 : Fin S4096x6.rank) ∈ dB.lhsNonContracting by decide)]
  rfl
theorem dB_lhs1 (i : S4096x128.Idx) (q : dB.contr.Idx) : (dB.lhsIdx i q 1).val = (q ⟨0, by decide⟩).val :=
  dB.lhsIdx_val_of_single rfl i q
theorem dB_rhs0 (i : S4096x128.Idx) (q : dB.contr.Idx) : (dB.rhsIdx i q 0).val = (q ⟨0, by decide⟩).val :=
  dB.rhsIdx_val_of_single rfl i q
theorem dB_rhs1 (i : S4096x128.Idx) (q : dB.contr.Idx) : (dB.rhsIdx i q 1).val = (i 1).val := by
  unfold DotDims.rhsIdx
  rw [dif_neg (show ¬(1 : Fin S6x128.rank) ∈ dB.rhsBatch by decide), dif_pos (show (1 : Fin S6x128.rank) ∈ dB.rhsNonContracting by decide)]
  rfl

/-! ## A product into the zero accumulator is the sum over the contracted axis -/

/-- Entry (p, q) of l·r for a 128-wide contraction, with the factors named. -/
theorem mmA_of {φ₁ φ₂ : FTy} (l : FVec Ideal S4096x128 φ₁) (r : FVec Ideal S128x128 φ₂) (p : Fin 4096) (q : Fin 128)
    (L R : Fin 128 → EReal) (hl : ∀ k, l (ix2 p k) = L k) (hr : ∀ k, r (ix2 k q) = R k) :
    matmul dA none l r (constant S4096x128 .f32 0x00000000#32) (ix2 p q) = ∑ k : Fin 128, L k * R k := by
  show FloatOps.matmul dA none l r (constant S4096x128 .f32 0x00000000#32) (ix2 p q) = _
  rw [Ideal.matmul_constant_zero_apply, ← Equiv.sum_comp (ValueIdx.contrEquiv1 dA 128 rfl rfl).symm]
  refine Finset.sum_congr rfl fun k _ => ?_
  have hk := ValueIdx.contrEquiv1_symm_val dA 128 rfl rfl k
  have el : dA.lhsIdx (ix2 p q) ((ValueIdx.contrEquiv1 dA 128 rfl rfl).symm k) = ix2 p k := funext fun a => Fin.ext (by
    match a with
    | ⟨0, _⟩ => exact dA_lhs0 _ _
    | ⟨1, _⟩ => exact (dA_lhs1 _ _).trans hk)
  have er : dA.rhsIdx (ix2 p q) ((ValueIdx.contrEquiv1 dA 128 rfl rfl).symm k) = ix2 k q := funext fun a => Fin.ext (by
    match a with
    | ⟨0, _⟩ => exact (dA_rhs0 _ _).trans hk
    | ⟨1, _⟩ => exact dA_rhs1 _ _)
  rw [el, er, hl k, hr k]

/-- Entry (p, q) of l·r for the 6-wide contraction, with the factors named. -/
theorem mmB_of {φ₁ φ₂ : FTy} (l : FVec Ideal S4096x6 φ₁) (r : FVec Ideal S6x128 φ₂) (p : Fin 4096) (q : Fin 128)
    (L R : Fin 6 → EReal) (hl : ∀ k, l (ix2 p k) = L k) (hr : ∀ k, r (ix2 k q) = R k) :
    matmul dB none l r (constant S4096x128 .f32 0x00000000#32) (ix2 p q) = ∑ k : Fin 6, L k * R k := by
  show FloatOps.matmul dB none l r (constant S4096x128 .f32 0x00000000#32) (ix2 p q) = _
  rw [Ideal.matmul_constant_zero_apply, ← Equiv.sum_comp (ValueIdx.contrEquiv1 dB 6 rfl rfl).symm]
  refine Finset.sum_congr rfl fun k _ => ?_
  have hk := ValueIdx.contrEquiv1_symm_val dB 6 rfl rfl k
  have el : dB.lhsIdx (ix2 p q) ((ValueIdx.contrEquiv1 dB 6 rfl rfl).symm k) = ix2 p k := funext fun a => Fin.ext (by
    match a with
    | ⟨0, _⟩ => exact dB_lhs0 _ _
    | ⟨1, _⟩ => exact (dB_lhs1 _ _).trans hk)
  have er : dB.rhsIdx (ix2 p q) ((ValueIdx.contrEquiv1 dB 6 rfl rfl).symm k) = ix2 k q := funext fun a => Fin.ext (by
    match a with
    | ⟨0, _⟩ => exact (dB_rhs0 _ _).trans hk
    | ⟨1, _⟩ => exact dB_rhs1 _ _)
  rw [el, er, hl k, hr k]

/-! ## Broadcasts -/

/-- A 1×128 row broadcast down 4096 rows: entry (p, q) is entry (0, q) of the row. -/
theorem bcastRow (b : Vec Ideal S1x128 .f32) (p : Fin 4096) (q : Fin 128) :
    broadcastTo S4096x128 (shapeCast S1x128 b shapeCasts_S1x128_S1x128) broadcasts_S1x128_S4096x128 (ix2 p q) = b (ix2 0 q) := by
  rw [shapeCast_self]
  exact broadcastTo_apply b broadcasts_S1x128_S4096x128 (ix2 p q) (ix2 0 q) (fun a => match a with
    | ⟨0, _⟩ => by show (0 : ℕ) = if (1 : ℕ) = 1 then 0 else _; rw [if_pos rfl]
    | ⟨1, _⟩ => by show q.val = if (128 : ℕ) = 1 then 0 else q.val; rw [if_neg (by decide)])

/-- A 4096×1 column broadcast across 128 columns: entry (p, q) is entry (p, 0) of the column. -/
theorem bcastCol (v : Vec Ideal S4096x1 .f32) (p : Fin 4096) (q : Fin 128) :
    broadcastTo S4096x128 (shapeCast S4096x1 v shapeCasts_S4096x1_S4096x1) broadcasts_S4096x1_S4096x128 (ix2 p q) = v (ix2 p 0) := by
  rw [shapeCast_self]
  exact broadcastTo_apply v broadcasts_S4096x1_S4096x128 (ix2 p q) (ix2 p 0) (fun a => match a with
    | ⟨0, _⟩ => by show p.val = if (4096 : ℕ) = 1 then 0 else p.val; rw [if_neg (by decide)]
    | ⟨1, _⟩ => by show (0 : ℕ) = if (1 : ℕ) = 1 then 0 else _; rw [if_pos rfl])

/-! ## An affine layer and silu, at an entry -/

/-- Entry (p, q) of l·r + bias, 128-wide, is `dense` of row p. -/
theorem denseA_of {φ₁ φ₂ : FTy} (l : FVec Ideal S4096x128 φ₁) (r : FVec Ideal S128x128 φ₂) (bb : FVec Ideal S4096x128 .f32)
    (p : Fin 4096) (q : Fin 128) (X : Fin 128 → EReal) (W : Fin 128 → Fin 128 → EReal) (b : Fin 128 → EReal)
    (hl : ∀ k, l (ix2 p k) = X k) (hr : ∀ k, r (ix2 k q) = W k q) (hb : bb (ix2 p q) = b q) :
    addf (matmul dA none l r (constant S4096x128 .f32 0x00000000#32)) bb (ix2 p q) = dense X W b q := by
  rw [addf_apply, mmA_of l r p q X (fun k => W k q) hl hr, hb]
  rfl

/-- Entry (p, q) of l·r + bias, 6-wide, is `dense` of row p. -/
theorem denseB_of {φ₁ φ₂ : FTy} (l : FVec Ideal S4096x6 φ₁) (r : FVec Ideal S6x128 φ₂) (bb : FVec Ideal S4096x128 .f32)
    (p : Fin 4096) (q : Fin 128) (X : Fin 6 → EReal) (W : Fin 6 → Fin 128 → EReal) (b : Fin 128 → EReal)
    (hl : ∀ k, l (ix2 p k) = X k) (hr : ∀ k, r (ix2 k q) = W k q) (hb : bb (ix2 p q) = b q) :
    addf (matmul dB none l r (constant S4096x128 .f32 0x00000000#32)) bb (ix2 p q) = dense X W b q := by
  rw [addf_apply, mmB_of l r p q X (fun k => W k q) hl hr, hb]
  rfl

/-- x · logistic x at an entry is silu of the entry. -/
theorem silu_at {s : Shape} (v : FVec Ideal s .f32) (i : s.Idx) : mulf v (logistic v) i = silu (v i) := rfl

/-! ## The update region's body -/

/-- Entry (p, q) of the update body's stored block: the row function `updMul` of row p of the sums,
    the reciprocal count of row p, and the four weights. -/
theorem update_payload (v0 : Vec Ideal S4096x128 .f32) (v2 : Vec Ideal S4096x1 .f32) (v6 : Vec Ideal S128x128 .f32)
    (v10 : Vec Ideal S1x128 .f32) (v16 : Vec Ideal S128x128 .f32) (v20 : Vec Ideal S1x128 .f32) (p : Fin 4096) (q : Fin 128) :
    k1_pay1 (F := Ideal) v0 v2 v6 v10 v16 v20 (ix2 p q)
      = updMul (fun k => v0 (ix2 p k)) (v2 (ix2 p 0)) (fun a b => v6 (ix2 a b)) (fun a => v10 (ix2 0 a))
          (fun a b => v16 (ix2 a b)) (fun a => v20 (ix2 0 a)) q := by
  unfold k1_pay1 updMul
  refine denseA_of _ _ _ p q _ _ _ (fun k => ?_) (fun k => rfl) (bcastRow v20 p q)
  refine (silu_at _ (ix2 p k)).trans (congrArg silu ?_)
  refine denseA_of _ _ _ p k _ _ _ (fun i => ?_) (fun i => rfl) (bcastRow v10 p k)
  show (shapeCast S4096x128 v0 shapeCasts_S4096x128_S4096x128) (ix2 p i) * (broadcastTo S4096x128 (shapeCast S4096x1 v2 shapeCasts_S4096x1_S4096x1) broadcasts_S4096x1_S4096x128) (ix2 p i) = v0 (ix2 p i) * v2 (ix2 p 0)
  rw [shapeCast_self, bcastCol]

/-! ## The message region's body -/

/-- Entry (p, q) of the position code the body computes: `posCode` of row p of the attributes. -/
theorem message_payload (v0 : Vec Ideal S4096x6 .f32) (v3 : Vec Ideal S6x128 .f32) (v6 : Vec Ideal S1x128 .f32)
    (v12 : Vec Ideal S128x128 .f32) (v16 : Vec Ideal S1x128 .f32) (v20 : Vec Ideal S4096x128 .bf16) (v22 : Vec Ideal S128x128 .f32)
    (v25 : Vec Ideal S128x128 .f32) (v32 : Vec Ideal S1x128 .f32) (v38 : Vec Ideal S128x128 .f32) (v42 : Vec Ideal S1x128 .f32)
    (p : Fin 4096) (q : Fin 128) :
    k0_pay1 (F := Ideal) (k0_pay2 v0 v3 v6 v12 v16 v20 v22 v25 v32) (k0_pay3 v0 v3 v6 v12 v16 v20 v22 v25 v32) v38 v42 (ix2 p q)
      = msgSplit (fun k => v0 (ix2 p k)) (fun k => v20 (ix2 p k))
          (fun a b => v3 (ix2 a b)) (fun a => v6 (ix2 0 a)) (fun a b => v12 (ix2 a b)) (fun a => v16 (ix2 0 a))
          (fun a b => v22 (ix2 a b)) (fun a b => v25 (ix2 a b)) (fun a => v32 (ix2 0 a))
          (fun a b => v38 (ix2 a b)) (fun a => v42 (ix2 0 a)) q := by
  unfold k0_pay1 msgSplit
  refine denseA_of _ _ _ p q _ _ _ (fun k => ?_) (fun k => rfl) (bcastRow v42 p q)
  unfold k0_pay3
  refine (silu_at _ (ix2 p k)).trans (congrArg silu ?_)
  unfold k0_pay2
  show (matmul dA none _ _ _ (ix2 p k) + matmul dA none _ _ _ (ix2 p k)) + _ = _
  refine congrArg₂ (· + ·) (congrArg₂ (· + ·) ?_ ?_) (bcastRow v32 p k)
  · refine mmA_of _ _ p k _ _ (fun i => ?_) (fun i => ?_)
    · exact congrFun (shapeCast_self v20 shapeCasts_S4096x128_S4096x128) (ix2 p i)
    · exact congrFun (shapeCast_self v22 shapeCasts_S128x128_S128x128) (ix2 i k)
  · refine mmA_of _ _ p k _ _ (fun i => ?_) (fun i => ?_)
    · unfold posCode
      refine denseA_of _ _ _ p i _ _ _ (fun j => ?_) (fun j => rfl) (bcastRow v16 p i)
      refine (silu_at _ (ix2 p j)).trans (congrArg silu ?_)
      refine denseB_of _ _ _ p j _ _ _ (fun a => ?_) (fun a => rfl) (bcastRow v6 p j)
      exact congrFun (shapeCast_self v0 shapeCasts_S4096x6_S4096x6) (ix2 p a)
    · exact congrFun (shapeCast_self v25 shapeCasts_S128x128_S128x128) (ix2 i k)

end Cert.KernelIdeal.Layers

end
-- ==== Proof.ArraySpec.lean ====
/-
  The two row functions of the specification, laid out as whole arrays.

  Row e of the message array is the message of edge e, from row e of the attribute array and row e of
  the gathered embedding array. Row g of the result array is the update of cell g, from row g of the
  per-cell sums and entry g of the per-cell counts (or of their reciprocals). Biases are held as 1×128
  rows, as the idealized kernel passes them, or as vectors of 128, as the reference holds them.
-/
import proofs.«138658_j66108136620503_2_alg».proof.Proof.RowSpec
import Idealize.ShloMosaic.Lib.ValueIdx

noncomputable section

namespace Cert.ArraySpec

open Idealize.ShloMosaic Idealize.ShloMosaic.ValueIdx Cert.RowSpec

/-- A two-axis array as a function of its two coordinates. -/
abbrev mat {a b : Nat} (x : (⟨2, ![a, b]⟩ : Shape).Idx → EReal) : Fin a → Fin b → EReal := fun i j => x (ix2 i j)
/-- A 1×n array as a function of its column. -/
abbrev row1 {n : Nat} (x : (⟨2, ![1, n]⟩ : Shape).Idx → EReal) : Fin n → EReal := fun j => x (ix2 0 j)
/-- An n-vector as a function of its coordinate. -/
abbrev vec1 {n : Nat} (x : (⟨1, ![n]⟩ : Shape).Idx → EReal) : Fin n → EReal := fun j => x (ix1 j)

/-- THE MESSAGE ARRAY, first message layer applied half by half, biases as 1×128 rows. -/
def msgArr (ea : (⟨2, ![524288, 6]⟩ : Shape).Idx → EReal) (emb : (⟨2, ![524288, 128]⟩ : Shape).Idx → EReal)
    (ew1 : (⟨2, ![6, 128]⟩ : Shape).Idx → EReal) (eb1 : (⟨2, ![1, 128]⟩ : Shape).Idx → EReal)
    (ew2 : (⟨2, ![128, 128]⟩ : Shape).Idx → EReal) (eb2 : (⟨2, ![1, 128]⟩ : Shape).Idx → EReal)
    (mwa mwb : (⟨2, ![128, 128]⟩ : Shape).Idx → EReal) (mb1 : (⟨2, ![1, 128]⟩ : Shape).Idx → EReal)
    (mw2 : (⟨2, ![128, 128]⟩ : Shape).Idx → EReal) (mb2 : (⟨2, ![1, 128]⟩ : Shape).Idx → EReal) :
    (⟨2, ![524288, 128]⟩ : Shape).Idx → EReal :=
  fun i => msgSplit (mat ea (i 0)) (mat emb (i 0)) (mat ew1) (row1 eb1) (mat ew2) (row1 eb2) (mat mwa) (mat mwb) (row1 mb1)
    (mat mw2) (row1 mb2) (i 1)

/-- Entry (e, j) of the message array. -/
theorem msgArr_apply (ea : (⟨2, ![524288, 6]⟩ : Shape).Idx → EReal) (emb : (⟨2, ![524288, 128]⟩ : Shape).Idx → EReal)
    (ew1 : (⟨2, ![6, 128]⟩ : Shape).Idx → EReal) (eb1 : (⟨2, ![1, 128]⟩ : Shape).Idx → EReal)
    (ew2 : (⟨2, ![128, 128]⟩ : Shape).Idx → EReal) (eb2 : (⟨2, ![1, 128]⟩ : Shape).Idx → EReal)
    (mwa mwb : (⟨2, ![128, 128]⟩ : Shape).Idx → EReal) (mb1 : (⟨2, ![1, 128]⟩ : Shape).Idx → EReal)
    (mw2 : (⟨2, ![128, 128]⟩ : Shape).Idx → EReal) (mb2 : (⟨2, ![1, 128]⟩ : Shape).Idx → EReal)
    (i : (⟨2, ![524288, 128]⟩ : Shape).Idx) (e : Fin 524288) (j : Fin 128) (he : (i 0).val = e.val) (hj : (i 1).val = j.val) :
    msgArr ea emb ew1 eb1 ew2 eb2 mwa mwb mb1 mw2 mb2 i
      = msgSplit (mat ea e) (mat emb e) (mat ew1) (row1 eb1) (mat ew2) (row1 eb2) (mat mwa) (mat mwb) (row1 mb1) (mat mw2) (row1 mb2) j := by
  have hi : i = ix2 e j := funext fun a => Fin.ext (by
    match a with
    | ⟨0, _⟩ => exact he
    | ⟨1, _⟩ => exact hj)
  subst hi
  rfl

/-- THE RESULT ARRAY with the sums multiplied by reciprocal counts held as a 32768×1 column, biases as 1×128 rows. -/
def updArrMul (s : (⟨2, ![32768, 128]⟩ : Shape).Idx → EReal) (r : (⟨2, ![32768, 1]⟩ : Shape).Idx → EReal)
    (uw1 : (⟨2, ![128, 128]⟩ : Shape).Idx → EReal) (ub1 : (⟨2, ![1, 128]⟩ : Shape).Idx → EReal)
    (uw2 : (⟨2, ![128, 128]⟩ : Shape).Idx → EReal) (ub2 : (⟨2, ![1, 128]⟩ : Shape).Idx → EReal) :
    (⟨2, ![32768, 128]⟩ : Shape).Idx → EReal :=
  fun i => updMul (mat s (i 0)) (r (ix2 (i 0) 0)) (mat uw1) (row1 ub1) (mat uw2) (row1 ub2) (i 1)

/-- Entry (g, j) of that result array. -/
theorem updArrMul_apply (s : (⟨2, ![32768, 128]⟩ : Shape).Idx → EReal) (r : (⟨2, ![32768, 1]⟩ : Shape).Idx → EReal)
    (uw1 : (⟨2, ![128, 128]⟩ : Shape).Idx → EReal) (ub1 : (⟨2, ![1, 128]⟩ : Shape).Idx → EReal)
    (uw2 : (⟨2, ![128, 128]⟩ : Shape).Idx → EReal) (ub2 : (⟨2, ![1, 128]⟩ : Shape).Idx → EReal)
    (i : (⟨2, ![32768, 128]⟩ : Shape).Idx) (g : Fin 32768) (j : Fin 128) (hg : (i 0).val = g.val) (hj : (i 1).val = j.val) :
    updArrMul s r uw1 ub1 uw2 ub2 i = updMul (mat s g) (r (ix2 g 0)) (mat uw1) (row1 ub1) (mat uw2) (row1 ub2) j := by
  have hi : i = ix2 g j := funext fun a => Fin.ext (by
    match a with
    | ⟨0, _⟩ => exact hg
    | ⟨1, _⟩ => exact hj)
  subst hi
  rfl

end Cert.ArraySpec

end
-- ==== Proof.MessageArray.lean ====
/-
  The message region's output array after the run.

  The region's grid has 128 points; point t reads rows 4096·t … 4096·t + 4095 of the attribute array
  and of the gathered embedding array, every weight whole, and writes the same rows of the message
  array. Entry (p, q) of what it writes is the message of edge 4096·t + p (the body's payload, read at
  an entry), so the written block is block t of the message array of the specification; the 128 blocks
  tile the 524288 rows, so the whole output array is that message array.
-/
import proofs.«138658_j66108136620503_2_alg».proof.Proof.Gen.KernelIdeal.Frame
import proofs.«138658_j66108136620503_2_alg».proof.Proof.KernelLayers
import proofs.«138658_j66108136620503_2_alg».proof.Proof.ArraySpec

set_option maxRecDepth 16384

noncomputable section

namespace Cert.KernelIdeal.MessageArray

open Cert.KernelIdeal Cert.KernelIdeal.Gen Cert.KernelIdeal.Layers Cert.RowSpec Cert.ArraySpec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zeros2 : (![0, 0] : Fin 2 → Nat) = fun _ => 0 := funext fun a => by fin_cases a <;> rfl

/-- The index maps over the grid: the two row windows and the output window sit at block (t, 0), every
    weight window at block (0, 0). -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = t.val ∧ win0_11.index t (1 : Fin 2) = 0 :=
  (by decide +kernel : ∀ t : Fin grid0.N, _)

/-- Row p of point t's attribute block is row 4096·t + p of the attribute array. -/
theorem attr_row (c : Dev nD) (t : Fin cfg0.N) (p : Fin 4096) (e : Fin 524288) (he : e.val = t.val * 4096 + p.val) (k : Fin 6) :
    iblk0 V c 0 t (ix2 p k) = V c main_v26 (ix2 e k) := by
  obtain ⟨e0, e1, -⟩ := index_facts t
  show V c main_v26 (((cfg0.win 0).blk t).view.emb (ix2 p k)) = V c main_v26 (ix2 e k)
  refine congrArg (V c main_v26) (funext fun a => Fin.ext ?_)
  match a with
  | ⟨0, _⟩ => show win0_0.index t (0 : Fin 2) * 4096 + 1 * p.val = e.val; omega
  | ⟨1, _⟩ => show win0_0.index t (1 : Fin 2) * 6 + 1 * k.val = k.val; omega

/-- Row p of point t's embedding block is row 4096·t + p of the gathered embedding array. -/
theorem emb_row (c : Dev nD) (t : Fin cfg0.N) (p : Fin 4096) (e : Fin 524288) (he : e.val = t.val * 4096 + p.val) (k : Fin 128) :
    iblk0 V c 1 t (ix2 p k) = V c main_v25 (ix2 e k) := by
  obtain ⟨-, -, e0, e1, -⟩ := index_facts t
  show V c main_v25 (((cfg0.win 1).blk t).view.emb (ix2 p k)) = V c main_v25 (ix2 e k)
  refine congrArg (V c main_v25) (funext fun a => Fin.ext ?_)
  match a with
  | ⟨0, _⟩ => show win0_1.index t (0 : Fin 2) * 4096 + 1 * p.val = e.val; omega
  | ⟨1, _⟩ => show win0_1.index t (1 : Fin 2) * 128 + 1 * k.val = k.val; omega

/-- A weight window's block is the whole weight array, at every point. -/
theorem w2_blk (c : Dev nD) (t : Fin cfg0.N) (a : Fin 6) (b : Fin 128) : iblk0 V c 2 t (ix2 a b) = V c main_arg4 (ix2 a b) := by
  obtain ⟨-, -, -, -, e0, e1, -⟩ := index_facts t
  show V c main_arg4 (((cfg0.win 2).blk t).view.emb (ix2 a b)) = V c main_arg4 (ix2 a b)
  refine congrArg (V c main_arg4) (funext fun d => Fin.ext ?_)
  match d with
  | ⟨0, _⟩ => show win0_2.index t (0 : Fin 2) * 6 + 1 * a.val = a.val; omega
  | ⟨1, _⟩ => show win0_2.index t (1 : Fin 2) * 128 + 1 * b.val = b.val; omega
theorem w3_blk (c : Dev nD) (t : Fin cfg0.N) (b : Fin 128) : iblk0 V c 3 t (ix2 0 b) = V c main_v27 (ix2 0 b) := by
  obtain ⟨-, -, -, -, -, -, e0, e1, -⟩ := index_facts t
  show V c main_v27 (((cfg0.win 3).blk t).view.emb (ix2 0 b)) = V c main_v27 (ix2 0 b)
  refine congrArg (V c main_v27) (funext fun d => Fin.ext ?_)
  match d with
  | ⟨0, _⟩ => show win0_3.index t (0 : Fin 2) * 1 + 1 * 0 = 0; omega
  | ⟨1, _⟩ => show win0_3.index t (1 : Fin 2) * 128 + 1 * b.val = b.val; omega
theorem w4_blk (c : Dev nD) (t : Fin cfg0.N) (a b : Fin 128) : iblk0 V c 4 t (ix2 a b) = V c main_arg6 (ix2 a b) := by
  obtain ⟨-, -, -, -, -, -, -, -, e0, e1, -⟩ := index_facts t
  show V c main_arg6 (((cfg0.win 4).blk t).view.emb (ix2 a b)) = V c main_arg6 (ix2 a b)
  refine congrArg (V c main_arg6) (funext fun d => Fin.ext ?_)
  match d with
  | ⟨0, _⟩ => show win0_4.index t (0 : Fin 2) * 128 + 1 * a.val = a.val; omega
  | ⟨1, _⟩ => show win0_4.index t (1 : Fin 2) * 128 + 1 * b.val = b.val; omega
theorem w5_blk (c : Dev nD) (t : Fin cfg0.N) (b : Fin 128) : iblk0 V c 5 t (ix2 0 b) = V c main_v28 (ix2 0 b) := by
  obtain ⟨-, -, -, -, -, -, -, -, -, -, e0, e1, -⟩ := index_facts t
  show V c main_v28 (((cfg0.win 5).blk t).view.emb (ix2 0 b)) = V c main_v28 (ix2 0 b)
  refine congrArg (V c main_v28) (funext fun d => Fin.ext ?_)
  match d with
  | ⟨0, _⟩ => show win0_5.index t (0 : Fin 2) * 1 + 1 * 0 = 0; omega
  | ⟨1, _⟩ => show win0_5.index t (1 : Fin 2) * 128 + 1 * b.val = b.val; omega
theorem w6_blk (c : Dev nD) (t : Fin cfg0.N) (a b : Fin 128) : iblk0 V c 6 t (ix2 a b) = V c main_v31 (ix2 a b) := by
  obtain ⟨-, -, -, -, -, -, -, -, -, -, -, -, e0, e1, -⟩ := index_facts t
  show V c main_v31 (((cfg0.win 6).blk t).view.emb (ix2 a b)) = V c main_v31 (ix2 a b)
  refine congrArg (V c main_v31) (funext fun d => Fin.ext ?_)
  match d with
  | ⟨0, _⟩ => show win0_6.index t (0 : Fin 2) * 128 + 1 * a.val = a.val; omega
  | ⟨1, _⟩ => show win0_6.index t (1 : Fin 2) * 128 + 1 * b.val = b.val; omega
theorem w7_blk (c : Dev nD) (t : Fin cfg0.N) (a b : Fin 128) : iblk0 V c 7 t (ix2 a b) = V c main_v32 (ix2 a b) := by
  obtain ⟨-, -, -, -, -, -, -, -, -, -, -, -, -, -, e0, e1, -⟩ := index_facts t
  show V c main_v32 (((cfg0.win 7).blk t).view.emb (ix2 a b)) = V c main_v32 (ix2 a b)
  refine congrArg (V c main_v32) (funext fun d => Fin.ext ?_)
  match d with
  | ⟨0, _⟩ => show win0_7.index t (0 : Fin 2) * 128 + 1 * a.val = a.val; omega
  | ⟨1, _⟩ => show win0_7.index t (1 : Fin 2) * 128 + 1 * b.val = b.val; omega
theorem w8_blk (c : Dev nD) (t : Fin cfg0.N) (b : Fin 128) : iblk0 V c 8 t (ix2 0 b) = V c main_v29 (ix2 0 b) := by
  obtain ⟨-, -, -, -, -, -, -, -, -, -, -, -, -, -, -, -, e0, e1, -⟩ := index_facts t
  show V c main_v29 (((cfg0.win 8).blk t).view.emb (ix2 0 b)) = V c main_v29 (ix2 0 b)
  refine congrArg (V c main_v29) (funext fun d => Fin.ext ?_)
  match d with
  | ⟨0, _⟩ => show win0_8.index t (0 : Fin 2) * 1 + 1 * 0 = 0; omega
  | ⟨1, _⟩ => show win0_8.index t (1 : Fin 2) * 128 + 1 * b.val = b.val; omega
theorem w9_blk (c : Dev nD) (t : Fin cfg0.N) (a b : Fin 128) : iblk0 V c 9 t (ix2 a b) = V c main_arg10 (ix2 a b) := by
  obtain ⟨-, -, -, -, -, -, -, -, -, -, -, -, -, -, -, -, -, -, e0, e1, -⟩ := index_facts t
  show V c main_arg10 (((cfg0.win 9).blk t).view.emb (ix2 a b)) = V c main_arg10 (ix2 a b)
  refine congrArg (V c main_arg10) (funext fun d => Fin.ext ?_)
  match d with
  | ⟨0, _⟩ => show win0_9.index t (0 : Fin 2) * 128 + 1 * a.val = a.val; omega
  | ⟨1, _⟩ => show win0_9.index t (1 : Fin 2) * 128 + 1 * b.val = b.val; omega
theorem w10_blk (c : Dev nD) (t : Fin cfg0.N) (b : Fin 128) : iblk0 V c 10 t (ix2 0 b) = V c main_v30 (ix2 0 b) := by
  obtain ⟨-, -, -, -, -, -, -, -, -, -, -, -, -, -, -, -, -, -, -, -, e0, e1, -⟩ := index_facts t
  show V c main_v30 (((cfg0.win 10).blk t).view.emb (ix2 0 b)) = V c main_v30 (ix2 0 b)
  refine congrArg (V c main_v30) (funext fun d => Fin.ext ?_)
  match d with
  | ⟨0, _⟩ => show win0_10.index t (0 : Fin 2) * 1 + 1 * 0 = 0; omega
  | ⟨1, _⟩ => show win0_10.index t (1 : Fin 2) * 128 + 1 * b.val = b.val; omega

/-- The message array of the specification at the region's entry contents. -/
abbrev target (c : Dev nD) : S524288x128.Idx → EReal :=
  msgArr (V c main_v26) (V c main_v25) (V c main_arg4) (V c main_v27) (V c main_arg6) (V c main_v28)
    (V c main_v31) (V c main_v32) (V c main_v29) (V c main_arg10) (V c main_v30)

/-- WHAT POINT t WRITES BACK is block t of the message array. -/
theorem flushed_eq (c : Dev nD) (t : Fin cfg0.N) :
    (dat0 V c).flushed 11 t = ((cfg0.win 11).blk t).view.read (Elt Ideal) (target V c) := by
  show (cfg0.win 11).cut (grid0.coords t) ((dat0 V c).after 11 t) = _
  rw [after0_11]
  unfold out0_11
  rw [View.canon_unit_zero zeros2]
  simp only [View.ld_unit_zero (S := S4096x6) zeros2, View.ld_unit_zero (S := S6x128) zeros2, View.ld_unit_zero (S := S1x128) zeros2,
    View.ld_unit_zero (S := S128x128) zeros2, View.ld_unit_zero (S := S4096x128) zeros2]
  funext j
  obtain ⟨p, q, rfl⟩ : ∃ (p : Fin 4096) (q : Fin 128), j = ix2 p q := ⟨j 0, j 1, eq_ix2 j⟩
  have ht : t.val < 128 := t.isLt
  have hp : p.val < 4096 := p.isLt
  obtain ⟨-, -, -, -, -, -, -, -, -, -, -, -, -, -, -, -, -, -, -, -, -, -, e0, e1⟩ := index_facts t
  refine (message_payload _ _ _ _ _ _ _ _ _ _ _ p q).trans ?_
  show _ = target V c (((cfg0.win 11).blk t).view.emb (ix2 p q))
  refine Eq.symm ((msgArr_apply _ _ _ _ _ _ _ _ _ _ _ _ ⟨t.val * 4096 + p.val, by omega⟩ q ?_ ?_).trans ?_)
  · show win0_11.index t (0 : Fin 2) * 4096 + 1 * p.val = t.val * 4096 + p.val; omega
  · show win0_11.index t (1 : Fin 2) * 128 + 1 * q.val = q.val; omega
  · refine Eq.symm ?_
    have hea : (fun k => iblk0 V c 0 t (ix2 p k)) = mat (V c main_v26) ⟨t.val * 4096 + p.val, by omega⟩ :=
      funext fun k => attr_row V c t p _ rfl k
    have hemb : (fun k => iblk0 V c 1 t (ix2 p k)) = mat (V c main_v25) ⟨t.val * 4096 + p.val, by omega⟩ :=
      funext fun k => emb_row V c t p _ rfl k
    have h2 : (fun a b => iblk0 V c 2 t (ix2 a b)) = mat (V c main_arg4) := funext fun a => funext fun b => w2_blk V c t a b
    have h3 : (fun b => iblk0 V c 3 t (ix2 0 b)) = row1 (V c main_v27) := funext fun b => w3_blk V c t b
    have h4 : (fun a b => iblk0 V c 4 t (ix2 a b)) = mat (V c main_arg6) := funext fun a => funext fun b => w4_blk V c t a b
    have h5 : (fun b => iblk0 V c 5 t (ix2 0 b)) = row1 (V c main_v28) := funext fun b => w5_blk V c t b
    have h6 : (fun a b => iblk0 V c 6 t (ix2 a b)) = mat (V c main_v31) := funext fun a => funext fun b => w6_blk V c t a b
    have h7 : (fun a b => iblk0 V c 7 t (ix2 a b)) = mat (V c main_v32) := funext fun a => funext fun b => w7_blk V c t a b
    have h8 : (fun b => iblk0 V c 8 t (ix2 0 b)) = row1 (V c main_v29) := funext fun b => w8_blk V c t b
    have h9 : (fun a b => iblk0 V c 9 t (ix2 a b)) = mat (V c main_arg10) := funext fun a => funext fun b => w9_blk V c t a b
    have h10 : (fun b => iblk0 V c 10 t (ix2 0 b)) = row1 (V c main_v30) := funext fun b => w10_blk V c t b
    rw [hea, hemb, h2, h3, h4, h5, h6, h7, h8, h9, h10]

/-- An index of the output array is in point t's block iff each coordinate is in the block's range. -/
theorem mem_blk (t : Fin cfg0.N) (i : S524288x128.Idx) :
    i ∈ ((cfg0.win 11).blk t).view.set ↔ ∀ a : Fin 2, win0_11.index t a * S4096x128.size a ≤ (i a).val ∧ (i a).val < win0_11.index t a * S4096x128.size a + S4096x128.size a := by
  show i ∈ ((View.whole main_v33).slice (win0_11.rect t)).set ↔ _
  rw [View.set_slice_whole, Rect.mem_set_unit]
  exact Iff.rfl

/-- Row r lies in the block of point r / 4096: the 128 blocks tile the array. -/
theorem cover (i : S524288x128.Idx) : ∃ t : Fin cfg0.N, (cfg0.win 11).flush t = true ∧ i ∈ ((cfg0.win 11).blk t).view.set := by
  have hi0 : (i 0).val < 524288 := (i 0).isLt
  have hi1 : (i 1).val < 128 := (i 1).isLt
  let t : Fin cfg0.N := ⟨(i 0).val / 4096, by show (i 0).val / 4096 < 128; omega⟩
  have htv : t.val = (i 0).val / 4096 := rfl
  obtain ⟨-, -, -, -, -, -, -, -, -, -, -, -, -, -, -, -, -, -, -, -, -, -, e0, e1⟩ := index_facts t
  refine ⟨t, flush0_11 t, ?_⟩
  rw [mem_blk]
  intro a
  match a with
  | ⟨0, _⟩ => show win0_11.index t (0 : Fin 2) * 4096 ≤ (i 0).val ∧ (i 0).val < win0_11.index t (0 : Fin 2) * 4096 + 4096; omega
  | ⟨1, _⟩ => show win0_11.index t (1 : Fin 2) * 128 ≤ (i 1).val ∧ (i 1).val < win0_11.index t (1 : Fin 2) * 128 + 128; omega

/-- THE OUTPUT ARRAY after the region: the message array of the specification at the region's entry contents. -/
theorem final (c : Dev nD) : (dat0 V c).arrAt 11 cfg0.N = target V c :=
  (dat0 V c).arrAt_eq_of_cover 11 (target V c) (fun t _ => flushed_eq V c t) cover

end Cert.KernelIdeal.MessageArray

end
-- ==== Proof.UpdateArray.lean ====
/-
  The update region's output array after the run.

  The region's grid has 8 points; point t reads rows 4096·t … 4096·t + 4095 of the per-cell sums and of
  the column of reciprocal counts, every weight whole, and writes the same rows of the result. Entry
  (p, q) of what it writes is the update of cell 4096·t + p, so the written block is block t of the
  result array of the specification; the 8 blocks tile the 32768 rows.
-/
import proofs.«138658_j66108136620503_2_alg».proof.Proof.Gen.KernelIdeal.Frame
import proofs.«138658_j66108136620503_2_alg».proof.Proof.KernelLayers
import proofs.«138658_j66108136620503_2_alg».proof.Proof.ArraySpec

set_option maxRecDepth 16384

noncomputable section

namespace Cert.KernelIdeal.UpdateArray

open Cert.KernelIdeal Cert.KernelIdeal.Gen Cert.KernelIdeal.Layers Cert.RowSpec Cert.ArraySpec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zeros2 : (![0, 0] : Fin 2 → Nat) = fun _ => 0 := funext fun a => by fin_cases a <;> rfl

/-- The index maps over the grid: the two row windows and the output window sit at block (t, 0), every
    weight window at block (0, 0). -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row p of point t's block of sums is row 4096·t + p of the sums. -/
theorem sums_row (c : Dev nD) (t : Fin cfg1.N) (p : Fin 4096) (g : Fin 32768) (hg : g.val = t.val * 4096 + p.val) (k : Fin 128) :
    iblk1 V c 0 t (ix2 p k) = V c main_v37 (ix2 g k) := by
  obtain ⟨e0, e1, -⟩ := index_facts t
  show V c main_v37 (((cfg1.win 0).blk t).view.emb (ix2 p k)) = V c main_v37 (ix2 g k)
  refine congrArg (V c main_v37) (funext fun a => Fin.ext ?_)
  match a with
  | ⟨0, _⟩ => show win1_0.index t (0 : Fin 2) * 4096 + 1 * p.val = g.val; omega
  | ⟨1, _⟩ => show win1_0.index t (1 : Fin 2) * 128 + 1 * k.val = k.val; omega

/-- Entry p of point t's block of reciprocal counts is entry 4096·t + p of the column. -/
theorem recip_row (c : Dev nD) (t : Fin cfg1.N) (p : Fin 4096) (g : Fin 32768) (hg : g.val = t.val * 4096 + p.val) :
    iblk1 V c 1 t (ix2 p 0) = V c main_v46 (ix2 g 0) := by
  obtain ⟨-, -, e0, e1, -⟩ := index_facts t
  show V c main_v46 (((cfg1.win 1).blk t).view.emb (ix2 p 0)) = V c main_v46 (ix2 g 0)
  refine congrArg (V c main_v46) (funext fun a => Fin.ext ?_)
  match a with
  | ⟨0, _⟩ => show win1_1.index t (0 : Fin 2) * 4096 + 1 * p.val = g.val; omega
  | ⟨1, _⟩ => show win1_1.index t (1 : Fin 2) * 1 + 1 * 0 = 0; omega

/-- A weight window's block is the whole weight array, at every point. -/
theorem w2_blk (c : Dev nD) (t : Fin cfg1.N) (a b : Fin 128) : iblk1 V c 2 t (ix2 a b) = V c main_arg12 (ix2 a b) := by
  obtain ⟨-, -, -, -, e0, e1, -⟩ := index_facts t
  show V c main_arg12 (((cfg1.win 2).blk t).view.emb (ix2 a b)) = V c main_arg12 (ix2 a b)
  refine congrArg (V c main_arg12) (funext fun d => Fin.ext ?_)
  match d with
  | ⟨0, _⟩ => show win1_2.index t (0 : Fin 2) * 128 + 1 * a.val = a.val; omega
  | ⟨1, _⟩ => show win1_2.index t (1 : Fin 2) * 128 + 1 * b.val = b.val; omega
theorem w3_blk (c : Dev nD) (t : Fin cfg1.N) (b : Fin 128) : iblk1 V c 3 t (ix2 0 b) = V c main_v47 (ix2 0 b) := by
  obtain ⟨-, -, -, -, -, -, e0, e1, -⟩ := index_facts t
  show V c main_v47 (((cfg1.win 3).blk t).view.emb (ix2 0 b)) = V c main_v47 (ix2 0 b)
  refine congrArg (V c main_v47) (funext fun d => Fin.ext ?_)
  match d with
  | ⟨0, _⟩ => show win1_3.index t (0 : Fin 2) * 1 + 1 * 0 = 0; omega
  | ⟨1, _⟩ => show win1_3.index t (1 : Fin 2) * 128 + 1 * b.val = b.val; omega
theorem w4_blk (c : Dev nD) (t : Fin cfg1.N) (a b : Fin 128) : iblk1 V c 4 t (ix2 a b) = V c main_arg14 (ix2 a b) := by
  obtain ⟨-, -, -, -, -, -, -, -, e0, e1, -⟩ := index_facts t
  show V c main_arg14 (((cfg1.win 4).blk t).view.emb (ix2 a b)) = V c main_arg14 (ix2 a b)
  refine congrArg (V c main_arg14) (funext fun d => Fin.ext ?_)
  match d with
  | ⟨0, _⟩ => show win1_4.index t (0 : Fin 2) * 128 + 1 * a.val = a.val; omega
  | ⟨1, _⟩ => show win1_4.index t (1 : Fin 2) * 128 + 1 * b.val = b.val; omega
theorem w5_blk (c : Dev nD) (t : Fin cfg1.N) (b : Fin 128) : iblk1 V c 5 t (ix2 0 b) = V c main_v48 (ix2 0 b) := by
  obtain ⟨-, -, -, -, -, -, -, -, -, -, e0, e1, -⟩ := index_facts t
  show V c main_v48 (((cfg1.win 5).blk t).view.emb (ix2 0 b)) = V c main_v48 (ix2 0 b)
  refine congrArg (V c main_v48) (funext fun d => Fin.ext ?_)
  match d with
  | ⟨0, _⟩ => show win1_5.index t (0 : Fin 2) * 1 + 1 * 0 = 0; omega
  | ⟨1, _⟩ => show win1_5.index t (1 : Fin 2) * 128 + 1 * b.val = b.val; omega

/-- The result array of the specification at the region's entry contents. -/
abbrev target (c : Dev nD) : S32768x128.Idx → EReal :=
  updArrMul (V c main_v37) (V c main_v46) (V c main_arg12) (V c main_v47) (V c main_arg14) (V c main_v48)

/-- WHAT POINT t WRITES BACK is block t of the result array. -/
theorem flushed_eq (c : Dev nD) (t : Fin cfg1.N) :
    (dat1 V c).flushed 6 t = ((cfg1.win 6).blk t).view.read (Elt Ideal) (target V c) := by
  show (cfg1.win 6).cut (grid1.coords t) ((dat1 V c).after 6 t) = _
  rw [after1_6]
  unfold out1_6
  rw [View.canon_unit_zero zeros2]
  simp only [View.ld_unit_zero (S := S4096x128) zeros2, View.ld_unit_zero (S := S4096x1) zeros2, View.ld_unit_zero (S := S1x128) zeros2,
    View.ld_unit_zero (S := S128x128) zeros2]
  funext j
  obtain ⟨p, q, rfl⟩ : ∃ (p : Fin 4096) (q : Fin 128), j = ix2 p q := ⟨j 0, j 1, eq_ix2 j⟩
  have ht : t.val < 8 := t.isLt
  have hp : p.val < 4096 := p.isLt
  obtain ⟨-, -, -, -, -, -, -, -, -, -, -, -, e0, e1⟩ := index_facts t
  refine (update_payload _ _ _ _ _ _ p q).trans ?_
  show _ = target V c (((cfg1.win 6).blk t).view.emb (ix2 p q))
  refine Eq.symm ((updArrMul_apply _ _ _ _ _ _ _ ⟨t.val * 4096 + p.val, by omega⟩ q ?_ ?_).trans ?_)
  · show win1_6.index t (0 : Fin 2) * 4096 + 1 * p.val = t.val * 4096 + p.val; omega
  · show win1_6.index t (1 : Fin 2) * 128 + 1 * q.val = q.val; omega
  · refine Eq.symm ?_
    have hs : (fun k => iblk1 V c 0 t (ix2 p k)) = mat (V c main_v37) ⟨t.val * 4096 + p.val, by omega⟩ :=
      funext fun k => sums_row V c t p _ rfl k
    have hr : iblk1 V c 1 t (ix2 p 0) = V c main_v46 (ix2 (⟨t.val * 4096 + p.val, by omega⟩ : Fin 32768) 0) := recip_row V c t p _ rfl
    have h2 : (fun a b => iblk1 V c 2 t (ix2 a b)) = mat (V c main_arg12) := funext fun a => funext fun b => w2_blk V c t a b
    have h3 : (fun b => iblk1 V c 3 t (ix2 0 b)) = row1 (V c main_v47) := funext fun b => w3_blk V c t b
    have h4 : (fun a b => iblk1 V c 4 t (ix2 a b)) = mat (V c main_arg14) := funext fun a => funext fun b => w4_blk V c t a b
    have h5 : (fun b => iblk1 V c 5 t (ix2 0 b)) = row1 (V c main_v48) := funext fun b => w5_blk V c t b
    rw [hs, hr, h2, h3, h4, h5]

/-- An index of the result array is in point t's block iff each coordinate is in the block's range. -/
theorem mem_blk (t : Fin cfg1.N) (i : S32768x128.Idx) :
    i ∈ ((cfg1.win 6).blk t).view.set ↔ ∀ a : Fin 2, win1_6.index t a * S4096x128.size a ≤ (i a).val ∧ (i a).val < win1_6.index t a * S4096x128.size a + S4096x128.size a := by
  show i ∈ ((View.whole main_v49).slice (win1_6.rect t)).set ↔ _
  rw [View.set_slice_whole, Rect.mem_set_unit]
  exact Iff.rfl

/-- Row r lies in the block of point r / 4096: the 8 blocks tile the array. -/
theorem cover (i : S32768x128.Idx) : ∃ t : Fin cfg1.N, (cfg1.win 6).flush t = true ∧ i ∈ ((cfg1.win 6).blk t).view.set := by
  have hi0 : (i 0).val < 32768 := (i 0).isLt
  have hi1 : (i 1).val < 128 := (i 1).isLt
  let t : Fin cfg1.N := ⟨(i 0).val / 4096, by show (i 0).val / 4096 < 8; omega⟩
  have htv : t.val = (i 0).val / 4096 := rfl
  obtain ⟨-, -, -, -, -, -, -, -, -, -, -, -, e0, e1⟩ := index_facts t
  refine ⟨t, flush1_6 t, ?_⟩
  rw [mem_blk]
  intro a
  match a with
  | ⟨0, _⟩ => show win1_6.index t (0 : Fin 2) * 4096 ≤ (i 0).val ∧ (i 0).val < win1_6.index t (0 : Fin 2) * 4096 + 4096; omega
  | ⟨1, _⟩ => show win1_6.index t (1 : Fin 2) * 128 ≤ (i 1).val ∧ (i 1).val < win1_6.index t (1 : Fin 2) * 128 + 128; omega

/-- THE OUTPUT ARRAY after the region: the result array of the specification at the region's entry contents. -/
theorem final (c : Dev nD) : (dat1 V c).arrAt 6 cfg1.N = target V c :=
  (dat1 V c).arrAt_eq_of_cover 6 (target V c) (fun t _ => flushed_eq V c t) cover

end Cert.KernelIdeal.UpdateArray

end
-- ==== Proof.LayoutReads.lean ====
/-
  Four layout operations of the kernel's host side, read at an entry.

  A 128-vector reshaped to a 1×128 row has, at column j, entry j of the vector. The slice of a
  256×128 weight starting at row 0, or at row 128, has at (i, k) entry (i, k), or (128 + i, k), of the
  weight: its upper and lower 128 rows. A 32768-vector reshaped to a 32768×1 column has, at row g,
  entry g of the vector.
-/
import proofs.«138658_j66108136620503_2_alg».proof.Proof.Gen.KernelIdeal
import proofs.«138658_j66108136620503_2_alg».proof.Proof.ArraySpec
import Idealize.ShloMosaic.Lib.Pipeline.Value
import Idealize.ShloMosaic.Lib.ValueIdx

noncomputable section

namespace Cert.KernelIdeal.LayoutReads

open Cert.KernelIdeal Cert.KernelIdeal.Gen Idealize.ShloMosaic Idealize.ShloMosaic.ValueIdx Idealize.ShloMosaic.Pipeline Cert.RowSpec Cert.ArraySpec

/-- A bias reshaped to a row, read as a row, is the bias. -/
theorem row1_reshape (x : FVec Ideal S128 .f32) : row1 (shapeCast S1x128 x shapeCasts_S128_S1x128) = vec1 x :=
  funext fun j => shapeCast_apply x shapeCasts_S128_S1x128 (ix2 0 j) (ix1 j)
    (by rewrite [Shape.rowMajor_val_one, Shape.rowMajor_val_two]; show j.val = 0 * 128 + j.val; omega)

/-- The slice from row 0 is the upper 128 rows. -/
theorem mat_upper (x : FVec Ideal S256x128 .f32) :
    mat (extractStridedSlice S128x128 ![0, 0] x slices_S256x128_S128x128_0_0) = upperRows (mat x) :=
  funext fun i => funext fun k =>
    extractStridedSlice_apply ![0, 0] x slices_S256x128_S128x128_0_0 (ix2 i k) (ix2 ⟨i.val, by have := i.isLt; omega⟩ k) (fun a => match a with
      | ⟨0, _⟩ => by show i.val = 0 + i.val; omega
      | ⟨1, _⟩ => by show k.val = 0 + k.val; omega)

/-- The slice from row 128 is the lower 128 rows. -/
theorem mat_lower (x : FVec Ideal S256x128 .f32) :
    mat (extractStridedSlice S128x128 ![128, 0] x slices_S256x128_S128x128_128_0) = lowerRows (mat x) :=
  funext fun i => funext fun k =>
    extractStridedSlice_apply ![128, 0] x slices_S256x128_S128x128_128_0 (ix2 i k) (ix2 ⟨128 + i.val, by have := i.isLt; omega⟩ k) (fun a => match a with
      | ⟨0, _⟩ => by show 128 + i.val = 128 + i.val; rfl
      | ⟨1, _⟩ => by show k.val = 0 + k.val; omega)

/-- A vector reshaped to a column, read at row g, is entry g of the vector. -/
theorem col_reshape (y : FVec Ideal S32768 .f32) (g : Fin 32768) :
    shapeCast S32768x1 y shapeCasts_S32768_S32768x1 (ix2 g 0) = y (ix1 g) :=
  shapeCast_apply y shapeCasts_S32768_S32768x1 (ix2 g 0) (ix1 g)
    (by rewrite [Shape.rowMajor_val_one, Shape.rowMajor_val_two]; show g.val = g.val * 1 + 0; omega)

/-- A scalar broadcast over the cells, read at a cell, is the scalar. -/
theorem splat_at (y : FVec Ideal S_ .f32) (g : S32768.Idx) : broadcastInDim S32768 ![] bcast_S_S32768 y g = y ix0 :=
  broadcastInDim_apply _ bcast_S_S32768 y g ix0 (fun a => a.elim0)

end Cert.KernelIdeal.LayoutReads

end
-- ==== Proof.RefRows.lean ====
/-
  The reference program, read one row at a time.

  The reference is a message-passing layer of a graph network. After its gathers it acts on each edge's
  row alone: six position attributes go through an affine layer, x * logistic x, and a second affine layer
  (the position code); the code is written beside the 128 gathered embedding entries, and the 256 entries go
  through two more affine layers with x * logistic x between them (the message). After its sums it acts on
  each cell's row alone: the summed messages are divided by the number of arriving edges and go through a
  last pair of affine layers.

  This file proves those two statements against the row functions of Cert.RowSpec. The gathered attributes,
  the gathered embeddings, the summed messages and the counts stay as they are: nothing here looks inside
  a gather or a sum over edges.
-/
import proofs.«138658_j66108136620503_2_alg».proof.Proof.ReadP
import proofs.«138658_j66108136620503_2_alg».proof.Proof.RowSpec
import Idealize.ShloMosaic.Lib.ValueIdx
import Idealize.ShloMosaic.Lib.Pipeline.Value
import Idealize.ShloMosaic.Lib.IdealHost
import Idealize.ShloMosaic.PureOps.Ideal.Laws

noncomputable section

namespace Cert.RefRows

open Cert.ReferenceIdeal Cert.ReferenceIdeal.Gen Cert.ReferenceIdeal.ReadP Idealize.ShloMosaic Idealize.ShloMosaic.ValueIdx Cert.RowSpec

variable (x0 : (⟨S65536x128, .f32⟩ : BufTy).Contents (Elt Ideal)) (x1 : (⟨S65536x3, .f32⟩ : BufTy).Contents (Elt Ideal))
  (x2 : (⟨S32768x3, .f32⟩ : BufTy).Contents (Elt Ideal)) (x3 : (⟨S2x524288, .i32⟩ : BufTy).Contents (Elt Ideal))
  (x4 : (⟨S6x128, .f32⟩ : BufTy).Contents (Elt Ideal)) (x5 : (⟨S128, .f32⟩ : BufTy).Contents (Elt Ideal))
  (x6 : (⟨S128x128, .f32⟩ : BufTy).Contents (Elt Ideal)) (x7 : (⟨S128, .f32⟩ : BufTy).Contents (Elt Ideal))
  (x8 : (⟨S256x128, .f32⟩ : BufTy).Contents (Elt Ideal)) (x9 : (⟨S128, .f32⟩ : BufTy).Contents (Elt Ideal))
  (x10 : (⟨S128x128, .f32⟩ : BufTy).Contents (Elt Ideal)) (x11 : (⟨S128, .f32⟩ : BufTy).Contents (Elt Ideal))
  (x12 : (⟨S128x128, .f32⟩ : BufTy).Contents (Elt Ideal)) (x13 : (⟨S128, .f32⟩ : BufTy).Contents (Elt Ideal))
  (x14 : (⟨S128x128, .f32⟩ : BufTy).Contents (Elt Ideal)) (x15 : (⟨S128, .f32⟩ : BufTy).Contents (Elt Ideal))

/-! ## Indices

A contraction's entry (e, j) reads its left operand along row e and its right operand down column j;
a bias, broadcast from [128] through [1, 128] to every row, is read at j. -/

/-- The first position layer contracts over the six attributes. -/
theorem lidx19 (e : Fin 524288) (j : Fin 128) (k : Fin 6) : lidx_main_v19 (ix2 e j) k = ix2 e k :=
  funext fun a => Fin.ext (by match a with | ⟨0, _⟩ => rfl | ⟨1, _⟩ => rfl)
theorem ridx19 (e : Fin 524288) (j : Fin 128) (k : Fin 6) : ridx_main_v19 (ix2 e j) k = ix2 k j :=
  funext fun a => Fin.ext (by match a with | ⟨0, _⟩ => rfl | ⟨1, _⟩ => rfl)
theorem bidx21 (e : Fin 524288) (j : Fin 128) : idx_main_v20 (idx_main_v21 (ix2 e j)) = ix1 j :=
  funext fun a => Fin.ext (by match a with | ⟨0, _⟩ => rfl)
/-- The second position layer contracts over 128 entries. -/
theorem lidx24 (e : Fin 524288) (j : Fin 128) (k : Fin 128) : lidx_main_v24 (ix2 e j) k = ix2 e k :=
  funext fun a => Fin.ext (by match a with | ⟨0, _⟩ => rfl | ⟨1, _⟩ => rfl)
theorem ridx24 (e : Fin 524288) (j : Fin 128) (k : Fin 128) : ridx_main_v24 (ix2 e j) k = ix2 k j :=
  funext fun a => Fin.ext (by match a with | ⟨0, _⟩ => rfl | ⟨1, _⟩ => rfl)
theorem bidx26 (e : Fin 524288) (j : Fin 128) : idx_main_v25 (idx_main_v26 (ix2 e j)) = ix1 j :=
  funext fun a => Fin.ext (by match a with | ⟨0, _⟩ => rfl)
/-- The first message layer contracts over the 256 side-by-side entries. -/
theorem lidx36 (e : Fin 524288) (j : Fin 128) (k : Fin 256) : lidx_main_v36 (ix2 e j) k = ix2 e k :=
  funext fun a => Fin.ext (by match a with | ⟨0, _⟩ => rfl | ⟨1, _⟩ => rfl)
theorem ridx36 (e : Fin 524288) (j : Fin 128) (k : Fin 256) : ridx_main_v36 (ix2 e j) k = ix2 k j :=
  funext fun a => Fin.ext (by match a with | ⟨0, _⟩ => rfl | ⟨1, _⟩ => rfl)
theorem bidx38 (e : Fin 524288) (j : Fin 128) : idx_main_v37 (idx_main_v38 (ix2 e j)) = ix1 j :=
  funext fun a => Fin.ext (by match a with | ⟨0, _⟩ => rfl)
/-- The second message layer contracts over 128 entries. -/
theorem lidx41 (e : Fin 524288) (j : Fin 128) (k : Fin 128) : lidx_main_v41 (ix2 e j) k = ix2 e k :=
  funext fun a => Fin.ext (by match a with | ⟨0, _⟩ => rfl | ⟨1, _⟩ => rfl)
theorem ridx41 (e : Fin 524288) (j : Fin 128) (k : Fin 128) : ridx_main_v41 (ix2 e j) k = ix2 k j :=
  funext fun a => Fin.ext (by match a with | ⟨0, _⟩ => rfl | ⟨1, _⟩ => rfl)
theorem bidx43 (e : Fin 524288) (j : Fin 128) : idx_main_v42 (idx_main_v43 (ix2 e j)) = ix1 j :=
  funext fun a => Fin.ext (by match a with | ⟨0, _⟩ => rfl)

/-! ## The position code

Entry (e, j) of the first affine layer is the contraction of edge e's six attributes with column j of
the weight, plus the bias at j. -/

theorem dense_v22 (e : Fin 524288) (j : Fin 128) :
    val_main_v22 (F := Ideal) x1 x2 x3 x4 x5 (ix2 e j)
      = dense (fun k => val_main_v18 (F := Ideal) x1 x2 x3 (ix2 e k)) (fun a b => x4 (ix2 a b)) (fun a => x5 (ix1 a)) j := by
  rw [val_main_v22_apply, val_main_v19_apply, val_main_v21_apply, val_main_v20_apply]
  simp only [lidx19, ridx19, bidx21, Ideal.addf_def]
  rfl

/-- The called function is x * (1 / (1 + exp (-x))), with 1 written as its bit pattern: x * logistic x. -/
theorem silu_v23 (i : S524288x128.Idx) :
    val_main_v23 (F := Ideal) x1 x2 x3 x4 x5 i = silu (val_main_v22 (F := Ideal) x1 x2 x3 x4 x5 i) := by
  rw [val_main_v23_apply, val_main_call0_v5_apply, val_main_call0_v4_apply, val_main_call0_cst_0_apply,
    val_main_call0_v3_apply, val_main_call0_v2_apply, val_main_call0_cst_apply, val_main_call0_v1_apply,
    val_main_call0_v0_apply]
  simp only [Ideal.hostNegf_def, Ideal.negf_def, Ideal.hostUnary_exp_def, Ideal.hostDivf_def, Ideal.addf_def, Ideal.mulf_def, Ideal.ofBits_def, Ideal.ofBits_one_f32]
  rfl

/-- Entry (e, j) after the second affine layer is the position code of edge e's attributes at j. -/
theorem pos_v27 (e : Fin 524288) (j : Fin 128) :
    val_main_v27 (F := Ideal) x1 x2 x3 x4 x5 x6 x7 (ix2 e j)
      = posCode (fun k => val_main_v18 (F := Ideal) x1 x2 x3 (ix2 e k)) (fun a b => x4 (ix2 a b)) (fun a => x5 (ix1 a))
          (fun a b => x6 (ix2 a b)) (fun a => x7 (ix1 a)) j := by
  rw [val_main_v27_apply, val_main_v24_apply, val_main_v26_apply, val_main_v25_apply]
  simp only [lidx24, ridx24, bidx26, Ideal.addf_def, silu_v23, dense_v22]
  rfl

/-! ## Embedding and position code side by side

Row e of the concatenation has the gathered embedding in its first 128 entries and the position code in
its last 128. -/

theorem cat_v35 (e : Fin 524288) (k : Fin 256) :
    val_main_v35 (F := Ideal) x0 x1 x2 x3 x4 x5 x6 x7 (ix2 e k)
      = sideBySide (fun i => val_main_v34 (F := Ideal) x0 x3 (ix2 e i))
          (fun i => val_main_v27 (F := Ideal) x1 x2 x3 x4 x5 x6 x7 (ix2 e i)) k := by
  unfold val_main_v35 sideBySide
  by_cases h : k.val < 128
  · rw [dif_pos h]
    exact concatenate_pair_apply_left (t := S524288x256) (s₁ := S524288x128) (s₂ := S524288x128) _ _ _ _ (ix2 e k) rfl
      (ix2 e (⟨k.val, h⟩ : Fin 128)) (fun b => by match b with | ⟨0, _⟩ => rfl | ⟨1, _⟩ => rfl)
  · rw [dif_neg h]
    exact concatenate_pair_apply_right (t := S524288x256) (s₁ := S524288x128) (s₂ := S524288x128) _ _ _ _ (ix2 e k) rfl rfl
      (ix2 e (⟨k.val - 128, by have := k.isLt; omega⟩ : Fin 128))
      (fun b hb => by match b with | ⟨0, _⟩ => rfl | ⟨1, _⟩ => exact absurd rfl hb)
      (by show (k.val - 128) + 128 = k.val; omega)

/-! ## The message -/

/-- Entry (e, j) of the first message layer contracts the 256 side-by-side entries of row e. -/
theorem dense_v39 (e : Fin 524288) (j : Fin 128) :
    val_main_v39 (F := Ideal) x0 x1 x2 x3 x4 x5 x6 x7 x8 x9 (ix2 e j)
      = dense (sideBySide (fun i => val_main_v34 (F := Ideal) x0 x3 (ix2 e i))
            (posCode (fun k => val_main_v18 (F := Ideal) x1 x2 x3 (ix2 e k)) (fun a b => x4 (ix2 a b)) (fun a => x5 (ix1 a))
              (fun a b => x6 (ix2 a b)) (fun a => x7 (ix1 a))))
          (fun a b => x8 (ix2 a b)) (fun a => x9 (ix1 a)) j := by
  rw [val_main_v39_apply, val_main_v36_apply, val_main_v38_apply, val_main_v37_apply]
  simp only [lidx36, ridx36, bidx38, Ideal.addf_def, cat_v35, pos_v27]
  rfl

theorem silu_v40 (i : S524288x128.Idx) :
    val_main_v40 (F := Ideal) x0 x1 x2 x3 x4 x5 x6 x7 x8 x9 i = silu (val_main_v39 (F := Ideal) x0 x1 x2 x3 x4 x5 x6 x7 x8 x9 i) := by
  rw [val_main_v40_apply, val_main_call1_v5_apply, val_main_call1_v4_apply, val_main_call1_cst_0_apply,
    val_main_call1_v3_apply, val_main_call1_v2_apply, val_main_call1_cst_apply, val_main_call1_v1_apply,
    val_main_call1_v0_apply]
  simp only [Ideal.hostNegf_def, Ideal.negf_def, Ideal.hostUnary_exp_def, Ideal.hostDivf_def, Ideal.addf_def, Ideal.mulf_def, Ideal.ofBits_def, Ideal.ofBits_one_f32]
  rfl

/-- THE MESSAGE: entry (e, j) of the value that is summed over edges is the message of edge e's gathered
    attributes and gathered embedding, at j. -/
theorem ref_message (e : Fin 524288) (j : Fin 128) :
    val_main_v44 (F := Ideal) x0 x1 x2 x3 x4 x5 x6 x7 x8 x9 x10 x11 (ix2 e j)
      = msgCat (fun k => val_main_v18 (F := Ideal) x1 x2 x3 (ix2 e k)) (fun k => val_main_v34 (F := Ideal) x0 x3 (ix2 e k))
          (fun a b => x4 (ix2 a b)) (fun a => x5 (ix1 a)) (fun a b => x6 (ix2 a b)) (fun a => x7 (ix1 a))
          (fun a b => x8 (ix2 a b)) (fun a => x9 (ix1 a)) (fun a b => x10 (ix2 a b)) (fun a => x11 (ix1 a)) j := by
  rw [val_main_v44_apply, val_main_v41_apply, val_main_v43_apply, val_main_v42_apply]
  simp only [lidx41, ridx41, bidx43, Ideal.addf_def, silu_v40, dense_v39]
  rfl

/-! ## The cell update

The counts, one per cell, are broadcast from [32768] through [32768, 1] along each row, so the entry
(g, k) of the broadcast is the count of cell g. -/

theorem cidx53 (g : Fin 32768) (k : Fin 128) : idx_main_v52 (idx_main_v53 (ix2 g k)) = ix1 g :=
  funext fun a => Fin.ext (by match a with | ⟨0, _⟩ => rfl)

/-- The first update layer contracts over 128 entries. -/
theorem lidx55 (g : Fin 32768) (j : Fin 128) (k : Fin 128) : lidx_main_v55 (ix2 g j) k = ix2 g k :=
  funext fun a => Fin.ext (by match a with | ⟨0, _⟩ => rfl | ⟨1, _⟩ => rfl)
theorem ridx55 (g : Fin 32768) (j : Fin 128) (k : Fin 128) : ridx_main_v55 (ix2 g j) k = ix2 k j :=
  funext fun a => Fin.ext (by match a with | ⟨0, _⟩ => rfl | ⟨1, _⟩ => rfl)
theorem bidx57 (g : Fin 32768) (j : Fin 128) : idx_main_v56 (idx_main_v57 (ix2 g j)) = ix1 j :=
  funext fun a => Fin.ext (by match a with | ⟨0, _⟩ => rfl)
/-- The second update layer contracts over 128 entries. -/
theorem lidx60 (g : Fin 32768) (j : Fin 128) (k : Fin 128) : lidx_main_v60 (ix2 g j) k = ix2 g k :=
  funext fun a => Fin.ext (by match a with | ⟨0, _⟩ => rfl | ⟨1, _⟩ => rfl)
theorem ridx60 (g : Fin 32768) (j : Fin 128) (k : Fin 128) : ridx_main_v60 (ix2 g j) k = ix2 k j :=
  funext fun a => Fin.ext (by match a with | ⟨0, _⟩ => rfl | ⟨1, _⟩ => rfl)
theorem bidx62 (g : Fin 32768) (j : Fin 128) : idx_main_v61 (idx_main_v62 (ix2 g j)) = ix1 j :=
  funext fun a => Fin.ext (by match a with | ⟨0, _⟩ => rfl)

/-- Entry (g, k) of the mean is the summed message at (g, k) divided by the count of cell g. -/
theorem div_v54 (g : Fin 32768) (k : Fin 128) :
    val_main_v54 (F := Ideal) x0 x1 x2 x3 x4 x5 x6 x7 x8 x9 x10 x11 (ix2 g k)
      = Ideal.div (val_main_v47 (F := Ideal) x0 x1 x2 x3 x4 x5 x6 x7 x8 x9 x10 x11 (ix2 g k)) (val_main_v51 (F := Ideal) x3 (ix1 g)) := by
  rw [val_main_v54_apply, val_main_v53_apply, val_main_v52_apply]
  simp only [cidx53, Ideal.hostDivf_def]

/-- Entry (g, j) of the first update layer contracts the means of cell g's row. -/
theorem dense_v58 (g : Fin 32768) (j : Fin 128) :
    val_main_v58 (F := Ideal) x0 x1 x2 x3 x4 x5 x6 x7 x8 x9 x10 x11 x12 x13 (ix2 g j)
      = dense (fun i => Ideal.div (val_main_v47 (F := Ideal) x0 x1 x2 x3 x4 x5 x6 x7 x8 x9 x10 x11 (ix2 g i)) (val_main_v51 (F := Ideal) x3 (ix1 g)))
          (fun a b => x12 (ix2 a b)) (fun a => x13 (ix1 a)) j := by
  rw [val_main_v58_apply, val_main_v55_apply, val_main_v57_apply, val_main_v56_apply]
  simp only [lidx55, ridx55, bidx57, Ideal.addf_def, div_v54]
  rfl

theorem silu_v59 (i : S32768x128.Idx) :
    val_main_v59 (F := Ideal) x0 x1 x2 x3 x4 x5 x6 x7 x8 x9 x10 x11 x12 x13 i = silu (val_main_v58 (F := Ideal) x0 x1 x2 x3 x4 x5 x6 x7 x8 x9 x10 x11 x12 x13 i) := by
  rw [val_main_v59_apply, val_main_call2_v5_apply, val_main_call2_v4_apply, val_main_call2_cst_0_apply,
    val_main_call2_v3_apply, val_main_call2_v2_apply, val_main_call2_cst_apply, val_main_call2_v1_apply,
    val_main_call2_v0_apply]
  simp only [Ideal.hostNegf_def, Ideal.negf_def, Ideal.hostUnary_exp_def, Ideal.hostDivf_def, Ideal.addf_def, Ideal.mulf_def, Ideal.ofBits_def, Ideal.ofBits_one_f32]
  rfl

/-- THE UPDATE: entry (g, j) of the result is the update of cell g's summed messages and count, at j. -/
theorem ref_update (g : Fin 32768) (j : Fin 128) :
    val_main_v63 (F := Ideal) x0 x1 x2 x3 x4 x5 x6 x7 x8 x9 x10 x11 x12 x13 x14 x15 (ix2 g j)
      = updDiv (fun k => val_main_v47 (F := Ideal) x0 x1 x2 x3 x4 x5 x6 x7 x8 x9 x10 x11 (ix2 g k)) (val_main_v51 (F := Ideal) x3 (ix1 g))
          (fun a b => x12 (ix2 a b)) (fun a => x13 (ix1 a)) (fun a b => x14 (ix2 a b)) (fun a => x15 (ix1 a)) j := by
  rw [val_main_v63_apply, val_main_v60_apply, val_main_v62_apply, val_main_v61_apply]
  simp only [lidx60, ridx60, bidx62, Ideal.addf_def, silu_v59, dense_v58]
  rfl

end Cert.RefRows

end
-- ==== Proof.Bridge.lean ====
/-
  The idealized kernel's result is the reference's result.

  Both are read as functions of the sixteen argument arrays. The message region leaves the message
  array of the specification over the gathered attributes and embeddings, which are the reference's own
  arrays; the reference's message, the first message layer applied to 256 entries at once, is the same
  row function by the first law. Sums and counts are then the same scatter-adds of the same arrays.
  The update region leaves, at cell g, the update of the sums times 1 / max(count g, 1); the reference
  divides by count g; under the precondition 1 ≤ count g and the second law makes them equal.
-/
import proofs.«138658_j66108136620503_2_alg».proof.Proof.HostGlue
import proofs.«138658_j66108136620503_2_alg».proof.Proof.MessageArray
import proofs.«138658_j66108136620503_2_alg».proof.Proof.UpdateArray
import proofs.«138658_j66108136620503_2_alg».proof.Proof.LayoutReads
import proofs.«138658_j66108136620503_2_alg».proof.Proof.RefRows

set_option maxRecDepth 16384

noncomputable section

namespace Cert.Bridge

open Cert.KernelIdeal Cert.KernelIdeal.Gen Cert.KernelIdeal.HostGlue Cert.KernelIdeal.LayoutReads
open Cert.RowSpec Cert.ArraySpec Cert.RefRows
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- The reference's message array over the kernel's launch arrays. -/
abbrev refMessage : S524288x128.Idx → EReal :=
  Cert.ReferenceIdeal.ReadP.val_main_v44 (F := Ideal) (arg m c main_arg0) (arg m c main_arg1) (arg m c main_arg2) (arg m c main_arg3)
    (arg m c main_arg4) (arg m c main_arg5) (arg m c main_arg6) (arg m c main_arg7) (arg m c main_arg8) (arg m c main_arg9)
    (arg m c main_arg10) (arg m c main_arg11)

/-- The reference's per-cell counts over the kernel's launch arrays. -/
abbrev refCounts : S32768.Idx → EReal := Cert.ReferenceIdeal.ReadP.val_main_v51 (F := Ideal) (arg m c main_arg3)

/-- The reference's result over the kernel's launch arrays. -/
abbrev refResult : S32768x128.Idx → EReal :=
  Cert.ReferenceIdeal.ReadP.val_main_v63 (F := Ideal) (arg m c main_arg0) (arg m c main_arg1) (arg m c main_arg2) (arg m c main_arg3)
    (arg m c main_arg4) (arg m c main_arg5) (arg m c main_arg6) (arg m c main_arg7) (arg m c main_arg8) (arg m c main_arg9)
    (arg m c main_arg10) (arg m c main_arg11) (arg m c main_arg12) (arg m c main_arg13) (arg m c main_arg14) (arg m c main_arg15)

/-- THE MESSAGE REGION'S OUTPUT is the reference's message array. -/
theorem message_eq : W2 m ρ c (Proc.devRef .tc main_v33) = refMessage m c := by
  have hW : W2 m ρ c (Proc.devRef .tc main_v33) = (dat0 (V1 m ρ) c).arrAt 11 cfg0.N := W2_arr m ρ c 11
  rw [hW, MessageArray.final (V1 m ρ) c]
  have e26 : V1 m ρ c main_v26 = _ := attr m ρ c
  have e25 : V1 m ρ c main_v25 = _ := emb m ρ c
  have e4 : V1 m ρ c main_arg4 = _ := ew1 m ρ c
  have e27 : V1 m ρ c main_v27 = _ := eb1 m ρ c
  have e6 : V1 m ρ c main_arg6 = _ := ew2 m ρ c
  have e28 : V1 m ρ c main_v28 = _ := eb2 m ρ c
  have e31 : V1 m ρ c main_v31 = _ := mwUpper m ρ c
  have e32 : V1 m ρ c main_v32 = _ := mwLower m ρ c
  have e29 : V1 m ρ c main_v29 = _ := mb1 m ρ c
  have e10 : V1 m ρ c main_arg10 = _ := mw2 m ρ c
  have e30 : V1 m ρ c main_v30 = _ := mb2 m ρ c
  show msgArr (V1 m ρ c main_v26) (V1 m ρ c main_v25) (V1 m ρ c main_arg4) (V1 m ρ c main_v27) (V1 m ρ c main_arg6) (V1 m ρ c main_v28)
    (V1 m ρ c main_v31) (V1 m ρ c main_v32) (V1 m ρ c main_v29) (V1 m ρ c main_arg10) (V1 m ρ c main_v30) = _
  rw [e26, e25, e4, e27, e6, e28, e31, e32, e29, e10, e30]
  funext i
  obtain ⟨e, j, rfl⟩ : ∃ (e : Fin 524288) (j : Fin 128), i = ix2 e j := ⟨i 0, i 1, eq_ix2 i⟩
  refine (msgArr_apply _ _ _ _ _ _ _ _ _ _ _ (ix2 e j) e j rfl rfl).trans ?_
  rw [row1_reshape (arg m c main_arg5), row1_reshape (arg m c main_arg7), row1_reshape (arg m c main_arg9), row1_reshape (arg m c main_arg11),
    mat_upper (arg m c main_arg8), mat_lower (arg m c main_arg8)]
  refine Eq.symm ((ref_message _ _ _ _ _ _ _ _ _ _ _ _ e j).trans ?_)
  rw [msgCat_eq_msgSplit]

/-- The destination indices at the update region's entry are the reference's. -/
theorem dst_eq : W2 m ρ c (Proc.devRef .tc main_v3) = Cert.ReferenceIdeal.ReadP.val_main_v3 (F := Ideal) (arg m c main_arg3) :=
  (W2_of_ne m ρ c main_v3 (by decide)).trans (dst m ρ c)

/-- Widening the float format is the identity on extended reals. -/
theorem widen_id {s : Shape} (x : FVec Ideal s .bf16) (h : FTy.bits .bf16 < FTy.bits .f32) :
    (extf .f32 x h : FVec Ideal s .f32) = x := rfl

/-- The per-cell sums are the reference's. -/
theorem sums_eq : V3 m ρ c main_v37
    = Cert.ReferenceIdeal.ReadP.val_main_v47 (F := Ideal) (arg m c main_arg0) (arg m c main_arg1) (arg m c main_arg2) (arg m c main_arg3)
        (arg m c main_arg4) (arg m c main_arg5) (arg m c main_arg6) (arg m c main_arg7) (arg m c main_arg8) (arg m c main_arg9)
        (arg m c main_arg10) (arg m c main_arg11) := by
  refine (sums m ρ c).trans ?_
  rw [dst_eq m ρ c, message_eq m ρ c, widen_id]
  unfold Cert.ReferenceIdeal.ReadP.val_main_v47
  have hd : (scatter_S32768x128_S524288x1_S524288x128_1_0_0_1 : ScatterDims S32768x128 S524288x1 S524288x128)
      = Cert.ReferenceIdeal.scatter_S32768x128_S524288x1_S524288x128_1_0_0_1 := rfl
  have hz : (broadcastInDim S32768x128 ![] bcast_S_S32768x128 (constant (F := Ideal) S_ .f32 0x00000000#32) : FVec Ideal S32768x128 .f32)
      = Cert.ReferenceIdeal.ReadP.val_main_v45 (F := Ideal) := rfl
  have hi : (broadcastInDim S524288x1 ![0] bcast_S524288_S524288x1_0
        (Cert.ReferenceIdeal.ReadP.val_main_v3 (F := Ideal) (arg m c main_arg3)) : IVec S524288x1 32)
      = Cert.ReferenceIdeal.ReadP.val_main_v46 (F := Ideal) (arg m c main_arg3) := rfl
  exact congr (congr (congr (congrArg (fun d => Host.scatterAdd (F := Ideal) d) hd) hz) hi) rfl

/-- A host quotient read at an entry. -/
theorem hostDivf_at {s : Shape} (a b : FVec Ideal s .f32) (i : s.Idx) : Host.divf a b i = Ideal.div (a i) (b i) := rfl

/-- The kernel's host-side counts over the reference's destination indices are the reference's counts. -/
theorem counts_eq : countsOf (Cert.ReferenceIdeal.ReadP.val_main_v3 (F := Ideal) (arg m c main_arg3)) = refCounts m c := by
  unfold refCounts Cert.ReferenceIdeal.ReadP.val_main_v51
  rfl

/-- The column of reciprocal counts over the reference's counts. -/
theorem recip_eq (g : Fin 32768) : V3 m ρ c main_v46 (ix2 g 0) = Ideal.div 1 (max (refCounts m c (ix1 g)) 1) := by
  have h := recip m ρ c
  rw [dst_eq m ρ c, counts_eq m c] at h
  refine (congrFun h (ix2 g 0)).trans ?_
  rw [col_reshape, hostDivf_at, ValueIdx.maximumf_apply, splat_at, ValueIdx.constant_apply, Ideal.ofBits_one_f32]

theorem uw1_eq : V3 m ρ c main_arg12 = arg m c main_arg12 :=
  (uw1 m ρ c).trans ((W2_of_ne m ρ c main_arg12 (by decide)).trans (w1_arg12 m ρ c))
theorem uw2_eq : V3 m ρ c main_arg14 = arg m c main_arg14 :=
  (uw2 m ρ c).trans ((W2_of_ne m ρ c main_arg14 (by decide)).trans (w1_arg14 m ρ c))
theorem ub1_eq : V3 m ρ c main_v47 = shapeCast S1x128 (arg m c main_arg13) shapeCasts_S128_S1x128 := by
  refine (ub1 m ρ c).trans ?_
  rw [(W2_of_ne m ρ c main_arg13 (by decide)).trans (w1_arg13 m ρ c)]
theorem ub2_eq : V3 m ρ c main_v48 = shapeCast S1x128 (arg m c main_arg15) shapeCasts_S128_S1x128 := by
  refine (ub2 m ρ c).trans ?_
  rw [(W2_of_ne m ρ c main_arg15 (by decide)).trans (w1_arg15 m ρ c)]

/-- THE RESULT: where every cell receives an edge, the kernel's result buffer is the reference's result. -/
theorem result_eq (hc : ∀ g : S32768.Idx, 1 ≤ refCounts m c g) :
    W4 m ρ c (Proc.devRef .tc main_v49) = refResult m c := by
  have hW : W4 m ρ c (Proc.devRef .tc main_v49) = (dat1 (V3 m ρ) c).arrAt 6 cfg1.N := W4_arr m ρ c 6
  rw [hW, UpdateArray.final (V3 m ρ) c]
  funext i
  obtain ⟨g, j, rfl⟩ : ∃ (g : Fin 32768) (j : Fin 128), i = ix2 g j := ⟨i 0, i 1, eq_ix2 i⟩
  refine (updArrMul_apply _ _ _ _ _ _ (ix2 g j) g j rfl rfl).trans ?_
  rw [recip_eq m ρ c g, sums_eq m ρ c, uw1_eq m ρ c, uw2_eq m ρ c, ub1_eq m ρ c, ub2_eq m ρ c, row1_reshape (arg m c main_arg13), row1_reshape (arg m c main_arg15)]
  refine Eq.symm ((ref_update _ _ _ _ _ _ _ _ _ _ _ _ _ _ _ _ g j).trans ?_)
  exact (congrFun (updMul_eq_updDiv _ _ (hc (ix1 g)) _ _ _ _) j).symm

end Cert.Bridge

end
-- ==== Proof.RefRun.lean ====
/-
  The reference program's run, with its result evaluated in stages.

  The reference is a straight line of 97 operations. Every execution ends with each buffer at the fold of
  the operations' results over the launch contents. This file computes that fold at the result buffer and
  at the sixteen arguments.

  An argument is written by no operation, so it ends as launched. The result is computed in four stages,
  each a consecutive piece of the line, each over an ARBITRARY incoming valuation of which only a few
  buffers are known: the gathers and the position code (through the gathered embeddings); the message
  (concatenation through the second message layer); the two sums over edges (summed messages and counts);
  the cell update (broadcast of the counts through the last layer). A line run in two pieces is the second
  piece run on what the first leaves, so the four stage values compose to the value of the whole line, and
  that value is the reference's value function of the sixteen arguments.
-/
import proofs.«138658_j66108136620503_2_alg».proof.Proof.Gen.ReferenceIdeal
import Idealize.ShloMosaic.Lib.StableHlo.Run
import proofs.«138658_j66108136620503_2_alg».proof.Proof.ReadP

noncomputable section

namespace Cert.ReferenceIdeal.RunP

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- @main's 97 operations, in order (a called function's operations stand in its call's place, spelt `TRef.…`). -/
abbrev ops : List (HloOp τ sig (Elt F)) :=
  [ unary main_arg3 main_v0 ((extractStridedSlice S1x524288 ![0, 0] · slices_S2x524288_S1x524288_0_0) : (⟨S2x524288, .i32⟩ : BufTy).Contents (Elt F) → (⟨S1x524288, .i32⟩ : BufTy).Contents (Elt F)),
    reshape main_v0 main_v1 rfl shapeCasts_S1x524288_S524288,
    unary main_arg3 main_v2 ((extractStridedSlice S1x524288 ![1, 0] · slices_S2x524288_S1x524288_1_0) : (⟨S2x524288, .i32⟩ : BufTy).Contents (Elt F) → (⟨S1x524288, .i32⟩ : BufTy).Contents (Elt F)),
    reshape main_v2 main_v3 rfl shapeCasts_S1x524288_S524288,
    nullary main_c (constantI S_ 32 0#32),
    unary main_c main_v4 (broadcastInDim S524288 ![] bcast_S_S524288 : (⟨S_, .i32⟩ : BufTy).Contents (Elt F) → (⟨S524288, .i32⟩ : BufTy).Contents (Elt F)),
    binary main_v1 main_v4 main_v5 (cmpi .slt : (⟨S524288, .i32⟩ : BufTy).Contents (Elt F) → (⟨S524288, .i32⟩ : BufTy).Contents (Elt F) → (⟨S524288, .i1⟩ : BufTy).Contents (Elt F)),
    nullary main_c_0 (constantI S_ 32 65536#32),
    unary main_c_0 main_v6 (broadcastInDim S524288 ![] bcast_S_S524288 : (⟨S_, .i32⟩ : BufTy).Contents (Elt F) → (⟨S524288, .i32⟩ : BufTy).Contents (Elt F)),
    binary main_v1 main_v6 main_v7 (addi : (⟨S524288, .i32⟩ : BufTy).Contents (Elt F) → (⟨S524288, .i32⟩ : BufTy).Contents (Elt F) → (⟨S524288, .i32⟩ : BufTy).Contents (Elt F)),
    ternary main_v5 main_v7 main_v1 main_v8 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    unary main_v8 main_v9 (broadcastInDim S524288x1 ![0] bcast_S524288_S524288x1_0 : (⟨S524288, .i32⟩ : BufTy).Contents (Elt F) → (⟨S524288x1, .i32⟩ : BufTy).Contents (Elt F)),
    binary main_arg1 main_v9 main_v10 ((fun x i => Host.gather gather_S65536x3_S524288x1_S524288x3_1_0_n_n_0_1_13 x i) : (⟨S65536x3, .f32⟩ : BufTy).Contents (Elt F) → (⟨S524288x1, .i32⟩ : BufTy).Contents (Elt F) → (⟨S524288x3, .f32⟩ : BufTy).Contents (Elt F)),
    nullary main_c_1 (constantI S_ 32 0#32),
    unary main_c_1 main_v11 (broadcastInDim S524288 ![] bcast_S_S524288 : (⟨S_, .i32⟩ : BufTy).Contents (Elt F) → (⟨S524288, .i32⟩ : BufTy).Contents (Elt F)),
    binary main_v3 main_v11 main_v12 (cmpi .slt : (⟨S524288, .i32⟩ : BufTy).Contents (Elt F) → (⟨S524288, .i32⟩ : BufTy).Contents (Elt F) → (⟨S524288, .i1⟩ : BufTy).Contents (Elt F)),
    nullary main_c_2 (constantI S_ 32 32768#32),
    unary main_c_2 main_v13 (broadcastInDim S524288 ![] bcast_S_S524288 : (⟨S_, .i32⟩ : BufTy).Contents (Elt F) → (⟨S524288, .i32⟩ : BufTy).Contents (Elt F)),
    binary main_v3 main_v13 main_v14 (addi : (⟨S524288, .i32⟩ : BufTy).Contents (Elt F) → (⟨S524288, .i32⟩ : BufTy).Contents (Elt F) → (⟨S524288, .i32⟩ : BufTy).Contents (Elt F)),
    ternary main_v12 main_v14 main_v3 main_v15 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    unary main_v15 main_v16 (broadcastInDim S524288x1 ![0] bcast_S524288_S524288x1_0 : (⟨S524288, .i32⟩ : BufTy).Contents (Elt F) → (⟨S524288x1, .i32⟩ : BufTy).Contents (Elt F)),
    binary main_arg2 main_v16 main_v17 ((fun x i => Host.gather gather_S32768x3_S524288x1_S524288x3_1_0_n_n_0_1_13 x i) : (⟨S32768x3, .f32⟩ : BufTy).Contents (Elt F) → (⟨S524288x1, .i32⟩ : BufTy).Contents (Elt F) → (⟨S524288x3, .f32⟩ : BufTy).Contents (Elt F)),
    binary main_v10 main_v17 main_v18 ((fun a b => concatenate S524288x6 1 [⟨S524288x3, a⟩, ⟨S524288x3, b⟩] concatenates_S524288x3_S524288x3_S524288x6_d1) : (⟨S524288x3, .f32⟩ : BufTy).Contents (Elt F) → (⟨S524288x3, .f32⟩ : BufTy).Contents (Elt F) → (⟨S524288x6, .f32⟩ : BufTy).Contents (Elt F)),
    binary main_v18 main_arg4 main_v19 ((fun l r => Host.dotGeneral dot_S524288x6_S6x128_S524288x128_1_0_0_1_n_n none l r) : (⟨S524288x6, .f32⟩ : BufTy).Contents (Elt F) → (⟨S6x128, .f32⟩ : BufTy).Contents (Elt F) → (⟨S524288x128, .f32⟩ : BufTy).Contents (Elt F)),
    unary main_arg5 main_v20 (broadcastInDim S1x128 ![1] bcast_S128_S1x128_1 : (⟨S128, .f32⟩ : BufTy).Contents (Elt F) → (⟨S1x128, .f32⟩ : BufTy).Contents (Elt F)),
    unary main_v20 main_v21 (broadcastInDim S524288x128 ![0, 1] bcast_S1x128_S524288x128_0_1 : (⟨S1x128, .f32⟩ : BufTy).Contents (Elt F) → (⟨S524288x128, .f32⟩ : BufTy).Contents (Elt F)),
    binary main_v19 main_v21 main_v22 (addf : (⟨S524288x128, .f32⟩ : BufTy).Contents (Elt F) → (⟨S524288x128, .f32⟩ : BufTy).Contents (Elt F) → (⟨S524288x128, .f32⟩ : BufTy).Contents (Elt F)),
    TRef.unary (TRef.of (T := ⟨S524288x128, .f32⟩) main_v22) (TRef.of (T := ⟨S524288x128, .f32⟩) main_call0_v0) Host.negf,
    TRef.unary (TRef.of (T := ⟨S524288x128, .f32⟩) main_call0_v0) (TRef.of (T := ⟨S524288x128, .f32⟩) main_call0_v1) Host.exp,
    TRef.nullary (TRef.of (T := ⟨S_, .f32⟩) main_call0_cst) (constant S_ .f32 0x3F800000#32),
    TRef.unary (TRef.of (T := ⟨S_, .f32⟩) main_call0_cst) (TRef.of (T := ⟨S524288x128, .f32⟩) main_call0_v2) (broadcastInDim S524288x128 ![] bcast_S_S524288x128),
    TRef.binary (TRef.of (T := ⟨S524288x128, .f32⟩) main_call0_v2) (TRef.of (T := ⟨S524288x128, .f32⟩) main_call0_v1) (TRef.of (T := ⟨S524288x128, .f32⟩) main_call0_v3) addf,
    TRef.nullary (TRef.of (T := ⟨S_, .f32⟩) main_call0_cst_0) (constant S_ .f32 0x3F800000#32),
    TRef.unary (TRef.of (T := ⟨S_, .f32⟩) main_call0_cst_0) (TRef.of (T := ⟨S524288x128, .f32⟩) main_call0_v4) (broadcastInDim S524288x128 ![] bcast_S_S524288x128),
    TRef.binary (TRef.of (T := ⟨S524288x128, .f32⟩) main_call0_v4) (TRef.of (T := ⟨S524288x128, .f32⟩) main_call0_v3) (TRef.of (T := ⟨S524288x128, .f32⟩) main_call0_v5) Host.divf,
    TRef.binary (TRef.of (T := ⟨S524288x128, .f32⟩) main_v22) (TRef.of (T := ⟨S524288x128, .f32⟩) main_call0_v5) (TRef.of (T := ⟨S524288x128, .f32⟩) main_v23) mulf,
    binary main_v23 main_arg6 main_v24 ((fun l r => Host.dotGeneral dot_S524288x128_S128x128_S524288x128_1_0_0_1_n_n none l r) : (⟨S524288x128, .f32⟩ : BufTy).Contents (Elt F) → (⟨S128x128, .f32⟩ : BufTy).Contents (Elt F) → (⟨S524288x128, .f32⟩ : BufTy).Contents (Elt F)),
    unary main_arg7 main_v25 (broadcastInDim S1x128 ![1] bcast_S128_S1x128_1 : (⟨S128, .f32⟩ : BufTy).Contents (Elt F) → (⟨S1x128, .f32⟩ : BufTy).Contents (Elt F)),
    unary main_v25 main_v26 (broadcastInDim S524288x128 ![0, 1] bcast_S1x128_S524288x128_0_1 : (⟨S1x128, .f32⟩ : BufTy).Contents (Elt F) → (⟨S524288x128, .f32⟩ : BufTy).Contents (Elt F)),
    binary main_v24 main_v26 main_v27 (addf : (⟨S524288x128, .f32⟩ : BufTy).Contents (Elt F) → (⟨S524288x128, .f32⟩ : BufTy).Contents (Elt F) → (⟨S524288x128, .f32⟩ : BufTy).Contents (Elt F)),
    nullary main_c_3 (constantI S_ 32 0#32),
    unary main_c_3 main_v28 (broadcastInDim S524288 ![] bcast_S_S524288 : (⟨S_, .i32⟩ : BufTy).Contents (Elt F) → (⟨S524288, .i32⟩ : BufTy).Contents (Elt F)),
    binary main_v1 main_v28 main_v29 (cmpi .slt : (⟨S524288, .i32⟩ : BufTy).Contents (Elt F) → (⟨S524288, .i32⟩ : BufTy).Contents (Elt F) → (⟨S524288, .i1⟩ : BufTy).Contents (Elt F)),
    nullary main_c_4 (constantI S_ 32 65536#32),
    unary main_c_4 main_v30 (broadcastInDim S524288 ![] bcast_S_S524288 : (⟨S_, .i32⟩ : BufTy).Contents (Elt F) → (⟨S524288, .i32⟩ : BufTy).Contents (Elt F)),
    binary main_v1 main_v30 main_v31 (addi : (⟨S524288, .i32⟩ : BufTy).Contents (Elt F) → (⟨S524288, .i32⟩ : BufTy).Contents (Elt F) → (⟨S524288, .i32⟩ : BufTy).Contents (Elt F)),
    ternary main_v29 main_v31 main_v1 main_v32 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    unary main_v32 main_v33 (broadcastInDim S524288x1 ![0] bcast_S524288_S524288x1_0 : (⟨S524288, .i32⟩ : BufTy).Contents (Elt F) → (⟨S524288x1, .i32⟩ : BufTy).Contents (Elt F)),
    binary main_arg0 main_v33 main_v34 ((fun x i => Host.gather gather_S65536x128_S524288x1_S524288x128_1_0_n_n_0_1_1128 x i) : (⟨S65536x128, .f32⟩ : BufTy).Contents (Elt F) → (⟨S524288x1, .i32⟩ : BufTy).Contents (Elt F) → (⟨S524288x128, .f32⟩ : BufTy).Contents (Elt F)),
    binary main_v34 main_v27 main_v35 ((fun a b => concatenate S524288x256 1 [⟨S524288x128, a⟩, ⟨S524288x128, b⟩] concatenates_S524288x128_S524288x128_S524288x256_d1) : (⟨S524288x128, .f32⟩ : BufTy).Contents (Elt F) → (⟨S524288x128, .f32⟩ : BufTy).Contents (Elt F) → (⟨S524288x256, .f32⟩ : BufTy).Contents (Elt F)),
    binary main_v35 main_arg8 main_v36 ((fun l r => Host.dotGeneral dot_S524288x256_S256x128_S524288x128_1_0_0_1_n_n none l r) : (⟨S524288x256, .f32⟩ : BufTy).Contents (Elt F) → (⟨S256x128, .f32⟩ : BufTy).Contents (Elt F) → (⟨S524288x128, .f32⟩ : BufTy).Contents (Elt F)),
    unary main_arg9 main_v37 (broadcastInDim S1x128 ![1] bcast_S128_S1x128_1 : (⟨S128, .f32⟩ : BufTy).Contents (Elt F) → (⟨S1x128, .f32⟩ : BufTy).Contents (Elt F)),
    unary main_v37 main_v38 (broadcastInDim S524288x128 ![0, 1] bcast_S1x128_S524288x128_0_1 : (⟨S1x128, .f32⟩ : BufTy).Contents (Elt F) → (⟨S524288x128, .f32⟩ : BufTy).Contents (Elt F)),
    binary main_v36 main_v38 main_v39 (addf : (⟨S524288x128, .f32⟩ : BufTy).Contents (Elt F) → (⟨S524288x128, .f32⟩ : BufTy).Contents (Elt F) → (⟨S524288x128, .f32⟩ : BufTy).Contents (Elt F)),
    TRef.unary (TRef.of (T := ⟨S524288x128, .f32⟩) main_v39) (TRef.of (T := ⟨S524288x128, .f32⟩) main_call1_v0) Host.negf,
    TRef.unary (TRef.of (T := ⟨S524288x128, .f32⟩) main_call1_v0) (TRef.of (T := ⟨S524288x128, .f32⟩) main_call1_v1) Host.exp,
    TRef.nullary (TRef.of (T := ⟨S_, .f32⟩) main_call1_cst) (constant S_ .f32 0x3F800000#32),
    TRef.unary (TRef.of (T := ⟨S_, .f32⟩) main_call1_cst) (TRef.of (T := ⟨S524288x128, .f32⟩) main_call1_v2) (broadcastInDim S524288x128 ![] bcast_S_S524288x128),
    TRef.binary (TRef.of (T := ⟨S524288x128, .f32⟩) main_call1_v2) (TRef.of (T := ⟨S524288x128, .f32⟩) main_call1_v1) (TRef.of (T := ⟨S524288x128, .f32⟩) main_call1_v3) addf,
    TRef.nullary (TRef.of (T := ⟨S_, .f32⟩) main_call1_cst_0) (constant S_ .f32 0x3F800000#32),
    TRef.unary (TRef.of (T := ⟨S_, .f32⟩) main_call1_cst_0) (TRef.of (T := ⟨S524288x128, .f32⟩) main_call1_v4) (broadcastInDim S524288x128 ![] bcast_S_S524288x128),
    TRef.binary (TRef.of (T := ⟨S524288x128, .f32⟩) main_call1_v4) (TRef.of (T := ⟨S524288x128, .f32⟩) main_call1_v3) (TRef.of (T := ⟨S524288x128, .f32⟩) main_call1_v5) Host.divf,
    TRef.binary (TRef.of (T := ⟨S524288x128, .f32⟩) main_v39) (TRef.of (T := ⟨S524288x128, .f32⟩) main_call1_v5) (TRef.of (T := ⟨S524288x128, .f32⟩) main_v40) mulf,
    binary main_v40 main_arg10 main_v41 ((fun l r => Host.dotGeneral dot_S524288x128_S128x128_S524288x128_1_0_0_1_n_n none l r) : (⟨S524288x128, .f32⟩ : BufTy).Contents (Elt F) → (⟨S128x128, .f32⟩ : BufTy).Contents (Elt F) → (⟨S524288x128, .f32⟩ : BufTy).Contents (Elt F)),
    unary main_arg11 main_v42 (broadcastInDim S1x128 ![1] bcast_S128_S1x128_1 : (⟨S128, .f32⟩ : BufTy).Contents (Elt F) → (⟨S1x128, .f32⟩ : BufTy).Contents (Elt F)),
    unary main_v42 main_v43 (broadcastInDim S524288x128 ![0, 1] bcast_S1x128_S524288x128_0_1 : (⟨S1x128, .f32⟩ : BufTy).Contents (Elt F) → (⟨S524288x128, .f32⟩ : BufTy).Contents (Elt F)),
    binary main_v41 main_v43 main_v44 (addf : (⟨S524288x128, .f32⟩ : BufTy).Contents (Elt F) → (⟨S524288x128, .f32⟩ : BufTy).Contents (Elt F) → (⟨S524288x128, .f32⟩ : BufTy).Contents (Elt F)),
    nullary main_cst (constant S_ .f32 0x00000000#32),
    unary main_cst main_v45 (broadcastInDim S32768x128 ![] bcast_S_S32768x128 : (⟨S_, .f32⟩ : BufTy).Contents (Elt F) → (⟨S32768x128, .f32⟩ : BufTy).Contents (Elt F)),
    unary main_v3 main_v46 (broadcastInDim S524288x1 ![0] bcast_S524288_S524288x1_0 : (⟨S524288, .i32⟩ : BufTy).Contents (Elt F) → (⟨S524288x1, .i32⟩ : BufTy).Contents (Elt F)),
    ternary main_v45 main_v46 main_v44 main_v47 ((fun x i u => Host.scatterAdd scatter_S32768x128_S524288x1_S524288x128_1_0_0_1 x i u) : (⟨S32768x128, .f32⟩ : BufTy).Contents (Elt F) → (⟨S524288x1, .i32⟩ : BufTy).Contents (Elt F) → (⟨S524288x128, .f32⟩ : BufTy).Contents (Elt F) → (⟨S32768x128, .f32⟩ : BufTy).Contents (Elt F)),
    nullary main_cst_5 (constant S_ .f32 0x3F800000#32),
    unary main_cst_5 main_v48 (broadcastInDim S524288 ![] bcast_S_S524288 : (⟨S_, .f32⟩ : BufTy).Contents (Elt F) → (⟨S524288, .f32⟩ : BufTy).Contents (Elt F)),
    nullary main_cst_6 (constant S_ .f32 0x00000000#32),
    unary main_cst_6 main_v49 (broadcastInDim S32768 ![] bcast_S_S32768 : (⟨S_, .f32⟩ : BufTy).Contents (Elt F) → (⟨S32768, .f32⟩ : BufTy).Contents (Elt F)),
    unary main_v3 main_v50 (broadcastInDim S524288x1 ![0] bcast_S524288_S524288x1_0 : (⟨S524288, .i32⟩ : BufTy).Contents (Elt F) → (⟨S524288x1, .i32⟩ : BufTy).Contents (Elt F)),
    ternary main_v49 main_v50 main_v48 main_v51 ((fun x i u => Host.scatterAdd scatter_S32768_S524288x1_S524288_n_0_0_1 x i u) : (⟨S32768, .f32⟩ : BufTy).Contents (Elt F) → (⟨S524288x1, .i32⟩ : BufTy).Contents (Elt F) → (⟨S524288, .f32⟩ : BufTy).Contents (Elt F) → (⟨S32768, .f32⟩ : BufTy).Contents (Elt F)),
    unary main_v51 main_v52 (broadcastInDim S32768x1 ![0] bcast_S32768_S32768x1_0 : (⟨S32768, .f32⟩ : BufTy).Contents (Elt F) → (⟨S32768x1, .f32⟩ : BufTy).Contents (Elt F)),
    unary main_v52 main_v53 (broadcastInDim S32768x128 ![0, 1] bcast_S32768x1_S32768x128_0_1 : (⟨S32768x1, .f32⟩ : BufTy).Contents (Elt F) → (⟨S32768x128, .f32⟩ : BufTy).Contents (Elt F)),
    binary main_v47 main_v53 main_v54 (Host.divf : (⟨S32768x128, .f32⟩ : BufTy).Contents (Elt F) → (⟨S32768x128, .f32⟩ : BufTy).Contents (Elt F) → (⟨S32768x128, .f32⟩ : BufTy).Contents (Elt F)),
    binary main_v54 main_arg12 main_v55 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_arg13 main_v56 (broadcastInDim S1x128 ![1] bcast_S128_S1x128_1 : (⟨S128, .f32⟩ : BufTy).Contents (Elt F) → (⟨S1x128, .f32⟩ : BufTy).Contents (Elt F)),
    unary main_v56 main_v57 (broadcastInDim S32768x128 ![0, 1] bcast_S1x128_S32768x128_0_1 : (⟨S1x128, .f32⟩ : BufTy).Contents (Elt F) → (⟨S32768x128, .f32⟩ : BufTy).Contents (Elt F)),
    binary main_v55 main_v57 main_v58 (addf : (⟨S32768x128, .f32⟩ : BufTy).Contents (Elt F) → (⟨S32768x128, .f32⟩ : BufTy).Contents (Elt F) → (⟨S32768x128, .f32⟩ : BufTy).Contents (Elt F)),
    TRef.unary (TRef.of (T := ⟨S32768x128, .f32⟩) main_v58) (TRef.of (T := ⟨S32768x128, .f32⟩) main_call2_v0) Host.negf,
    TRef.unary (TRef.of (T := ⟨S32768x128, .f32⟩) main_call2_v0) (TRef.of (T := ⟨S32768x128, .f32⟩) main_call2_v1) Host.exp,
    TRef.nullary (TRef.of (T := ⟨S_, .f32⟩) main_call2_cst) (constant S_ .f32 0x3F800000#32),
    TRef.unary (TRef.of (T := ⟨S_, .f32⟩) main_call2_cst) (TRef.of (T := ⟨S32768x128, .f32⟩) main_call2_v2) (broadcastInDim S32768x128 ![] bcast_S_S32768x128),
    TRef.binary (TRef.of (T := ⟨S32768x128, .f32⟩) main_call2_v2) (TRef.of (T := ⟨S32768x128, .f32⟩) main_call2_v1) (TRef.of (T := ⟨S32768x128, .f32⟩) main_call2_v3) addf,
    TRef.nullary (TRef.of (T := ⟨S_, .f32⟩) main_call2_cst_0) (constant S_ .f32 0x3F800000#32),
    TRef.unary (TRef.of (T := ⟨S_, .f32⟩) main_call2_cst_0) (TRef.of (T := ⟨S32768x128, .f32⟩) main_call2_v4) (broadcastInDim S32768x128 ![] bcast_S_S32768x128),
    TRef.binary (TRef.of (T := ⟨S32768x128, .f32⟩) main_call2_v4) (TRef.of (T := ⟨S32768x128, .f32⟩) main_call2_v3) (TRef.of (T := ⟨S32768x128, .f32⟩) main_call2_v5) Host.divf,
    TRef.binary (TRef.of (T := ⟨S32768x128, .f32⟩) main_v58) (TRef.of (T := ⟨S32768x128, .f32⟩) main_call2_v5) (TRef.of (T := ⟨S32768x128, .f32⟩) main_v59) mulf,
    binary main_v59 main_arg14 main_v60 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_arg15 main_v61 (broadcastInDim S1x128 ![1] bcast_S128_S1x128_1 : (⟨S128, .f32⟩ : BufTy).Contents (Elt F) → (⟨S1x128, .f32⟩ : BufTy).Contents (Elt F)),
    unary main_v61 main_v62 (broadcastInDim S32768x128 ![0, 1] bcast_S1x128_S32768x128_0_1 : (⟨S1x128, .f32⟩ : BufTy).Contents (Elt F) → (⟨S32768x128, .f32⟩ : BufTy).Contents (Elt F)),
    binary main_v60 main_v62 main_v63 (addf : (⟨S32768x128, .f32⟩ : BufTy).Contents (Elt F) → (⟨S32768x128, .f32⟩ : BufTy).Contents (Elt F) → (⟨S32768x128, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., binary_bufs_sub ..⟩

/-! ## A line run in pieces -/

/-- Running two lines one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- Operations 0 to 48: the two gathers of positions, the position code, the gather of embeddings. -/
abbrev ops1 : List (HloOp τ sig (Elt F)) :=
  [ unary main_arg3 main_v0 ((extractStridedSlice S1x524288 ![0, 0] · slices_S2x524288_S1x524288_0_0) : (⟨S2x524288, .i32⟩ : BufTy).Contents (Elt F) → (⟨S1x524288, .i32⟩ : BufTy).Contents (Elt F)),
    reshape main_v0 main_v1 rfl shapeCasts_S1x524288_S524288,
    unary main_arg3 main_v2 ((extractStridedSlice S1x524288 ![1, 0] · slices_S2x524288_S1x524288_1_0) : (⟨S2x524288, .i32⟩ : BufTy).Contents (Elt F) → (⟨S1x524288, .i32⟩ : BufTy).Contents (Elt F)),
    reshape main_v2 main_v3 rfl shapeCasts_S1x524288_S524288,
    nullary main_c (constantI S_ 32 0#32),
    unary main_c main_v4 (broadcastInDim S524288 ![] bcast_S_S524288 : (⟨S_, .i32⟩ : BufTy).Contents (Elt F) → (⟨S524288, .i32⟩ : BufTy).Contents (Elt F)),
    binary main_v1 main_v4 main_v5 (cmpi .slt : (⟨S524288, .i32⟩ : BufTy).Contents (Elt F) → (⟨S524288, .i32⟩ : BufTy).Contents (Elt F) → (⟨S524288, .i1⟩ : BufTy).Contents (Elt F)),
    nullary main_c_0 (constantI S_ 32 65536#32),
    unary main_c_0 main_v6 (broadcastInDim S524288 ![] bcast_S_S524288 : (⟨S_, .i32⟩ : BufTy).Contents (Elt F) → (⟨S524288, .i32⟩ : BufTy).Contents (Elt F)),
    binary main_v1 main_v6 main_v7 (addi : (⟨S524288, .i32⟩ : BufTy).Contents (Elt F) → (⟨S524288, .i32⟩ : BufTy).Contents (Elt F) → (⟨S524288, .i32⟩ : BufTy).Contents (Elt F)),
    ternary main_v5 main_v7 main_v1 main_v8 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    unary main_v8 main_v9 (broadcastInDim S524288x1 ![0] bcast_S524288_S524288x1_0 : (⟨S524288, .i32⟩ : BufTy).Contents (Elt F) → (⟨S524288x1, .i32⟩ : BufTy).Contents (Elt F)),
    binary main_arg1 main_v9 main_v10 ((fun x i => Host.gather gather_S65536x3_S524288x1_S524288x3_1_0_n_n_0_1_13 x i) : (⟨S65536x3, .f32⟩ : BufTy).Contents (Elt F) → (⟨S524288x1, .i32⟩ : BufTy).Contents (Elt F) → (⟨S524288x3, .f32⟩ : BufTy).Contents (Elt F)),
    nullary main_c_1 (constantI S_ 32 0#32),
    unary main_c_1 main_v11 (broadcastInDim S524288 ![] bcast_S_S524288 : (⟨S_, .i32⟩ : BufTy).Contents (Elt F) → (⟨S524288, .i32⟩ : BufTy).Contents (Elt F)),
    binary main_v3 main_v11 main_v12 (cmpi .slt : (⟨S524288, .i32⟩ : BufTy).Contents (Elt F) → (⟨S524288, .i32⟩ : BufTy).Contents (Elt F) → (⟨S524288, .i1⟩ : BufTy).Contents (Elt F)),
    nullary main_c_2 (constantI S_ 32 32768#32),
    unary main_c_2 main_v13 (broadcastInDim S524288 ![] bcast_S_S524288 : (⟨S_, .i32⟩ : BufTy).Contents (Elt F) → (⟨S524288, .i32⟩ : BufTy).Contents (Elt F)),
    binary main_v3 main_v13 main_v14 (addi : (⟨S524288, .i32⟩ : BufTy).Contents (Elt F) → (⟨S524288, .i32⟩ : BufTy).Contents (Elt F) → (⟨S524288, .i32⟩ : BufTy).Contents (Elt F)),
    ternary main_v12 main_v14 main_v3 main_v15 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    unary main_v15 main_v16 (broadcastInDim S524288x1 ![0] bcast_S524288_S524288x1_0 : (⟨S524288, .i32⟩ : BufTy).Contents (Elt F) → (⟨S524288x1, .i32⟩ : BufTy).Contents (Elt F)),
    binary main_arg2 main_v16 main_v17 ((fun x i => Host.gather gather_S32768x3_S524288x1_S524288x3_1_0_n_n_0_1_13 x i) : (⟨S32768x3, .f32⟩ : BufTy).Contents (Elt F) → (⟨S524288x1, .i32⟩ : BufTy).Contents (Elt F) → (⟨S524288x3, .f32⟩ : BufTy).Contents (Elt F)),
    binary main_v10 main_v17 main_v18 ((fun a b => concatenate S524288x6 1 [⟨S524288x3, a⟩, ⟨S524288x3, b⟩] concatenates_S524288x3_S524288x3_S524288x6_d1) : (⟨S524288x3, .f32⟩ : BufTy).Contents (Elt F) → (⟨S524288x3, .f32⟩ : BufTy).Contents (Elt F) → (⟨S524288x6, .f32⟩ : BufTy).Contents (Elt F)),
    binary main_v18 main_arg4 main_v19 ((fun l r => Host.dotGeneral dot_S524288x6_S6x128_S524288x128_1_0_0_1_n_n none l r) : (⟨S524288x6, .f32⟩ : BufTy).Contents (Elt F) → (⟨S6x128, .f32⟩ : BufTy).Contents (Elt F) → (⟨S524288x128, .f32⟩ : BufTy).Contents (Elt F)),
    unary main_arg5 main_v20 (broadcastInDim S1x128 ![1] bcast_S128_S1x128_1 : (⟨S128, .f32⟩ : BufTy).Contents (Elt F) → (⟨S1x128, .f32⟩ : BufTy).Contents (Elt F)),
    unary main_v20 main_v21 (broadcastInDim S524288x128 ![0, 1] bcast_S1x128_S524288x128_0_1 : (⟨S1x128, .f32⟩ : BufTy).Contents (Elt F) → (⟨S524288x128, .f32⟩ : BufTy).Contents (Elt F)),
    binary main_v19 main_v21 main_v22 (addf : (⟨S524288x128, .f32⟩ : BufTy).Contents (Elt F) → (⟨S524288x128, .f32⟩ : BufTy).Contents (Elt F) → (⟨S524288x128, .f32⟩ : BufTy).Contents (Elt F)),
    TRef.unary (TRef.of (T := ⟨S524288x128, .f32⟩) main_v22) (TRef.of (T := ⟨S524288x128, .f32⟩) main_call0_v0) Host.negf,
    TRef.unary (TRef.of (T := ⟨S524288x128, .f32⟩) main_call0_v0) (TRef.of (T := ⟨S524288x128, .f32⟩) main_call0_v1) Host.exp,
    TRef.nullary (TRef.of (T := ⟨S_, .f32⟩) main_call0_cst) (constant S_ .f32 0x3F800000#32),
    TRef.unary (TRef.of (T := ⟨S_, .f32⟩) main_call0_cst) (TRef.of (T := ⟨S524288x128, .f32⟩) main_call0_v2) (broadcastInDim S524288x128 ![] bcast_S_S524288x128),
    TRef.binary (TRef.of (T := ⟨S524288x128, .f32⟩) main_call0_v2) (TRef.of (T := ⟨S524288x128, .f32⟩) main_call0_v1) (TRef.of (T := ⟨S524288x128, .f32⟩) main_call0_v3) addf,
    TRef.nullary (TRef.of (T := ⟨S_, .f32⟩) main_call0_cst_0) (constant S_ .f32 0x3F800000#32),
    TRef.unary (TRef.of (T := ⟨S_, .f32⟩) main_call0_cst_0) (TRef.of (T := ⟨S524288x128, .f32⟩) main_call0_v4) (broadcastInDim S524288x128 ![] bcast_S_S524288x128),
    TRef.binary (TRef.of (T := ⟨S524288x128, .f32⟩) main_call0_v4) (TRef.of (T := ⟨S524288x128, .f32⟩) main_call0_v3) (TRef.of (T := ⟨S524288x128, .f32⟩) main_call0_v5) Host.divf,
    TRef.binary (TRef.of (T := ⟨S524288x128, .f32⟩) main_v22) (TRef.of (T := ⟨S524288x128, .f32⟩) main_call0_v5) (TRef.of (T := ⟨S524288x128, .f32⟩) main_v23) mulf,
    binary main_v23 main_arg6 main_v24 ((fun l r => Host.dotGeneral dot_S524288x128_S128x128_S524288x128_1_0_0_1_n_n none l r) : (⟨S524288x128, .f32⟩ : BufTy).Contents (Elt F) → (⟨S128x128, .f32⟩ : BufTy).Contents (Elt F) → (⟨S524288x128, .f32⟩ : BufTy).Contents (Elt F)),
    unary main_arg7 main_v25 (broadcastInDim S1x128 ![1] bcast_S128_S1x128_1 : (⟨S128, .f32⟩ : BufTy).Contents (Elt F) → (⟨S1x128, .f32⟩ : BufTy).Contents (Elt F)),
    unary main_v25 main_v26 (broadcastInDim S524288x128 ![0, 1] bcast_S1x128_S524288x128_0_1 : (⟨S1x128, .f32⟩ : BufTy).Contents (Elt F) → (⟨S524288x128, .f32⟩ : BufTy).Contents (Elt F)),
    binary main_v24 main_v26 main_v27 (addf : (⟨S524288x128, .f32⟩ : BufTy).Contents (Elt F) → (⟨S524288x128, .f32⟩ : BufTy).Contents (Elt F) → (⟨S524288x128, .f32⟩ : BufTy).Contents (Elt F)),
    nullary main_c_3 (constantI S_ 32 0#32),
    unary main_c_3 main_v28 (broadcastInDim S524288 ![] bcast_S_S524288 : (⟨S_, .i32⟩ : BufTy).Contents (Elt F) → (⟨S524288, .i32⟩ : BufTy).Contents (Elt F)),
    binary main_v1 main_v28 main_v29 (cmpi .slt : (⟨S524288, .i32⟩ : BufTy).Contents (Elt F) → (⟨S524288, .i32⟩ : BufTy).Contents (Elt F) → (⟨S524288, .i1⟩ : BufTy).Contents (Elt F)),
    nullary main_c_4 (constantI S_ 32 65536#32),
    unary main_c_4 main_v30 (broadcastInDim S524288 ![] bcast_S_S524288 : (⟨S_, .i32⟩ : BufTy).Contents (Elt F) → (⟨S524288, .i32⟩ : BufTy).Contents (Elt F)),
    binary main_v1 main_v30 main_v31 (addi : (⟨S524288, .i32⟩ : BufTy).Contents (Elt F) → (⟨S524288, .i32⟩ : BufTy).Contents (Elt F) → (⟨S524288, .i32⟩ : BufTy).Contents (Elt F)),
    ternary main_v29 main_v31 main_v1 main_v32 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    unary main_v32 main_v33 (broadcastInDim S524288x1 ![0] bcast_S524288_S524288x1_0 : (⟨S524288, .i32⟩ : BufTy).Contents (Elt F) → (⟨S524288x1, .i32⟩ : BufTy).Contents (Elt F)),
    binary main_arg0 main_v33 main_v34 ((fun x i => Host.gather gather_S65536x128_S524288x1_S524288x128_1_0_n_n_0_1_1128 x i) : (⟨S65536x128, .f32⟩ : BufTy).Contents (Elt F) → (⟨S524288x1, .i32⟩ : BufTy).Contents (Elt F) → (⟨S524288x128, .f32⟩ : BufTy).Contents (Elt F)) ]
/-- Operations 49 to 66: embedding and position code side by side, and the two message layers. -/
abbrev ops2 : List (HloOp τ sig (Elt F)) :=
  [ binary main_v34 main_v27 main_v35 ((fun a b => concatenate S524288x256 1 [⟨S524288x128, a⟩, ⟨S524288x128, b⟩] concatenates_S524288x128_S524288x128_S524288x256_d1) : (⟨S524288x128, .f32⟩ : BufTy).Contents (Elt F) → (⟨S524288x128, .f32⟩ : BufTy).Contents (Elt F) → (⟨S524288x256, .f32⟩ : BufTy).Contents (Elt F)),
    binary main_v35 main_arg8 main_v36 ((fun l r => Host.dotGeneral dot_S524288x256_S256x128_S524288x128_1_0_0_1_n_n none l r) : (⟨S524288x256, .f32⟩ : BufTy).Contents (Elt F) → (⟨S256x128, .f32⟩ : BufTy).Contents (Elt F) → (⟨S524288x128, .f32⟩ : BufTy).Contents (Elt F)),
    unary main_arg9 main_v37 (broadcastInDim S1x128 ![1] bcast_S128_S1x128_1 : (⟨S128, .f32⟩ : BufTy).Contents (Elt F) → (⟨S1x128, .f32⟩ : BufTy).Contents (Elt F)),
    unary main_v37 main_v38 (broadcastInDim S524288x128 ![0, 1] bcast_S1x128_S524288x128_0_1 : (⟨S1x128, .f32⟩ : BufTy).Contents (Elt F) → (⟨S524288x128, .f32⟩ : BufTy).Contents (Elt F)),
    binary main_v36 main_v38 main_v39 (addf : (⟨S524288x128, .f32⟩ : BufTy).Contents (Elt F) → (⟨S524288x128, .f32⟩ : BufTy).Contents (Elt F) → (⟨S524288x128, .f32⟩ : BufTy).Contents (Elt F)),
    TRef.unary (TRef.of (T := ⟨S524288x128, .f32⟩) main_v39) (TRef.of (T := ⟨S524288x128, .f32⟩) main_call1_v0) Host.negf,
    TRef.unary (TRef.of (T := ⟨S524288x128, .f32⟩) main_call1_v0) (TRef.of (T := ⟨S524288x128, .f32⟩) main_call1_v1) Host.exp,
    TRef.nullary (TRef.of (T := ⟨S_, .f32⟩) main_call1_cst) (constant S_ .f32 0x3F800000#32),
    TRef.unary (TRef.of (T := ⟨S_, .f32⟩) main_call1_cst) (TRef.of (T := ⟨S524288x128, .f32⟩) main_call1_v2) (broadcastInDim S524288x128 ![] bcast_S_S524288x128),
    TRef.binary (TRef.of (T := ⟨S524288x128, .f32⟩) main_call1_v2) (TRef.of (T := ⟨S524288x128, .f32⟩) main_call1_v1) (TRef.of (T := ⟨S524288x128, .f32⟩) main_call1_v3) addf,
    TRef.nullary (TRef.of (T := ⟨S_, .f32⟩) main_call1_cst_0) (constant S_ .f32 0x3F800000#32),
    TRef.unary (TRef.of (T := ⟨S_, .f32⟩) main_call1_cst_0) (TRef.of (T := ⟨S524288x128, .f32⟩) main_call1_v4) (broadcastInDim S524288x128 ![] bcast_S_S524288x128),
    TRef.binary (TRef.of (T := ⟨S524288x128, .f32⟩) main_call1_v4) (TRef.of (T := ⟨S524288x128, .f32⟩) main_call1_v3) (TRef.of (T := ⟨S524288x128, .f32⟩) main_call1_v5) Host.divf,
    TRef.binary (TRef.of (T := ⟨S524288x128, .f32⟩) main_v39) (TRef.of (T := ⟨S524288x128, .f32⟩) main_call1_v5) (TRef.of (T := ⟨S524288x128, .f32⟩) main_v40) mulf,
    binary main_v40 main_arg10 main_v41 ((fun l r => Host.dotGeneral dot_S524288x128_S128x128_S524288x128_1_0_0_1_n_n none l r) : (⟨S524288x128, .f32⟩ : BufTy).Contents (Elt F) → (⟨S128x128, .f32⟩ : BufTy).Contents (Elt F) → (⟨S524288x128, .f32⟩ : BufTy).Contents (Elt F)),
    unary main_arg11 main_v42 (broadcastInDim S1x128 ![1] bcast_S128_S1x128_1 : (⟨S128, .f32⟩ : BufTy).Contents (Elt F) → (⟨S1x128, .f32⟩ : BufTy).Contents (Elt F)),
    unary main_v42 main_v43 (broadcastInDim S524288x128 ![0, 1] bcast_S1x128_S524288x128_0_1 : (⟨S1x128, .f32⟩ : BufTy).Contents (Elt F) → (⟨S524288x128, .f32⟩ : BufTy).Contents (Elt F)),
    binary main_v41 main_v43 main_v44 (addf : (⟨S524288x128, .f32⟩ : BufTy).Contents (Elt F) → (⟨S524288x128, .f32⟩ : BufTy).Contents (Elt F) → (⟨S524288x128, .f32⟩ : BufTy).Contents (Elt F)) ]
/-- Operations 67 to 76: the sum of the messages and the count of the edges, per cell. -/
abbrev ops3 : List (HloOp τ sig (Elt F)) :=
  [ nullary main_cst (constant S_ .f32 0x00000000#32),
    unary main_cst main_v45 (broadcastInDim S32768x128 ![] bcast_S_S32768x128 : (⟨S_, .f32⟩ : BufTy).Contents (Elt F) → (⟨S32768x128, .f32⟩ : BufTy).Contents (Elt F)),
    unary main_v3 main_v46 (broadcastInDim S524288x1 ![0] bcast_S524288_S524288x1_0 : (⟨S524288, .i32⟩ : BufTy).Contents (Elt F) → (⟨S524288x1, .i32⟩ : BufTy).Contents (Elt F)),
    ternary main_v45 main_v46 main_v44 main_v47 ((fun x i u => Host.scatterAdd scatter_S32768x128_S524288x1_S524288x128_1_0_0_1 x i u) : (⟨S32768x128, .f32⟩ : BufTy).Contents (Elt F) → (⟨S524288x1, .i32⟩ : BufTy).Contents (Elt F) → (⟨S524288x128, .f32⟩ : BufTy).Contents (Elt F) → (⟨S32768x128, .f32⟩ : BufTy).Contents (Elt F)),
    nullary main_cst_5 (constant S_ .f32 0x3F800000#32),
    unary main_cst_5 main_v48 (broadcastInDim S524288 ![] bcast_S_S524288 : (⟨S_, .f32⟩ : BufTy).Contents (Elt F) → (⟨S524288, .f32⟩ : BufTy).Contents (Elt F)),
    nullary main_cst_6 (constant S_ .f32 0x00000000#32),
    unary main_cst_6 main_v49 (broadcastInDim S32768 ![] bcast_S_S32768 : (⟨S_, .f32⟩ : BufTy).Contents (Elt F) → (⟨S32768, .f32⟩ : BufTy).Contents (Elt F)),
    unary main_v3 main_v50 (broadcastInDim S524288x1 ![0] bcast_S524288_S524288x1_0 : (⟨S524288, .i32⟩ : BufTy).Contents (Elt F) → (⟨S524288x1, .i32⟩ : BufTy).Contents (Elt F)),
    ternary main_v49 main_v50 main_v48 main_v51 ((fun x i u => Host.scatterAdd scatter_S32768_S524288x1_S524288_n_0_0_1 x i u) : (⟨S32768, .f32⟩ : BufTy).Contents (Elt F) → (⟨S524288x1, .i32⟩ : BufTy).Contents (Elt F) → (⟨S524288, .f32⟩ : BufTy).Contents (Elt F) → (⟨S32768, .f32⟩ : BufTy).Contents (Elt F)) ]
/-- Operations 77 to 96: the mean and the two update layers. -/
abbrev ops4 : List (HloOp τ sig (Elt F)) :=
  [ unary main_v51 main_v52 (broadcastInDim S32768x1 ![0] bcast_S32768_S32768x1_0 : (⟨S32768, .f32⟩ : BufTy).Contents (Elt F) → (⟨S32768x1, .f32⟩ : BufTy).Contents (Elt F)),
    unary main_v52 main_v53 (broadcastInDim S32768x128 ![0, 1] bcast_S32768x1_S32768x128_0_1 : (⟨S32768x1, .f32⟩ : BufTy).Contents (Elt F) → (⟨S32768x128, .f32⟩ : BufTy).Contents (Elt F)),
    binary main_v47 main_v53 main_v54 (Host.divf : (⟨S32768x128, .f32⟩ : BufTy).Contents (Elt F) → (⟨S32768x128, .f32⟩ : BufTy).Contents (Elt F) → (⟨S32768x128, .f32⟩ : BufTy).Contents (Elt F)),
    binary main_v54 main_arg12 main_v55 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_arg13 main_v56 (broadcastInDim S1x128 ![1] bcast_S128_S1x128_1 : (⟨S128, .f32⟩ : BufTy).Contents (Elt F) → (⟨S1x128, .f32⟩ : BufTy).Contents (Elt F)),
    unary main_v56 main_v57 (broadcastInDim S32768x128 ![0, 1] bcast_S1x128_S32768x128_0_1 : (⟨S1x128, .f32⟩ : BufTy).Contents (Elt F) → (⟨S32768x128, .f32⟩ : BufTy).Contents (Elt F)),
    binary main_v55 main_v57 main_v58 (addf : (⟨S32768x128, .f32⟩ : BufTy).Contents (Elt F) → (⟨S32768x128, .f32⟩ : BufTy).Contents (Elt F) → (⟨S32768x128, .f32⟩ : BufTy).Contents (Elt F)),
    TRef.unary (TRef.of (T := ⟨S32768x128, .f32⟩) main_v58) (TRef.of (T := ⟨S32768x128, .f32⟩) main_call2_v0) Host.negf,
    TRef.unary (TRef.of (T := ⟨S32768x128, .f32⟩) main_call2_v0) (TRef.of (T := ⟨S32768x128, .f32⟩) main_call2_v1) Host.exp,
    TRef.nullary (TRef.of (T := ⟨S_, .f32⟩) main_call2_cst) (constant S_ .f32 0x3F800000#32),
    TRef.unary (TRef.of (T := ⟨S_, .f32⟩) main_call2_cst) (TRef.of (T := ⟨S32768x128, .f32⟩) main_call2_v2) (broadcastInDim S32768x128 ![] bcast_S_S32768x128),
    TRef.binary (TRef.of (T := ⟨S32768x128, .f32⟩) main_call2_v2) (TRef.of (T := ⟨S32768x128, .f32⟩) main_call2_v1) (TRef.of (T := ⟨S32768x128, .f32⟩) main_call2_v3) addf,
    TRef.nullary (TRef.of (T := ⟨S_, .f32⟩) main_call2_cst_0) (constant S_ .f32 0x3F800000#32),
    TRef.unary (TRef.of (T := ⟨S_, .f32⟩) main_call2_cst_0) (TRef.of (T := ⟨S32768x128, .f32⟩) main_call2_v4) (broadcastInDim S32768x128 ![] bcast_S_S32768x128),
    TRef.binary (TRef.of (T := ⟨S32768x128, .f32⟩) main_call2_v4) (TRef.of (T := ⟨S32768x128, .f32⟩) main_call2_v3) (TRef.of (T := ⟨S32768x128, .f32⟩) main_call2_v5) Host.divf,
    TRef.binary (TRef.of (T := ⟨S32768x128, .f32⟩) main_v58) (TRef.of (T := ⟨S32768x128, .f32⟩) main_call2_v5) (TRef.of (T := ⟨S32768x128, .f32⟩) main_v59) mulf,
    binary main_v59 main_arg14 main_v60 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    unary main_arg15 main_v61 (broadcastInDim S1x128 ![1] bcast_S128_S1x128_1 : (⟨S128, .f32⟩ : BufTy).Contents (Elt F) → (⟨S1x128, .f32⟩ : BufTy).Contents (Elt F)),
    unary main_v61 main_v62 (broadcastInDim S32768x128 ![0, 1] bcast_S1x128_S32768x128_0_1 : (⟨S1x128, .f32⟩ : BufTy).Contents (Elt F) → (⟨S32768x128, .f32⟩ : BufTy).Contents (Elt F)),
    binary main_v60 main_v62 main_v63 (addf : (⟨S32768x128, .f32⟩ : BufTy).Contents (Elt F) → (⟨S32768x128, .f32⟩ : BufTy).Contents (Elt F) → (⟨S32768x128, .f32⟩ : BufTy).Contents (Elt F)) ]

set_option maxRecDepth 8192 in
/-- The line is its four pieces in order. -/
theorem ops_eq : (ops : List (HloOp τ sig (Elt F))) = ops1 ++ (ops2 ++ (ops3 ++ ops4)) := rfl

/-! ## What each piece writes

Each operation writes one buffer; a buffer outside a piece's list of written buffers leaves the piece as it
entered. -/

abbrev wr1 : List (Ref sig .tc) := [main_v0, main_v1, main_v2, main_v3, main_c, main_v4, main_v5, main_c_0, main_v6, main_v7, main_v8, main_v9, main_v10, main_c_1, main_v11, main_v12, main_c_2, main_v13, main_v14, main_v15, main_v16, main_v17, main_v18, main_v19, main_v20, main_v21, main_v22, main_call0_v0, main_call0_v1, main_call0_cst, main_call0_v2, main_call0_v3, main_call0_cst_0, main_call0_v4, main_call0_v5, main_v23, main_v24, main_v25, main_v26, main_v27, main_c_3, main_v28, main_v29, main_c_4, main_v30, main_v31, main_v32, main_v33, main_v34]
abbrev wr2 : List (Ref sig .tc) := [main_v35, main_v36, main_v37, main_v38, main_v39, main_call1_v0, main_call1_v1, main_call1_cst, main_call1_v2, main_call1_v3, main_call1_cst_0, main_call1_v4, main_call1_v5, main_v40, main_v41, main_v42, main_v43, main_v44]
abbrev wr3 : List (Ref sig .tc) := [main_cst, main_v45, main_v46, main_v47, main_cst_5, main_v48, main_cst_6, main_v49, main_v50, main_v51]
abbrev wr4 : List (Ref sig .tc) := [main_v52, main_v53, main_v54, main_v55, main_v56, main_v57, main_v58, main_call2_v0, main_call2_v1, main_call2_cst, main_call2_v2, main_call2_v3, main_call2_cst_0, main_call2_v4, main_call2_v5, main_v59, main_v60, main_v61, main_v62, main_v63]

set_option maxRecDepth 8192 in
theorem wr1_sub : (ops1 : List (HloOp τ sig (Elt F))).Forall fun op => op.writes ⊆ (wr1.map (Proc.devRef (τ := τ) .tc)).toFinset := by
  simp only [ops1, List.Forall, nullary_writes, unary_writes, binary_writes, ternary_writes, reshape_writes, Finset.singleton_subset_iff, List.mem_toFinset]
  repeat' apply And.intro
  all_goals exact List.mem_map.mpr ⟨_, by decide, rfl⟩
theorem wr2_sub : (ops2 : List (HloOp τ sig (Elt F))).Forall fun op => op.writes ⊆ (wr2.map (Proc.devRef (τ := τ) .tc)).toFinset := by
  simp only [ops2, List.Forall, nullary_writes, unary_writes, binary_writes, ternary_writes, reshape_writes, Finset.singleton_subset_iff, List.mem_toFinset]
  repeat' apply And.intro
  all_goals exact List.mem_map.mpr ⟨_, by decide, rfl⟩
theorem wr3_sub : (ops3 : List (HloOp τ sig (Elt F))).Forall fun op => op.writes ⊆ (wr3.map (Proc.devRef (τ := τ) .tc)).toFinset := by
  simp only [ops3, List.Forall, nullary_writes, unary_writes, binary_writes, ternary_writes, reshape_writes, Finset.singleton_subset_iff, List.mem_toFinset]
  repeat' apply And.intro
  all_goals exact List.mem_map.mpr ⟨_, by decide, rfl⟩
theorem wr4_sub : (ops4 : List (HloOp τ sig (Elt F))).Forall fun op => op.writes ⊆ (wr4.map (Proc.devRef (τ := τ) .tc)).toFinset := by
  simp only [ops4, List.Forall, nullary_writes, unary_writes, binary_writes, ternary_writes, reshape_writes, Finset.singleton_subset_iff, List.mem_toFinset]
  repeat' apply And.intro
  all_goals exact List.mem_map.mpr ⟨_, by decide, rfl⟩

/-- A buffer none of the four pieces writes ends the whole line as it entered. -/
theorem keeps {r : Ref sig .tc} (h1 : r ∉ wr1) (h2 : r ∉ wr2) (h3 : r ∉ wr3) (h4 : r ∉ wr4) (V : Valuation τ sig (Elt F)) :
    after ops V (Proc.devRef .tc r) = V (Proc.devRef .tc r) := by
  rw [ops_eq, after_append, after_append, after_append, after_of_writes_sub ops4 _ wr4_sub h4,
    after_of_writes_sub ops3 _ wr3_sub h3, after_of_writes_sub ops2 _ wr2_sub h2, after_of_writes_sub ops1 _ wr1_sub h1]

theorem s1_keeps_arg8 (V : Valuation τ sig (Elt F)) :
    after ops1 V (Proc.devRef .tc main_arg8) = V (Proc.devRef .tc main_arg8) :=
  after_of_writes_sub ops1 V wr1_sub (by decide)
theorem s1_keeps_arg9 (V : Valuation τ sig (Elt F)) :
    after ops1 V (Proc.devRef .tc main_arg9) = V (Proc.devRef .tc main_arg9) :=
  after_of_writes_sub ops1 V wr1_sub (by decide)
theorem s1_keeps_arg10 (V : Valuation τ sig (Elt F)) :
    after ops1 V (Proc.devRef .tc main_arg10) = V (Proc.devRef .tc main_arg10) :=
  after_of_writes_sub ops1 V wr1_sub (by decide)
theorem s1_keeps_arg11 (V : Valuation τ sig (Elt F)) :
    after ops1 V (Proc.devRef .tc main_arg11) = V (Proc.devRef .tc main_arg11) :=
  after_of_writes_sub ops1 V wr1_sub (by decide)
theorem s1_keeps_arg12 (V : Valuation τ sig (Elt F)) :
    after ops1 V (Proc.devRef .tc main_arg12) = V (Proc.devRef .tc main_arg12) :=
  after_of_writes_sub ops1 V wr1_sub (by decide)
theorem s1_keeps_arg13 (V : Valuation τ sig (Elt F)) :
    after ops1 V (Proc.devRef .tc main_arg13) = V (Proc.devRef .tc main_arg13) :=
  after_of_writes_sub ops1 V wr1_sub (by decide)
theorem s1_keeps_arg14 (V : Valuation τ sig (Elt F)) :
    after ops1 V (Proc.devRef .tc main_arg14) = V (Proc.devRef .tc main_arg14) :=
  after_of_writes_sub ops1 V wr1_sub (by decide)
theorem s1_keeps_arg15 (V : Valuation τ sig (Elt F)) :
    after ops1 V (Proc.devRef .tc main_arg15) = V (Proc.devRef .tc main_arg15) :=
  after_of_writes_sub ops1 V wr1_sub (by decide)
theorem s2_keeps_v3 (V : Valuation τ sig (Elt F)) :
    after ops2 V (Proc.devRef .tc main_v3) = V (Proc.devRef .tc main_v3) :=
  after_of_writes_sub ops2 V wr2_sub (by decide)
theorem s2_keeps_arg12 (V : Valuation τ sig (Elt F)) :
    after ops2 V (Proc.devRef .tc main_arg12) = V (Proc.devRef .tc main_arg12) :=
  after_of_writes_sub ops2 V wr2_sub (by decide)
theorem s2_keeps_arg13 (V : Valuation τ sig (Elt F)) :
    after ops2 V (Proc.devRef .tc main_arg13) = V (Proc.devRef .tc main_arg13) :=
  after_of_writes_sub ops2 V wr2_sub (by decide)
theorem s2_keeps_arg14 (V : Valuation τ sig (Elt F)) :
    after ops2 V (Proc.devRef .tc main_arg14) = V (Proc.devRef .tc main_arg14) :=
  after_of_writes_sub ops2 V wr2_sub (by decide)
theorem s2_keeps_arg15 (V : Valuation τ sig (Elt F)) :
    after ops2 V (Proc.devRef .tc main_arg15) = V (Proc.devRef .tc main_arg15) :=
  after_of_writes_sub ops2 V wr2_sub (by decide)
theorem s3_keeps_arg12 (V : Valuation τ sig (Elt F)) :
    after ops3 V (Proc.devRef .tc main_arg12) = V (Proc.devRef .tc main_arg12) :=
  after_of_writes_sub ops3 V wr3_sub (by decide)
theorem s3_keeps_arg13 (V : Valuation τ sig (Elt F)) :
    after ops3 V (Proc.devRef .tc main_arg13) = V (Proc.devRef .tc main_arg13) :=
  after_of_writes_sub ops3 V wr3_sub (by decide)
theorem s3_keeps_arg14 (V : Valuation τ sig (Elt F)) :
    after ops3 V (Proc.devRef .tc main_arg14) = V (Proc.devRef .tc main_arg14) :=
  after_of_writes_sub ops3 V wr3_sub (by decide)
theorem s3_keeps_arg15 (V : Valuation τ sig (Elt F)) :
    after ops3 V (Proc.devRef .tc main_arg15) = V (Proc.devRef .tc main_arg15) :=
  after_of_writes_sub ops3 V wr3_sub (by decide)

/-! ## The four stage values -/

set_option maxRecDepth 8192 in
set_option maxHeartbeats 4000000 in
/-- After the first piece the position code is the reference's position-code value of the arguments. -/
theorem s1_v27 (V : Valuation τ sig (Elt F)) :
    after ops1 V (Proc.devRef .tc main_v27) = val_main_v27 (F := F) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  after_results_simp <;> rfl
set_option maxRecDepth 8192 in
/-- After the first piece the gathered embeddings are the reference's gather of the arguments. -/
theorem s1_v34 (V : Valuation τ sig (Elt F)) :
    after ops1 V (Proc.devRef .tc main_v34) = val_main_v34 (F := F) (V (Proc.devRef .tc main_arg0)) (V (Proc.devRef .tc main_arg3)) := by
  after_results_simp <;> rfl
set_option maxRecDepth 8192 in
/-- After the first piece the destination cells are the second row of the edge list. -/
theorem s1_v3 (V : Valuation τ sig (Elt F)) :
    after ops1 V (Proc.devRef .tc main_v3) = val_main_v3 (F := F) (V (Proc.devRef .tc main_arg3)) := by
  after_results_simp <;> rfl

set_option maxRecDepth 8192 in
/-- The second piece turns gathered embeddings and position code into the message. -/
theorem s2_v44 (V : Valuation τ sig (Elt F)) (x0 : (⟨S65536x128, .f32⟩ : BufTy).Contents (Elt F)) (x1 : (⟨S65536x3, .f32⟩ : BufTy).Contents (Elt F)) (x2 : (⟨S32768x3, .f32⟩ : BufTy).Contents (Elt F)) (x3 : (⟨S2x524288, .i32⟩ : BufTy).Contents (Elt F)) (x4 : (⟨S6x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S256x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F))
    (h34 : V (Proc.devRef .tc main_v34) = val_main_v34 (F := F) x0 x3) (h27 : V (Proc.devRef .tc main_v27) = val_main_v27 (F := F) x1 x2 x3 x4 x5 x6 x7)
    (h8 : V (Proc.devRef .tc main_arg8) = x8) (h9 : V (Proc.devRef .tc main_arg9) = x9) (h10 : V (Proc.devRef .tc main_arg10) = x10) (h11 : V (Proc.devRef .tc main_arg11) = x11) :
    after ops2 V (Proc.devRef .tc main_v44) = val_main_v44 (F := F) x0 x1 x2 x3 x4 x5 x6 x7 x8 x9 x10 x11 := by
  after_results_simp
  rw [h34, h27, h8, h9, h10, h11]
  rfl

set_option maxRecDepth 8192 in
/-- The third piece sums the messages over the edges arriving at each cell. -/
theorem s3_v47 (V : Valuation τ sig (Elt F)) (x0 : (⟨S65536x128, .f32⟩ : BufTy).Contents (Elt F)) (x1 : (⟨S65536x3, .f32⟩ : BufTy).Contents (Elt F)) (x2 : (⟨S32768x3, .f32⟩ : BufTy).Contents (Elt F)) (x3 : (⟨S2x524288, .i32⟩ : BufTy).Contents (Elt F)) (x4 : (⟨S6x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S256x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F))
    (h44 : V (Proc.devRef .tc main_v44) = val_main_v44 (F := F) x0 x1 x2 x3 x4 x5 x6 x7 x8 x9 x10 x11) (h3 : V (Proc.devRef .tc main_v3) = val_main_v3 (F := F) x3) :
    after ops3 V (Proc.devRef .tc main_v47) = val_main_v47 (F := F) x0 x1 x2 x3 x4 x5 x6 x7 x8 x9 x10 x11 := by
  after_results_simp
  rw [h44, h3]
  rfl
/-- The third piece counts the edges arriving at each cell. -/
theorem s3_v51 (V : Valuation τ sig (Elt F)) (x3 : (⟨S2x524288, .i32⟩ : BufTy).Contents (Elt F))
    (h3 : V (Proc.devRef .tc main_v3) = val_main_v3 (F := F) x3) :
    after ops3 V (Proc.devRef .tc main_v51) = val_main_v51 (F := F) x3 := by
  after_results_simp
  rw [h3]
  rfl

set_option maxRecDepth 8192 in
/-- The fourth piece turns sums and counts into the result. -/
theorem s4_v63 (V : Valuation τ sig (Elt F)) (x0 : (⟨S65536x128, .f32⟩ : BufTy).Contents (Elt F)) (x1 : (⟨S65536x3, .f32⟩ : BufTy).Contents (Elt F)) (x2 : (⟨S32768x3, .f32⟩ : BufTy).Contents (Elt F)) (x3 : (⟨S2x524288, .i32⟩ : BufTy).Contents (Elt F)) (x4 : (⟨S6x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S256x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) (x12 : (⟨S128x128, .f32⟩ : BufTy).Contents (Elt F)) (x13 : (⟨S128, .f32⟩ : BufTy).Contents (Elt F)) (x14 : (⟨S128x128, .f32⟩ : BufTy).Contents (Elt F)) (x15 : (⟨S128, .f32⟩ : BufTy).Contents (Elt F))
    (h47 : V (Proc.devRef .tc main_v47) = val_main_v47 (F := F) x0 x1 x2 x3 x4 x5 x6 x7 x8 x9 x10 x11) (h51 : V (Proc.devRef .tc main_v51) = val_main_v51 (F := F) x3)
    (h12 : V (Proc.devRef .tc main_arg12) = x12) (h13 : V (Proc.devRef .tc main_arg13) = x13) (h14 : V (Proc.devRef .tc main_arg14) = x14) (h15 : V (Proc.devRef .tc main_arg15) = x15) :
    after ops4 V (Proc.devRef .tc main_v63) = val_main_v63 (F := F) x0 x1 x2 x3 x4 x5 x6 x7 x8 x9 x10 x11 x12 x13 x14 x15 := by
  after_results_simp
  rw [h47, h51, h12, h13, h14, h15]
  rfl

/-! ## The whole line -/

/-- The line's value at the result buffer is the reference's value function of the sixteen arguments. -/
theorem result_eq (V : Valuation τ sig (Elt F)) :
    after ops V (Proc.devRef .tc main_v63) = val_main_v63 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) := by
  rw [ops_eq, after_append, after_append, after_append]
  refine s4_v63 _ _ _ _ _ _ _ _ _ _ _ _ _ _ _ _ _ ?_ ?_ ?_ ?_ ?_ ?_
  · refine s3_v47 _ _ _ _ _ _ _ _ _ _ _ _ _ ?_ ?_
    · exact s2_v44 _ _ _ _ _ _ _ _ _ _ _ _ _ (s1_v34 V) (s1_v27 V) (s1_keeps_arg8 V) (s1_keeps_arg9 V) (s1_keeps_arg10 V) (s1_keeps_arg11 V)
    · rw [s2_keeps_v3]; exact s1_v3 V
  · refine s3_v51 _ _ ?_
    rw [s2_keeps_v3]; exact s1_v3 V
  · rw [s3_keeps_arg12, s2_keeps_arg12, s1_keeps_arg12]
  · rw [s3_keeps_arg13, s2_keeps_arg13, s1_keeps_arg13]
  · rw [s3_keeps_arg14, s2_keeps_arg14, s1_keeps_arg14]
  · rw [s3_keeps_arg15, s2_keeps_arg15, s1_keeps_arg15]

/-- On every device, for any float values, from any memory with zero counters: every weakly fair execution of
    the reference terminates with its result at the reference's value function of the launched arguments, and
    the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v63) = val_main_v63 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨(h c main_v63).trans (result_eq (launchContents m c)),
      (h c main_arg0).trans (keeps (by decide) (by decide) (by decide) (by decide) (launchContents m c)),
      (h c main_arg1).trans (keeps (by decide) (by decide) (by decide) (by decide) (launchContents m c)),
      (h c main_arg2).trans (keeps (by decide) (by decide) (by decide) (by decide) (launchContents m c)),
      (h c main_arg3).trans (keeps (by decide) (by decide) (by decide) (by decide) (launchContents m c)),
      (h c main_arg4).trans (keeps (by decide) (by decide) (by decide) (by decide) (launchContents m c)),
      (h c main_arg5).trans (keeps (by decide) (by decide) (by decide) (by decide) (launchContents m c)),
      (h c main_arg6).trans (keeps (by decide) (by decide) (by decide) (by decide) (launchContents m c)),
      (h c main_arg7).trans (keeps (by decide) (by decide) (by decide) (by decide) (launchContents m c)),
      (h c main_arg8).trans (keeps (by decide) (by decide) (by decide) (by decide) (launchContents m c)),
      (h c main_arg9).trans (keeps (by decide) (by decide) (by decide) (by decide) (launchContents m c)),
      (h c main_arg10).trans (keeps (by decide) (by decide) (by decide) (by decide) (launchContents m c)),
      (h c main_arg11).trans (keeps (by decide) (by decide) (by decide) (by decide) (launchContents m c)),
      (h c main_arg12).trans (keeps (by decide) (by decide) (by decide) (by decide) (launchContents m c)),
      (h c main_arg13).trans (keeps (by decide) (by decide) (by decide) (by decide) (launchContents m c)),
      (h c main_arg14).trans (keeps (by decide) (by decide) (by decide) (by decide) (launchContents m c)),
      (h c main_arg15).trans (keeps (by decide) (by decide) (by decide) (by decide) (launchContents m c))⟩)
    (run_seq scopedRefs_eq scopedSems_eq defs main (fun _ => ops) main_eq (fun _ => ops_sub) m ρ)

end Cert.ReferenceIdeal.RunP

end
-- ==== Proof.lean ====
/-
  Two programs compute one message-passing layer of a graph network: every edge gathers its source
  node's embedding and the positions of its two ends, two small perceptrons turn them into a message,
  messages are averaged per destination cell, and a third perceptron maps each cell's mean to the
  result. The kernel does the per-edge and the per-cell perceptrons in two grid regions over blocks of
  4096 rows, applies the first message layer half by half instead of to 256 entries at once, and
  multiplies the sums by 1 / max(count, 1) where the reference divides by the count.

  Over the extended reals the two results are equal wherever every cell receives at least one edge:
  splitting a 256-term sum in two is associativity of +, and for 1 ≤ c multiplying by 1 / max(c, 1) is
  dividing by c. Where a cell receives no edge the reference divides zero by zero, which is why the
  precondition asks for at least one edge per cell. Finiteness of the float inputs is never used.

  The kernel's two frames are the generated ones; the reference's is its run with the result dropped; the
  idealization rewrote nothing, so it is preserved trivially; the equality of results is assembled
  here from the kernel's run with its result named and the reference's run.
-/
import proofs.«138658_j66108136620503_2_alg».proof.Defs
import proofs.«138658_j66108136620503_2_alg».proof.Proof.Gen.Kernel
import proofs.«138658_j66108136620503_2_alg».proof.Proof.Gen.Kernel.Skeleton
import proofs.«138658_j66108136620503_2_alg».proof.Proof.Gen.Kernel.Launch
import proofs.«138658_j66108136620503_2_alg».proof.Proof.Gen.Kernel.Points
import proofs.«138658_j66108136620503_2_alg».proof.Proof.Gen.Kernel.Frame
import proofs.«138658_j66108136620503_2_alg».proof.Proof.Gen.KernelIdeal
import proofs.«138658_j66108136620503_2_alg».proof.Proof.Gen.KernelIdeal.Skeleton
import proofs.«138658_j66108136620503_2_alg».proof.Proof.Gen.KernelIdeal.Launch
import proofs.«138658_j66108136620503_2_alg».proof.Proof.Gen.KernelIdeal.Points
import proofs.«138658_j66108136620503_2_alg».proof.Proof.Gen.KernelIdeal.Frame
import proofs.«138658_j66108136620503_2_alg».proof.Proof.Gen.ReferenceIdeal
import proofs.«138658_j66108136620503_2_alg».proof.Proof.Gen.Pre_finite_inputs
import proofs.«138658_j66108136620503_2_alg».proof.Proof.KernelRun
import proofs.«138658_j66108136620503_2_alg».proof.Proof.PreDecode
import proofs.«138658_j66108136620503_2_alg».proof.Proof.Bridge
import proofs.«138658_j66108136620503_2_alg».proof.Proof.RefRun
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.RunP.run (F := Ideal) m ρ)

/-- The ideal pass rewrote no operation. -/
theorem preserves : Cert.preserves_Kernel_KernelIdeal := trivial

/-- Under the precondition every cell's count, as the reference computes it, is at least one. -/
theorem counts_of_pre (m : (ℓ : Loc Cert.KernelIdeal.nD Cert.KernelIdeal.τ Cert.KernelIdeal.sig) → Buf (Elt Ideal) ℓ)
    (hpre : Cert.Pre_KernelIdeal m) (c : Dev Cert.KernelIdeal.nD) (g : Cert.KernelIdeal.S32768.Idx) :
    1 ≤ Cert.Bridge.refCounts m c g :=
  Cert.PreDecode.one_le_counts _ _ _ _ _ _ _ _ _ _ _ _ _ _ _ _ (hpre c) g

/-- From memories agreeing on the arguments both programs end with the reference's result of those
    arguments: the kernel by its named run and the bridge, the reference by its own run. -/
theorem algebraic : Cert.algebraic_KernelIdeal_ReferenceIdeal := by
  intro m ρ m' ρ' hpre hagree
  refine ⟨fun c => Cert.Bridge.refResult m c, ?_, ?_⟩
  · exact (θ_run Cert.KernelIdeal.defs _ _).mono
      (fun r h c => ⟨(h c).1.trans (Cert.Bridge.result_eq m ρ c (counts_of_pre m hpre c)), (h c).2⟩)
      (Cert.KernelIdeal.Named.run_named (F := Ideal) m ρ)
  · refine (θ_run Cert.ReferenceIdeal.defs _ _).mono (fun r h c => ⟨(h c).1.trans ?_, (h c).2⟩)
      (Cert.ReferenceIdeal.RunP.run (F := Ideal) m' ρ')
    obtain ⟨a0, a1, a2, a3, a4, a5, a6, a7, a8, a9, a10, a11, a12, a13, a14, a15⟩ := hagree c
    rw [a0, a1, a2, a3, a4, a5, a6, a7, a8, a9, a10, a11, a12, a13, a14, a15]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
